-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S3x128 .f32) (main_arg10 : FVec F S3x128 .f32) (main_arg11 : FVec F S128x64 .f32) (main_arg12 : FVec F S64 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S3x128 .f32) (main_arg7 : FVec F S3x128x128 .f32) (main_arg8 : FVec F S3x128 .f32) (main_arg9 : FVec F S3x128 .f32) (main_arg10 : FVec F S3x128 .f32) (main_arg11 : FVec F S128x64 .f32) (main_arg12 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) (main_arg7 : FVec F S3x128x128 .f32) (main_arg8 : FVec F S3x128 .f32) (main_arg9 : FVec F S3x128 .f32) (main_arg10 : FVec F S3x128 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 196
  | .vmem => 78
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S128x64, .f32⟩
  | 12 => ⟨S64, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S64x128, .f32⟩
  | 32 => ⟨S50000x1, .i32⟩
  | 33 => ⟨S64x128, .f32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S50000x128, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S_, .f32⟩
  | 90 => ⟨S64x128, .f32⟩
  | 91 => ⟨S50000x1, .i32⟩
  | 92 => ⟨S64x128, .f32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S50000x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S50000x128, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S_, .f32⟩
  | 21 => ⟨S64x128, .f32⟩
  | 22 => ⟨S50000x1, .i32⟩
  | 23 => ⟨S64x128, .f32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S50000x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S128, .f32⟩
  | 61 => ⟨S1x128, .f32⟩
  | 62 => ⟨S1x128, .f32⟩
  | 63 => ⟨S128, .f32⟩
  | 64 => ⟨S1x128, .f32⟩
  | 65 => ⟨S50000x128, .f32⟩
  | 66 => ⟨S1x64, .f32⟩
  | 67 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S128x64, .f32⟩
  | .local _ .vmem, ⟨75, _⟩ => ⟨S1x64, .f32⟩
  | .local _ .vmem, ⟨76, _⟩ => ⟨S5000x64, .f32⟩
  | .local _ .vmem, ⟨77, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_6 : Ref sig .tc := ⟨.hbm, 76, rfl⟩
abbrev main_v53 : Ref sig .tc := ⟨.hbm, 77, rfl⟩
abbrev main_v54 : Ref sig .tc := ⟨.hbm, 78, rfl⟩
abbrev main_c_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_10 : Ref sig .tc := ⟨.hbm, 93, rfl⟩
abbrev main_v66 : Ref sig .tc := ⟨.hbm, 94, rfl⟩
abbrev main_v67 : Ref sig .tc := ⟨.hbm, 95, rfl⟩
abbrev main_c_11 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88_0 : Ref sig .tc := ⟨.hbm, 117, rfl⟩
abbrev main_v88_1 : Ref sig .tc := ⟨.hbm, 118, rfl⟩
abbrev main_v88_2 : Ref sig .tc := ⟨.hbm, 119, rfl⟩
abbrev main_cst_12 : Ref sig .tc := ⟨.hbm, 120, rfl⟩
abbrev main_v89 : Ref sig .tc := ⟨.hbm, 121, rfl⟩
abbrev main_v90 : Ref sig .tc := ⟨.hbm, 122, rfl⟩
abbrev main_cst_13 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_14 : Ref sig .tc := ⟨.hbm, 135, rfl⟩
abbrev main_v102 : Ref sig .tc := ⟨.hbm, 136, rfl⟩
abbrev main_v103 : Ref sig .tc := ⟨.hbm, 137, rfl⟩
abbrev main_c_15 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_16 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_17 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_18 : Ref sig .tc := ⟨.hbm, 152, rfl⟩
abbrev main_v115 : Ref sig .tc := ⟨.hbm, 153, rfl⟩
abbrev main_v116 : Ref sig .tc := ⟨.hbm, 154, rfl⟩
abbrev main_c_19 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137_0 : Ref sig .tc := ⟨.hbm, 176, rfl⟩
abbrev main_v137_1 : Ref sig .tc := ⟨.hbm, 177, rfl⟩
abbrev main_v137_2 : Ref sig .tc := ⟨.hbm, 178, rfl⟩
abbrev main_cst_20 : Ref sig .tc := ⟨.hbm, 179, rfl⟩
abbrev main_v138 : Ref sig .tc := ⟨.hbm, 180, rfl⟩
abbrev main_v139 : Ref sig .tc := ⟨.hbm, 181, rfl⟩
abbrev main_cst_21 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc2_stg10_0 : Ref sig .tc := ⟨.vmem, 38, rfl⟩
abbrev cc2_stg11_0 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg8_0 : Ref sig .tc := ⟨.vmem, 59, rfl⟩
abbrev cc4_stg9_0 : Ref sig .tc := ⟨.vmem, 60, rfl⟩
abbrev cc4_stg9_1 : Ref sig .tc := ⟨.vmem, 61, rfl⟩
abbrev cc4_stg10_0 : Ref sig .tc := ⟨.vmem, 62, rfl⟩
abbrev cc4_stg11_0 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg3_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37
abbrev cc2_sem10_0 : DmaSem sig := 38
abbrev cc2_sem11_0 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem8_0 : DmaSem sig := 59
abbrev cc4_sem9_0 : DmaSem sig := 60
abbrev cc4_sem9_1 : DmaSem sig := 61
abbrev cc4_sem10_0 : DmaSem sig := 62
abbrev cc4_sem11_0 : DmaSem sig := 63
abbrev cc5_sem0_0 : DmaSem sig := 64
abbrev cc5_sem0_1 : DmaSem sig := 65
abbrev cc5_sem1_0 : DmaSem sig := 66
abbrev cc5_sem2_0 : DmaSem sig := 67
abbrev cc5_sem3_0 : DmaSem sig := 68
abbrev cc5_sem4_0 : DmaSem sig := 69
abbrev cc5_sem5_0 : DmaSem sig := 70
abbrev cc5_sem5_1 : DmaSem sig := 71
abbrev cc6_sem0_0 : DmaSem sig := 72
abbrev cc6_sem0_1 : DmaSem sig := 73
abbrev cc6_sem1_0 : DmaSem sig := 74
abbrev cc6_sem2_0 : DmaSem sig := 75
abbrev cc6_sem3_0 : DmaSem sig := 76
abbrev cc6_sem3_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  gather_S64x128_S50000x1_S50000x128_1_0_n_n_0_1_1128_wf : GatherDims.WF S64x128 S50000x1 S50000x128 [1] [0] [] [0] [] 1 ![1, 128]
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S50000x128.size a
  hwx4_9 : ∀ i : grid4.Coords, EltTy.bits .f32 = 32 ∨ (Rect.block (s := S50000x128) S5000x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v39_1) S1x128.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39_2) S1x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v39_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v74) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v79) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v84) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v87) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v88_0) S5000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v88_1) S1x128.size cc2_transform_10 reads2_10 true true 1 stage2_10 sem2_10
    hrank2 hreads2_10 hinb2_10 nbuf2_10 (Memref.isWhole_whole _) hwx2_10 hstage2_10

abbrev win2_11 : Pipeline.Window sig grid2 :=
  Pipeline.Window.ofSpec (Memref.whole main_v88_2) S1x128.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v88_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v97) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v101) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v121) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v123) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v126) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v128) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v131) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v133) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v136) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v137_0) S5000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v137_1) S1x128.size cc4_transform_10 reads4_10 true true 1 stage4_10 sem4_10
    hrank4 hreads4_10 hinb4_10 nbuf4_10 (Memref.isWhole_whole _) hwx4_10 hstage4_10

abbrev win4_11 : Pipeline.Window sig grid4 :=
  Pipeline.Window.ofSpec (Memref.whole main_v137_2) S1x128.size cc4_transform_11 reads4_11 true true 1 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v137_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v139) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v143) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v146) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v149) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v150) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v150) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v151) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v152) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x64 : Shape := ⟨2, ![50000, 64]⟩
abbrev S1x64 : Shape := ⟨2, ![1, 64]⟩

abbrev nBuf : Space → Nat
  | .hbm => 288
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S128x64, .f32⟩
  | 12 => ⟨S64, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S64x128, .f32⟩
  | 32 => ⟨S50000x1, .i32⟩
  | 33 => ⟨S64x128, .f32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S1x128x128, .f32⟩
  | 52 => ⟨S128x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S50000x128, .f32⟩
  | 60 => ⟨S1x128x128, .f32⟩
  | 61 => ⟨S128x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S_, .f32⟩
  | 120 => ⟨S64x128, .f32⟩
  | 121 => ⟨S50000x1, .i32⟩
  | 122 => ⟨S64x128, .f32⟩
  | 123 => ⟨S_, .i32⟩
  | 124 => ⟨S50000, .i32⟩
  | 125 => ⟨S50000, .i1⟩
  | 126 => ⟨S_, .i32⟩
  | 127 => ⟨S50000, .i32⟩
  | _ => ⟨S50000x128, .f32⟩

abbrev hbmTy0_1 (i : Nat) : BufTy := match i % 128 with
  | 0 => ⟨S50000, .i32⟩
  | 1 => ⟨S50000, .i32⟩
  | 2 => ⟨S50000x1, .i32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S1x128x128, .f32⟩
  | 13 => ⟨S128x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S50000x128, .f32⟩
  | 21 => ⟨S1x128x128, .f32⟩
  | 22 => ⟨S128x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S_, .f32⟩
  | 81 => ⟨S64x128, .f32⟩
  | 82 => ⟨S50000x1, .i32⟩
  | 83 => ⟨S64x128, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000x128, .f32⟩
  | 93 => ⟨S1x128x128, .f32⟩
  | 94 => ⟨S128x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S128, .f32⟩
  | 124 => ⟨S_, .f32⟩
  | 125 => ⟨S128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S50000x64, .f32⟩
  | 29 => ⟨S1x64, .f32⟩
  | 30 => ⟨S50000x64, .f32⟩
  | 31 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_9 : Ref sig .tc := ⟨.hbm, 106, rfl⟩
abbrev main_v80 : Ref sig .tc := ⟨.hbm, 107, rfl⟩
abbrev main_v81 : Ref sig .tc := ⟨.hbm, 108, rfl⟩
abbrev main_c_10 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_11 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_12 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_13 : Ref sig .tc := ⟨.hbm, 123, rfl⟩
abbrev main_v93 : Ref sig .tc := ⟨.hbm, 124, rfl⟩
abbrev main_v94 : Ref sig .tc := ⟨.hbm, 125, rfl⟩
abbrev main_c_14 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_call1_cst : Ref sig .tc := ⟨.hbm, 158, rfl⟩
abbrev main_call1_v0 : Ref sig .tc := ⟨.hbm, 159, rfl⟩
abbrev main_v126 : Ref sig .tc := ⟨.hbm, 160, rfl⟩
abbrev main_cst_15 : Ref sig .tc := ⟨.hbm, 161, rfl⟩
abbrev main_v127 : Ref sig .tc := ⟨.hbm, 162, rfl⟩
abbrev main_cst_16 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_17 : Ref sig .tc := ⟨.hbm, 170, rfl⟩
abbrev main_v134 : Ref sig .tc := ⟨.hbm, 171, rfl⟩
abbrev main_cst_18 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_19 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_c_20 : Ref sig .tc := ⟨.hbm, 195, rfl⟩
abbrev main_v156 : Ref sig .tc := ⟨.hbm, 196, rfl⟩
abbrev main_v157 : Ref sig .tc := ⟨.hbm, 197, rfl⟩
abbrev main_c_21 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_22 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_23 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_c_24 : Ref sig .tc := ⟨.hbm, 212, rfl⟩
abbrev main_v169 : Ref sig .tc := ⟨.hbm, 213, rfl⟩
abbrev main_v170 : Ref sig .tc := ⟨.hbm, 214, rfl⟩
abbrev main_c_25 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_call2_cst : Ref sig .tc := ⟨.hbm, 247, rfl⟩
abbrev main_call2_v0 : Ref sig .tc := ⟨.hbm, 248, rfl⟩
abbrev main_v202 : Ref sig .tc := ⟨.hbm, 249, rfl⟩
abbrev main_cst_26 : Ref sig .tc := ⟨.hbm, 250, rfl⟩
abbrev main_v203 : Ref sig .tc := ⟨.hbm, 251, rfl⟩
abbrev main_cst_27 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_cst_28 : Ref sig .tc := ⟨.hbm, 259, rfl⟩
abbrev main_v210 : Ref sig .tc := ⟨.hbm, 260, rfl⟩
abbrev main_cst_29 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_cst_30 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  gather_S64x128_S50000x1_S50000x128_1_0_n_n_0_1_1128_wf : GatherDims.WF S64x128 S50000x1 S50000x128 [1] [0] [] [0] [] 1 ![1, 128]
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  A three-layer graph network over 50000 nodes with 128 features, as one function of its arguments, entry by
  entry over the extended reals.

  One layer takes the node features h, the neighbour sums agg and the per-graph read-outs ro (all [50000, 128]),
  forms the three affine maps h·V + v, agg·A + a, ro·R + r with the layer's weights, adds them, clamps below at
  zero, and normalises every column over the 50000 rows: subtract the column mean, multiply by the reciprocal
  square root of (the column variance + ε), scale by γ and shift by β. The head is one more affine map into 64
  columns. How agg and ro are obtained from h (sums of gathered rows) is left to two function parameters.

  Two forms of the column variance are stated: the centred form, the mean of the squared deviations, and the
  moment form, the mean of the squares minus the square of the mean. They agree on real entries (SpecLaws).
-/
import Idealize.ShloMosaic.Lib.ValueIdx
import Idealize.ShloMosaic.PureOps.Ideal.Laws

noncomputable section

namespace Cert.GnnSpec

open Idealize.ShloMosaic Idealize.ShloMosaic.ValueIdx

/-- Arrays of extended reals over literal shapes. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- The number of rows, as the float 50000.0. -/
def cN : EReal := Ideal.ofBits .f32 0x47435000#32
/-- The variance offset ε, as the float nearest 1e-5. -/
def cEps : EReal := Ideal.ofBits .f32 0x3727C5AC#32

/-- Every entry is a real number. -/
def IsReal {ι : Type} (v : ι → EReal) : Prop := ∀ i, ∃ r : ℝ, v i = (r : EReal)

/-- Row p of h times column q of layer l's weight matrix, plus the layer's bias at q. -/
def lin (l : Fin 3) (h : A2 50000 128) (W : A3 3 128 128) (b : A2 3 128) (p : Fin 50000) (q : Fin 128) : EReal :=
  (∑ k : Fin 128, h (ix2 p k) * W (ix3 l k q)) + b (ix2 l q)

/-- The weights of the three layers. -/
structure Params where
  Vw : A3 3 128 128
  Vb : A2 3 128
  Aw : A3 3 128 128
  Ab : A2 3 128
  Rw : A3 3 128 128
  Rb : A2 3 128
  gamma : A2 3 128
  beta : A2 3 128

/-- All weights are real. -/
def Params.IsReal (P : Params) : Prop :=
  GnnSpec.IsReal P.Vw ∧ GnnSpec.IsReal P.Vb ∧ GnnSpec.IsReal P.Aw ∧ GnnSpec.IsReal P.Ab ∧ GnnSpec.IsReal P.Rw ∧ GnnSpec.IsReal P.Rb
    ∧ GnnSpec.IsReal P.gamma ∧ GnnSpec.IsReal P.beta

/-- The combined, clamped pre-normalisation features of layer l. -/
def pre (l : Fin 3) (P : Params) (h agg ro : A2 50000 128) : A2 50000 128 :=
  fun i => max ((lin l h P.Vw P.Vb (i 0) (i 1) + lin l agg P.Aw P.Ab (i 0) (i 1)) + lin l ro P.Rw P.Rb (i 0) (i 1)) 0

/-- The sum of column q over all rows. -/
def colsum (p : A2 50000 128) (q : Fin 128) : EReal := ∑ r : Fin 50000, p (ix2 r q)

/-- The mean of column q. -/
def mean (p : A2 50000 128) (q : Fin 128) : EReal := Ideal.div (colsum p q) cN

/-- The variance of column q, centred form: the mean of the squared deviations from the column mean. -/
def varC (p : A2 50000 128) (q : Fin 128) : EReal :=
  Ideal.div (∑ r : Fin 50000, (p (ix2 r q) - mean p q) * (p (ix2 r q) - mean p q)) cN

/-- The variance of column q, moment form: the mean of the squares minus the square of the mean. -/
def varM (p : A2 50000 128) (q : Fin 128) : EReal :=
  Ideal.div (∑ r : Fin 50000, p (ix2 r q) * p (ix2 r q)) cN - mean p q * mean p q

/-- Column normalisation with layer l's scale and shift. -/
def norm (l : Fin 3) (P : Params) (p : A2 50000 128) (mu var : Fin 128 → EReal) : A2 50000 128 :=
  fun i => (p i - mu (i 1)) * Ideal.rsqrt (var (i 1) + cEps) * P.gamma (ix2 l (i 1)) + P.beta (ix2 l (i 1))

/-- One layer, variance in centred form. -/
def layerC (l : Fin 3) (P : Params) (h agg ro : A2 50000 128) : A2 50000 128 :=
  norm l P (pre l P h agg ro) (mean (pre l P h agg ro)) (varC (pre l P h agg ro))

/-- One layer, variance in moment form. -/
def layerM (l : Fin 3) (P : Params) (h agg ro : A2 50000 128) : A2 50000 128 :=
  norm l P (pre l P h agg ro) (mean (pre l P h agg ro)) (varM (pre l P h agg ro))

/-- The prediction head: h·W + b into 64 columns. -/
def head (h : A2 50000 128) (pw : A2 128 64) (pb : A1 64) : A2 50000 64 :=
  fun i => (∑ k : Fin 128, h (ix2 (i 0) k) * pw (ix2 k (i 1))) + pb (ix1 (i 1))

/-- Three layers and the head, variance in centred form; aggF and roF give agg and ro from h. -/
def netC (aggF roF : A2 50000 128 → A2 50000 128) (P : Params) (x : A2 50000 128) (pw : A2 128 64) (pb : A1 64) : A2 50000 64 :=
  head (layerC 2 P (layerC 1 P (layerC 0 P x (aggF x) (roF x)) (aggF (layerC 0 P x (aggF x) (roF x))) (roF (layerC 0 P x (aggF x) (roF x))))
      (aggF (layerC 1 P (layerC 0 P x (aggF x) (roF x)) (aggF (layerC 0 P x (aggF x) (roF x))) (roF (layerC 0 P x (aggF x) (roF x)))))
      (roF (layerC 1 P (layerC 0 P x (aggF x) (roF x)) (aggF (layerC 0 P x (aggF x) (roF x))) (roF (layerC 0 P x (aggF x) (roF x)))))) pw pb

/-- Three layers and the head, variance in moment form. -/
def netM (aggF roF : A2 50000 128 → A2 50000 128) (P : Params) (x : A2 50000 128) (pw : A2 128 64) (pb : A1 64) : A2 50000 64 :=
  head (layerM 2 P (layerM 1 P (layerM 0 P x (aggF x) (roF x)) (aggF (layerM 0 P x (aggF x) (roF x))) (roF (layerM 0 P x (aggF x) (roF x))))
      (aggF (layerM 1 P (layerM 0 P x (aggF x) (roF x)) (aggF (layerM 0 P x (aggF x) (roF x))) (roF (layerM 0 P x (aggF x) (roF x)))))
      (roF (layerM 1 P (layerM 0 P x (aggF x) (roF x)) (aggF (layerM 0 P x (aggF x) (roF x))) (roF (layerM 0 P x (aggF x) (roF x)))))) pw pb

/-- The neighbour sums: the rows of h gathered at src, added into the rows named by dst of the array z. -/
def aggOf (gd : GatherDims ⟨2, ![50000, 128]⟩ ⟨2, ![800000, 1]⟩ ⟨2, ![800000, 128]⟩)
    (sd : ScatterDims ⟨2, ![50000, 128]⟩ ⟨2, ![800000, 1]⟩ ⟨2, ![800000, 128]⟩)
    (z : A2 50000 128) (src dst : IVec ⟨2, ![800000, 1]⟩ 32) (h : A2 50000 128) : A2 50000 128 :=
  Host.scatterAdd (F := Ideal) (φ := .f32) sd z dst (Host.gather gd h src)

/-- The per-graph read-outs: the rows of h added into the 64 rows named by b of the array z, then read back per node at b'. -/
def roOf (gd : GatherDims ⟨2, ![64, 128]⟩ ⟨2, ![50000, 1]⟩ ⟨2, ![50000, 128]⟩)
    (sd : ScatterDims ⟨2, ![64, 128]⟩ ⟨2, ![50000, 1]⟩ ⟨2, ![50000, 128]⟩)
    (z : A2 64 128) (b b' : IVec ⟨2, ![50000, 1]⟩ 32) (h : A2 50000 128) : A2 50000 128 :=
  Host.gather gd (Host.scatterAdd (F := Ideal) (φ := .f32) sd z b h) b'

end Cert.GnnSpec

end
-- ==== Proof.SpecL.lean ====
/-
  One layer of the network with the layer's weights already cut out: a [128, 128] matrix and a [1, 128] row per
  affine map, and [1, 128] rows for the column statistics, the scale and the shift. These are the shapes in which a
  kernel region meets them. Entry by entry they are the same functions as in the specification, whose weights are
  the [3, 128, 128] and [3, 128] stacks read at the layer's index.
-/
import proofs.«142960_j19688130085206_1_alg».proof.Proof.Spec

noncomputable section

namespace Cert.GnnSpec

open Idealize.ShloMosaic Idealize.ShloMosaic.ValueIdx

/-- Row p of h times column q of W, plus the bias row at q. -/
def linL (h : A2 50000 128) (W : A2 128 128) (b : A2 1 128) (p : Fin 50000) (q : Fin 128) : EReal :=
  (∑ k : Fin 128, h (ix2 p k) * W (ix2 k q)) + b (ix2 (0 : Fin 1) q)

/-- The three affine maps added and clamped below at zero. -/
def preL (h agg ro : A2 50000 128) (Wv Wa Wr : A2 128 128) (bv ba br : A2 1 128) : A2 50000 128 :=
  fun i => max ((linL h Wv bv (i 0) (i 1) + linL agg Wa ba (i 0) (i 1)) + linL ro Wr br (i 0) (i 1)) 0

/-- Column normalisation with the statistics, scale and shift given as rows. -/
def normL (p : A2 50000 128) (mu var g b : A2 1 128) : A2 50000 128 :=
  fun i => (p i - mu (ix2 (0 : Fin 1) (i 1))) * Ideal.rsqrt (var (ix2 (0 : Fin 1) (i 1)) + cEps) * g (ix2 (0 : Fin 1) (i 1)) + b (ix2 (0 : Fin 1) (i 1))

/-- The sum of the squares of column q over all rows. -/
def colsumsq (p : A2 50000 128) (q : Fin 128) : EReal := ∑ r : Fin 50000, p (ix2 r q) * p (ix2 r q)

/-- Layer l's matrix cut out of a stack of three. -/
def mat (l : Fin 3) (W : A3 3 128 128) : A2 128 128 := fun j => W (ix3 l (j 0) (j 1))

/-- Layer l's row cut out of a stack of three, as a [1, 128] array. -/
def row (l : Fin 3) (b : A2 3 128) : A2 1 128 := fun j => b (ix2 l (j 1))

theorem linL_mat_row (l : Fin 3) (h : A2 50000 128) (W : A3 3 128 128) (b : A2 3 128) (p : Fin 50000) (q : Fin 128) :
    linL h (mat l W) (row l b) p q = lin l h W b p q := rfl

/-- With the layer's weights cut out of the stacks, the clamped sum is the specification's. -/
theorem preL_eq_pre (l : Fin 3) (P : Params) (h agg ro : A2 50000 128) :
    preL h agg ro (mat l P.Vw) (mat l P.Aw) (mat l P.Rw) (row l P.Vb) (row l P.Ab) (row l P.Rb) = pre l P h agg ro := rfl

/-- With the statistics as rows and the layer's scale and shift cut out, the normalisation is the specification's. -/
theorem normL_eq_norm (l : Fin 3) (P : Params) (p : A2 50000 128) (mu var : A2 1 128) :
    normL p mu var (row l P.gamma) (row l P.beta) = norm l P p (fun q => mu (ix2 (0 : Fin 1) q)) (fun q => var (ix2 (0 : Fin 1) q)) := rfl

end Cert.GnnSpec

end
-- ==== Proof.HostK.lean ====
/-
  The host stretches of the program read as values, common part. The index arrays of the two accumulations (the
  edges' sources and destinations, the nodes' graphs) and the zero arrays they start from, as the host computes them
  from the two integer arguments; the neighbour sums and the per-graph read-outs as functions of the node features;
  a layer's matrix and row cut out of a stack of three by a slice and casts; the mean and variance rows read at a
  column: the column sum divided by 50000, and the sum of squares divided by 50000 less the square of the mean.
-/
import proofs.«142960_j19688130085206_1_alg».proof.Proof.Gen.KernelIdeal.Frame
import proofs.«142960_j19688130085206_1_alg».proof.Proof.Spec
import proofs.«142960_j19688130085206_1_alg».proof.Proof.SpecL
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-! ## The index arrays and the zero arrays the host computes from the two integer arguments -/

/-- Row 0 of the edge array, as a vector: the source node of every edge. -/
abbrev srcFlat (x1 : IVec S2x800000 32) : IVec S800000 32 :=
  shapeCast S800000 (extractStridedSlice S1x800000 ![0, 0] x1 slices_S2x800000_S1x800000_0_0) shapeCasts_S1x800000_S800000
/-- Row 1 of the edge array, as a vector: the destination node of every edge. -/
abbrev dstFlat (x1 : IVec S2x800000 32) : IVec S800000 32 :=
  shapeCast S800000 (extractStridedSlice S1x800000 ![1, 0] x1 slices_S2x800000_S1x800000_1_0) shapeCasts_S1x800000_S800000
/-- The gather's start indices: a source below zero counts from the end (50000 is added), as a column. -/
abbrev srcOf (f : IVec S800000 32) : IVec S800000x1 32 :=
  broadcastInDim S800000x1 ![0] bcast_S800000_S800000x1_0
    (select (cmpi .slt f (broadcastInDim S800000 ![] bcast_S_S800000 (constantI S_ 32 0#32)))
      (addi f (broadcastInDim S800000 ![] bcast_S_S800000 (constantI S_ 32 50000#32))) f)
/-- The scatter's indices: the destinations as a column. -/
abbrev dstOf (f : IVec S800000 32) : IVec S800000x1 32 := broadcastInDim S800000x1 ![0] bcast_S800000_S800000x1_0 f
abbrev srcK (x1 : IVec S2x800000 32) : IVec S800000x1 32 := srcOf (srcFlat x1)
abbrev dstK (x1 : IVec S2x800000 32) : IVec S800000x1 32 := dstOf (dstFlat x1)
/-- The zero array the neighbour sums are added into. -/
abbrev zAggK : FVec Ideal S50000x128 .f32 := broadcastInDim S50000x128 ![] bcast_S_S50000x128 (constant (F := Ideal) S_ .f32 0x00000000#32)
/-- The graph of every node, as a column: the scatter's indices of the read-out. -/
abbrev bK (x2 : IVec S50000 32) : IVec S50000x1 32 := broadcastInDim S50000x1 ![0] bcast_S50000_S50000x1_0 x2
/-- The read-back's start indices: a graph number below zero counts from the end (64 is added), as a column. -/
abbrev bK' (x2 : IVec S50000 32) : IVec S50000x1 32 :=
  broadcastInDim S50000x1 ![0] bcast_S50000_S50000x1_0
    (select (cmpi .slt x2 (broadcastInDim S50000 ![] bcast_S_S50000 (constantI S_ 32 0#32)))
      (addi x2 (broadcastInDim S50000 ![] bcast_S_S50000 (constantI S_ 32 64#32))) x2)
/-- The zero array the per-graph sums are added into. -/
abbrev zRoK : FVec Ideal S64x128 .f32 := broadcastInDim S64x128 ![] bcast_S_S64x128 (constant (F := Ideal) S_ .f32 0x00000000#32)

/-- The neighbour sums of h along the edges given by the flattened source and destination vectors. -/
def aggF (fs fd : IVec S800000 32) (h : Cert.GnnSpec.A2 50000 128) : Cert.GnnSpec.A2 50000 128 :=
  Cert.GnnSpec.aggOf gather_S50000x128_S800000x1_S800000x128_1_0_n_n_0_1_1128 scatter_S50000x128_S800000x1_S800000x128_1_0_0_1
    zAggK (srcOf fs) (dstOf fd) h
/-- The neighbour sums of h along the edges of the edge array x1. -/
def aggK (x1 : IVec S2x800000 32) (h : Cert.GnnSpec.A2 50000 128) : Cert.GnnSpec.A2 50000 128 :=
  Cert.GnnSpec.aggOf gather_S50000x128_S800000x1_S800000x128_1_0_n_n_0_1_1128 scatter_S50000x128_S800000x1_S800000x128_1_0_0_1
    zAggK (srcK x1) (dstK x1) h
/-- The per-graph sums of h read back at every node, for the graph assignment x2. -/
def roK (x2 : IVec S50000 32) (h : Cert.GnnSpec.A2 50000 128) : Cert.GnnSpec.A2 50000 128 :=
  Cert.GnnSpec.roOf gather_S64x128_S50000x1_S50000x128_1_0_n_n_0_1_1128 scatter_S64x128_S50000x1_S50000x128_1_0_0_1
    zRoK (bK x2) (bK' x2) h

theorem aggF_flat (x1 : IVec S2x800000 32) : aggF (srcFlat x1) (dstFlat x1) = aggK x1 := rfl

/-! ## Layer l's weights cut out of the stacks by a slice and casts; the statistics rows -/

/-- Slice [l, 0, 0] of size [1, 128, 128] of a stack of three matrices, cast to [128, 128], is layer l's matrix. -/
theorem mat_of_slice (l : Fin 3) (off : Fin 3 → Nat) (h0 : off 0 = l.val) (h1 : off 1 = 0) (h2 : off 2 = 0)
    (W : FVec Ideal S3x128x128 .f32) (hs : S3x128x128.Slices off S1x128x128) (hc : S1x128x128.ShapeCasts S128x128) :
    shapeCast S128x128 (extractStridedSlice S1x128x128 off W hs) hc = Cert.GnnSpec.mat l W := by
  funext j
  obtain ⟨a, b, rfl⟩ : ∃ (a : Fin 128) (b : Fin 128), j = ix2 a b := ⟨j 0, j 1, eq_ix2 j⟩
  rw [shapeCast_1ab_ab_apply]
  exact extractStridedSlice_apply off W hs (ix3 (0 : Fin 1) a b) (ix3 l a b) (fun d => by
    fin_cases d
    · show l.val = off 0 + 0; omega
    · show a.val = off 1 + a.val; omega
    · show b.val = off 2 + b.val; omega)

/-- Slice [l, 0] of size [1, 128] of a stack of three rows, cast to [128] and back to [1, 128], is layer l's row. -/
theorem row_of_slice (l : Fin 3) (off : Fin 2 → Nat) (h0 : off 0 = l.val) (h1 : off 1 = 0)
    (b : FVec Ideal S3x128 .f32) (hs : S3x128.Slices off S1x128) (hc1 : S1x128.ShapeCasts S128) (hc2 : S128.ShapeCasts S1x128) :
    shapeCast S1x128 (shapeCast S128 (extractStridedSlice S1x128 off b hs) hc1) hc2 = Cert.GnnSpec.row l b := by
  funext j
  obtain ⟨u, q, rfl⟩ : ∃ (u : Fin 1) (q : Fin 128), j = ix2 u q := ⟨j 0, j 1, eq_ix2 j⟩
  rw [shapeCast_a_1a_apply, shapeCast_1a_a_apply]
  exact extractStridedSlice_apply off b hs (ix2 (0 : Fin 1) q) (ix2 l q) (fun d => by
    fin_cases d
    · show l.val = off 0 + 0; omega
    · show q.val = off 1 + q.val; omega)

/-- The row of column sums divided by the float 50000.0, read at column q. -/
theorem mean_row_apply (s1 : FVec Ideal S1x128 .f32) (hb : S_.BroadcastsInDim S1x128 ![]) (q : Fin 128) :
    Host.divf s1 (broadcastInDim S1x128 ![] hb (constant (F := Ideal) S_ .f32 0x47435000#32)) (ix2 (0 : Fin 1) q)
      = Ideal.div (s1 (ix2 (0 : Fin 1) q)) Cert.GnnSpec.cN := by
  rw [hostDivf_apply, broadcastInDim_scalar_apply]; rfl

/-- The row of sums of squares divided by 50000.0, less the square of the mean row, read at column q. -/
theorem var_row_apply (s1 s2 : FVec Ideal S1x128 .f32) (hb hb' : S_.BroadcastsInDim S1x128 ![]) (q : Fin 128) :
    subf (Host.divf s2 (broadcastInDim S1x128 ![] hb' (constant (F := Ideal) S_ .f32 0x47435000#32)))
        (mulf (Host.divf s1 (broadcastInDim S1x128 ![] hb (constant (F := Ideal) S_ .f32 0x47435000#32)))
          (Host.divf s1 (broadcastInDim S1x128 ![] hb (constant (F := Ideal) S_ .f32 0x47435000#32)))) (ix2 (0 : Fin 1) q)
      = Ideal.div (s2 (ix2 (0 : Fin 1) q)) Cert.GnnSpec.cN
        - Ideal.div (s1 (ix2 (0 : Fin 1) q)) Cert.GnnSpec.cN * Ideal.div (s1 (ix2 (0 : Fin 1) q)) Cert.GnnSpec.cN := by
  rw [subf_apply, mulf_apply, mean_row_apply, mean_row_apply]

/-- A vector cast to one row, read at column q. -/
theorem row_of_vec_apply (b : FVec Ideal S64 .f32) (hc : S64.ShapeCasts S1x64) (q : Fin 64) :
    shapeCast S1x64 b hc (ix2 (0 : Fin 1) q) = b (ix1 q) := shapeCast_a_1a_apply b hc 0 q

end Cert.KernelIdeal.Chain

end
-- ==== Proof.ChainDefs.lean ====
/-
  The network the kernel computes, named layer by layer: the weights, the input features and the two accumulations
  as the launch memory holds them, and the three layers' outputs with the moment form of the variance. One layer
  from its parts: the normalisation of the clamped sum with the mean and variance rows the host forms from the
  column sums and sums of squares is the specification's layer.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-! ## One layer from its parts -/

/-- The clamped sum depends only on the nine arrays it is formed from. -/
theorem preL_congr {h h' agg agg' ro ro' : Cert.GnnSpec.A2 50000 128} {Wv Wv' Wa Wa' Wr Wr' : Cert.GnnSpec.A2 128 128}
    {bv bv' ba ba' br br' : Cert.GnnSpec.A2 1 128} (e1 : h = h') (e2 : agg = agg') (e3 : ro = ro') (e4 : Wv = Wv') (e5 : Wa = Wa')
    (e6 : Wr = Wr') (e7 : bv = bv') (e8 : ba = ba') (e9 : br = br') :
    Cert.GnnSpec.preL h agg ro Wv Wa Wr bv ba br = Cert.GnnSpec.preL h' agg' ro' Wv' Wa' Wr' bv' ba' br' := by
  subst e1 e2 e3 e4 e5 e6 e7 e8 e9; rfl

/-- The normalisation of the layer's clamped sum p with a mean row that is the column sums over 50000, a variance row
    that is the sums of squares over 50000 less the squared mean, and the layer's scale and shift rows, is the layer
    with the moment form of the variance. -/
theorem normL_eq_layerM (l : Fin 3) (P : Cert.GnnSpec.Params) (h agg ro p : Cert.GnnSpec.A2 50000 128) (mu var g b : Cert.GnnSpec.A2 1 128)
    (ep : p = Cert.GnnSpec.pre l P h agg ro)
    (emu : ∀ q : Fin 128, mu (ix2 (0 : Fin 1) q) = Ideal.div (Cert.GnnSpec.colsum p q) Cert.GnnSpec.cN)
    (evar : ∀ q : Fin 128, var (ix2 (0 : Fin 1) q) = Ideal.div (Cert.GnnSpec.colsumsq p q) Cert.GnnSpec.cN
      - Ideal.div (Cert.GnnSpec.colsum p q) Cert.GnnSpec.cN * Ideal.div (Cert.GnnSpec.colsum p q) Cert.GnnSpec.cN)
    (eg : g = Cert.GnnSpec.row l P.gamma) (eb : b = Cert.GnnSpec.row l P.beta) :
    Cert.GnnSpec.normL p mu var g b = Cert.GnnSpec.layerM l P h agg ro := by
  subst ep eg eb
  funext i
  have e1 := emu (i 1)
  have e2 := evar (i 1)
  unfold Cert.GnnSpec.normL Cert.GnnSpec.layerM Cert.GnnSpec.norm
  rw [e1, e2]
  rfl

/-- The neighbour sums depend only on the edge vectors and the features. -/
theorem aggF_congr {fs fs' fd fd' : IVec S800000 32} {h h' : Cert.GnnSpec.A2 50000 128} (e1 : fs = fs') (e2 : fd = fd') (e3 : h = h') :
    aggF fs fd h = aggF fs' fd' h' := by subst e1 e2 e3; rfl
/-- The read-outs depend only on the graph assignment and the features. -/
theorem roK_congr {x2 x2' : IVec S50000 32} {h h' : Cert.GnnSpec.A2 50000 128} (e1 : x2 = x2') (e2 : h = h') :
    roK x2 h = roK x2' h' := by subst e1 e2; rfl
/-- The neighbour sums depend only on the edge array and the features. -/
theorem aggK_congr {x1 x1' : IVec S2x800000 32} {h h' : Cert.GnnSpec.A2 50000 128} (e1 : x1 = x1') (e2 : h = h') :
    aggK x1 h = aggK x1' h' := by subst e1 e2; rfl
/-- The head depends only on its three arrays. -/
theorem head_congr {h h' : Cert.GnnSpec.A2 50000 128} {pw pw' : Cert.GnnSpec.A2 128 64} {pb pb' : Cert.GnnSpec.A1 64} (e1 : h = h') (e2 : pw = pw')
    (e3 : pb = pb') : Cert.GnnSpec.head h pw pb = Cert.GnnSpec.head h' pw' pb' := by subst e1 e2 e3; rfl

variable (m : (ℓ : Loc nD τ sig) → Buf (Elt Ideal) ℓ) (c : Dev nD)

/-- The weights of the three layers, as the launch memory holds them. -/
abbrev PK : Cert.GnnSpec.Params :=
  ⟨(m ((c : Thread nD τ).loc main_arg3)), (m ((c : Thread nD τ).loc main_arg4)), (m ((c : Thread nD τ).loc main_arg5)), (m ((c : Thread nD τ).loc main_arg6)),
   (m ((c : Thread nD τ).loc main_arg7)), (m ((c : Thread nD τ).loc main_arg8)), (m ((c : Thread nD τ).loc main_arg9)), (m ((c : Thread nD τ).loc main_arg10))⟩
/-- The input node features. -/
abbrev xK : Cert.GnnSpec.A2 50000 128 := (m ((c : Thread nD τ).loc main_arg0))
/-- The neighbour sums along the launch memory's edge array. -/
abbrev AG : Cert.GnnSpec.A2 50000 128 → Cert.GnnSpec.A2 50000 128 := aggK (m ((c : Thread nD τ).loc main_arg1))
/-- The per-graph read-outs for the launch memory's graph assignment. -/
abbrev RO : Cert.GnnSpec.A2 50000 128 → Cert.GnnSpec.A2 50000 128 := roK (m ((c : Thread nD τ).loc main_arg2))
/-- The first layer's output. -/
def L0 : Cert.GnnSpec.A2 50000 128 := Cert.GnnSpec.layerM 0 (PK m c) (xK m c) (AG m c (xK m c)) (RO m c (xK m c))
/-- The second layer's output. -/
def L1 : Cert.GnnSpec.A2 50000 128 := Cert.GnnSpec.layerM 1 (PK m c) (L0 m c) (AG m c (L0 m c)) (RO m c (L0 m c))
/-- The third layer's output. -/
def L2 : Cert.GnnSpec.A2 50000 128 := Cert.GnnSpec.layerM 2 (PK m c) (L1 m c) (AG m c (L1 m c)) (RO m c (L1 m c))

/-- The network with the moment variance is the head of the third layer's output. -/
theorem netM_eq (pw : Cert.GnnSpec.A2 128 64) (pb : Cert.GnnSpec.A1 64) :
    Cert.GnnSpec.netM (AG m c) (RO m c) (PK m c) (xK m c) pw pb = Cert.GnnSpec.head (L2 m c) pw pb := rfl

end Cert.KernelIdeal.Chain

end
-- ==== Proof.HostK0.lean ====
/-
  The host stretch before layer 0's combine-and-statistics region read as values: the neighbour sums and the
  per-graph read-outs of the layer's input features, and the layer's three matrices and three bias rows cut out of
  the weight stacks; also the flattened edge vectors, which the later layers read again. A buffer the stretch does not write keeps its contents.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-- The buffers the stretch writes: the result of each of its operations. -/
abbrev hostOps0_W : List (Ref sig .tc) := [main_v0, main_v1, main_v2, main_v3, main_c, main_v4, main_v5, main_c_0, main_v6, main_v7, main_v8, main_v9, main_v10, main_cst, main_v11, main_v12, main_v13, main_cst_1, main_v14, main_v15, main_v16, main_c_2, main_v17, main_v18, main_c_3, main_v19, main_v20, main_v21, main_v22, main_v23, main_v24, main_v25, main_v26, main_v27, main_v28, main_v29, main_v30, main_v31, main_v32, main_v33, main_v34, main_v35, main_v36, main_v37, main_v38]

theorem hostOps0_writes : (hostOps0 (F := Ideal)).Forall fun op => op.writes ⊆ (hostOps0_W.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write keeps its contents. -/
theorem keep0 (X : Valuation τ sig (Elt Ideal)) (r : Ref sig .tc) (h : r ∉ hostOps0_W) :
    after (hostOps0 (F := Ideal)) X (Proc.devRef .tc r) = X (Proc.devRef .tc r) :=
  StableHlo.after_of_writes_sub _ _ hostOps0_writes h

variable (X : Valuation τ sig (Elt Ideal))

/-- The flattened sources of the edges. -/
theorem after0_v1 : after (hostOps0 (F := Ideal)) X (Proc.devRef .tc main_v1) = srcFlat (X (Proc.devRef .tc main_arg1)) := by
  after_results; rfl
/-- The flattened destinations of the edges. -/
theorem after0_v3 : after (hostOps0 (F := Ideal)) X (Proc.devRef .tc main_v3) = dstFlat (X (Proc.devRef .tc main_arg1)) := by
  after_results; rfl
/-- The neighbour sums of the node features. -/
theorem after0_agg : after (hostOps0 (F := Ideal)) X (Proc.devRef .tc main_v13) = aggK (X (Proc.devRef .tc main_arg1)) (X (Proc.devRef .tc main_arg0)) := by
  after_results_simp; rfl
/-- The per-graph read-outs of the node features. -/
theorem after0_ro : after (hostOps0 (F := Ideal)) X (Proc.devRef .tc main_v23) = roK (X (Proc.devRef .tc main_arg2)) (X (Proc.devRef .tc main_arg0)) := by
  after_results_simp; rfl
/-- Layer 0's matrix of the stack arg3. -/
theorem after0_v25 : after (hostOps0 (F := Ideal)) X (Proc.devRef .tc main_v25) = Cert.GnnSpec.mat 0 (X (Proc.devRef .tc main_arg3)) := by
  after_results_simp
  exact mat_of_slice 0 ![0, 0, 0] rfl rfl rfl _ _ _
/-- Layer 0's matrix of the stack arg5. -/
theorem after0_v30 : after (hostOps0 (F := Ideal)) X (Proc.devRef .tc main_v30) = Cert.GnnSpec.mat 0 (X (Proc.devRef .tc main_arg5)) := by
  after_results_simp
  exact mat_of_slice 0 ![0, 0, 0] rfl rfl rfl _ _ _
/-- Layer 0's matrix of the stack arg7. -/
theorem after0_v35 : after (hostOps0 (F := Ideal)) X (Proc.devRef .tc main_v35) = Cert.GnnSpec.mat 0 (X (Proc.devRef .tc main_arg7)) := by
  after_results_simp
  exact mat_of_slice 0 ![0, 0, 0] rfl rfl rfl _ _ _
/-- Layer 0's row of the stack arg4. -/
theorem after0_v28 : after (hostOps0 (F := Ideal)) X (Proc.devRef .tc main_v28) = Cert.GnnSpec.row 0 (X (Proc.devRef .tc main_arg4)) := by
  after_results_simp
  exact row_of_slice 0 ![0, 0] rfl rfl _ _ _ _
/-- Layer 0's row of the stack arg6. -/
theorem after0_v33 : after (hostOps0 (F := Ideal)) X (Proc.devRef .tc main_v33) = Cert.GnnSpec.row 0 (X (Proc.devRef .tc main_arg6)) := by
  after_results_simp
  exact row_of_slice 0 ![0, 0] rfl rfl _ _ _ _
/-- Layer 0's row of the stack arg8. -/
theorem after0_v38 : after (hostOps0 (F := Ideal)) X (Proc.devRef .tc main_v38) = Cert.GnnSpec.row 0 (X (Proc.devRef .tc main_arg8)) := by
  after_results_simp
  exact row_of_slice 0 ![0, 0] rfl rfl _ _ _ _

end Cert.KernelIdeal.Chain

end
-- ==== Proof.HostK1.lean ====
/-
  The host stretch between layer 0's two regions read as values: the mean row and the variance row from the
  column sums and sums of squares the statistics region left, and the layer's scale and shift rows cut out of the
  weight stacks. A buffer the stretch does not write keeps its contents.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-- The buffers the stretch writes: the result of each of its operations. -/
abbrev hostOps1_W : List (Ref sig .tc) := [main_cst_4, main_v40, main_v41, main_cst_5, main_v42, main_v43, main_v44, main_v45, main_v46, main_v47, main_v48, main_v49, main_v50, main_v51]

theorem hostOps1_writes : (hostOps1 (F := Ideal)).Forall fun op => op.writes ⊆ (hostOps1_W.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write keeps its contents. -/
theorem keep1 (X : Valuation τ sig (Elt Ideal)) (r : Ref sig .tc) (h : r ∉ hostOps1_W) :
    after (hostOps1 (F := Ideal)) X (Proc.devRef .tc r) = X (Proc.devRef .tc r) :=
  StableHlo.after_of_writes_sub _ _ hostOps1_writes h

variable (X : Valuation τ sig (Elt Ideal))

/-- The mean row at column q: the column sum divided by 50000. -/
theorem after1_mean (q : Fin 128) : after (hostOps1 (F := Ideal)) X (Proc.devRef .tc main_v41) (ix2 (0 : Fin 1) q) = Ideal.div (X (Proc.devRef .tc main_v39_1) (ix2 (0 : Fin 1) q)) Cert.GnnSpec.cN := by
  have e : after (hostOps1 (F := Ideal)) X (Proc.devRef .tc main_v41) = Host.divf (X (Proc.devRef .tc main_v39_1)) (broadcastInDim S1x128 ![] bcast_S_S1x128 (constant (F := Ideal) S_ .f32 0x47435000#32)) := by
    after_results_simp
  rw [e, mean_row_apply]
/-- The variance row at column q: the sum of squares divided by 50000, less the square of the mean. -/
theorem after1_var (q : Fin 128) : after (hostOps1 (F := Ideal)) X (Proc.devRef .tc main_v45) (ix2 (0 : Fin 1) q)
    = Ideal.div (X (Proc.devRef .tc main_v39_2) (ix2 (0 : Fin 1) q)) Cert.GnnSpec.cN
      - Ideal.div (X (Proc.devRef .tc main_v39_1) (ix2 (0 : Fin 1) q)) Cert.GnnSpec.cN * Ideal.div (X (Proc.devRef .tc main_v39_1) (ix2 (0 : Fin 1) q)) Cert.GnnSpec.cN := by
  have e : after (hostOps1 (F := Ideal)) X (Proc.devRef .tc main_v45)
      = subf (Host.divf (X (Proc.devRef .tc main_v39_2)) (broadcastInDim S1x128 ![] bcast_S_S1x128 (constant (F := Ideal) S_ .f32 0x47435000#32)))
          (mulf (Host.divf (X (Proc.devRef .tc main_v39_1)) (broadcastInDim S1x128 ![] bcast_S_S1x128 (constant (F := Ideal) S_ .f32 0x47435000#32)))
            (Host.divf (X (Proc.devRef .tc main_v39_1)) (broadcastInDim S1x128 ![] bcast_S_S1x128 (constant (F := Ideal) S_ .f32 0x47435000#32)))) := by
    after_results_simp
  rw [e, var_row_apply]
/-- Layer 0's scale row. -/
theorem after1_gamma : after (hostOps1 (F := Ideal)) X (Proc.devRef .tc main_v48) = Cert.GnnSpec.row 0 (X (Proc.devRef .tc main_arg9)) := by
  after_results_simp
  exact row_of_slice 0 ![0, 0] rfl rfl _ _ _ _
/-- Layer 0's shift row. -/
theorem after1_beta : after (hostOps1 (F := Ideal)) X (Proc.devRef .tc main_v51) = Cert.GnnSpec.row 0 (X (Proc.devRef .tc main_arg10)) := by
  after_results_simp
  exact row_of_slice 0 ![0, 0] rfl rfl _ _ _ _

end Cert.KernelIdeal.Chain

end
-- ==== Proof.HostK2.lean ====
/-
  The host stretch before layer 1's combine-and-statistics region read as values: the neighbour sums and the
  per-graph read-outs of the layer's input features, and the layer's three matrices and three bias rows cut out of
  the weight stacks. A buffer the stretch does not write keeps its contents.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-- The buffers the stretch writes: the result of each of its operations. -/
abbrev hostOps2_W : List (Ref sig .tc) := [main_c_6, main_v53, main_v54, main_c_7, main_v55, main_v56, main_v57, main_v58, main_v59, main_cst_8, main_v60, main_v61, main_v62, main_cst_9, main_v63, main_v64, main_v65, main_c_10, main_v66, main_v67, main_c_11, main_v68, main_v69, main_v70, main_v71, main_v72, main_v73, main_v74, main_v75, main_v76, main_v77, main_v78, main_v79, main_v80, main_v81, main_v82, main_v83, main_v84, main_v85, main_v86, main_v87]

theorem hostOps2_writes : (hostOps2 (F := Ideal)).Forall fun op => op.writes ⊆ (hostOps2_W.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write keeps its contents. -/
theorem keep2 (X : Valuation τ sig (Elt Ideal)) (r : Ref sig .tc) (h : r ∉ hostOps2_W) :
    after (hostOps2 (F := Ideal)) X (Proc.devRef .tc r) = X (Proc.devRef .tc r) :=
  StableHlo.after_of_writes_sub _ _ hostOps2_writes h

variable (X : Valuation τ sig (Elt Ideal))

/-- The neighbour sums of the node features, along the flattened edge vectors an earlier stretch left. -/
theorem after2_agg : after (hostOps2 (F := Ideal)) X (Proc.devRef .tc main_v62) = aggF (X (Proc.devRef .tc main_v1)) (X (Proc.devRef .tc main_v3)) (X (Proc.devRef .tc main_v52)) := by
  after_results_simp; rfl
/-- The per-graph read-outs of the node features. -/
theorem after2_ro : after (hostOps2 (F := Ideal)) X (Proc.devRef .tc main_v72) = roK (X (Proc.devRef .tc main_arg2)) (X (Proc.devRef .tc main_v52)) := by
  after_results_simp; rfl
/-- Layer 1's matrix of the stack arg3. -/
theorem after2_v74 : after (hostOps2 (F := Ideal)) X (Proc.devRef .tc main_v74) = Cert.GnnSpec.mat 1 (X (Proc.devRef .tc main_arg3)) := by
  after_results_simp
  exact mat_of_slice 1 ![1, 0, 0] rfl rfl rfl _ _ _
/-- Layer 1's matrix of the stack arg5. -/
theorem after2_v79 : after (hostOps2 (F := Ideal)) X (Proc.devRef .tc main_v79) = Cert.GnnSpec.mat 1 (X (Proc.devRef .tc main_arg5)) := by
  after_results_simp
  exact mat_of_slice 1 ![1, 0, 0] rfl rfl rfl _ _ _
/-- Layer 1's matrix of the stack arg7. -/
theorem after2_v84 : after (hostOps2 (F := Ideal)) X (Proc.devRef .tc main_v84) = Cert.GnnSpec.mat 1 (X (Proc.devRef .tc main_arg7)) := by
  after_results_simp
  exact mat_of_slice 1 ![1, 0, 0] rfl rfl rfl _ _ _
/-- Layer 1's row of the stack arg4. -/
theorem after2_v77 : after (hostOps2 (F := Ideal)) X (Proc.devRef .tc main_v77) = Cert.GnnSpec.row 1 (X (Proc.devRef .tc main_arg4)) := by
  after_results_simp
  exact row_of_slice 1 ![1, 0] rfl rfl _ _ _ _
/-- Layer 1's row of the stack arg6. -/
theorem after2_v82 : after (hostOps2 (F := Ideal)) X (Proc.devRef .tc main_v82) = Cert.GnnSpec.row 1 (X (Proc.devRef .tc main_arg6)) := by
  after_results_simp
  exact row_of_slice 1 ![1, 0] rfl rfl _ _ _ _
/-- Layer 1's row of the stack arg8. -/
theorem after2_v87 : after (hostOps2 (F := Ideal)) X (Proc.devRef .tc main_v87) = Cert.GnnSpec.row 1 (X (Proc.devRef .tc main_arg8)) := by
  after_results_simp
  exact row_of_slice 1 ![1, 0] rfl rfl _ _ _ _

end Cert.KernelIdeal.Chain

end
-- ==== Proof.HostK3.lean ====
/-
  The host stretch between layer 1's two regions read as values: the mean row and the variance row from the
  column sums and sums of squares the statistics region left, and the layer's scale and shift rows cut out of the
  weight stacks. A buffer the stretch does not write keeps its contents.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-- The buffers the stretch writes: the result of each of its operations. -/
abbrev hostOps3_W : List (Ref sig .tc) := [main_cst_12, main_v89, main_v90, main_cst_13, main_v91, main_v92, main_v93, main_v94, main_v95, main_v96, main_v97, main_v98, main_v99, main_v100]

theorem hostOps3_writes : (hostOps3 (F := Ideal)).Forall fun op => op.writes ⊆ (hostOps3_W.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write keeps its contents. -/
theorem keep3 (X : Valuation τ sig (Elt Ideal)) (r : Ref sig .tc) (h : r ∉ hostOps3_W) :
    after (hostOps3 (F := Ideal)) X (Proc.devRef .tc r) = X (Proc.devRef .tc r) :=
  StableHlo.after_of_writes_sub _ _ hostOps3_writes h

variable (X : Valuation τ sig (Elt Ideal))

/-- The mean row at column q: the column sum divided by 50000. -/
theorem after3_mean (q : Fin 128) : after (hostOps3 (F := Ideal)) X (Proc.devRef .tc main_v90) (ix2 (0 : Fin 1) q) = Ideal.div (X (Proc.devRef .tc main_v88_1) (ix2 (0 : Fin 1) q)) Cert.GnnSpec.cN := by
  have e : after (hostOps3 (F := Ideal)) X (Proc.devRef .tc main_v90) = Host.divf (X (Proc.devRef .tc main_v88_1)) (broadcastInDim S1x128 ![] bcast_S_S1x128 (constant (F := Ideal) S_ .f32 0x47435000#32)) := by
    after_results_simp
  rw [e, mean_row_apply]
/-- The variance row at column q: the sum of squares divided by 50000, less the square of the mean. -/
theorem after3_var (q : Fin 128) : after (hostOps3 (F := Ideal)) X (Proc.devRef .tc main_v94) (ix2 (0 : Fin 1) q)
    = Ideal.div (X (Proc.devRef .tc main_v88_2) (ix2 (0 : Fin 1) q)) Cert.GnnSpec.cN
      - Ideal.div (X (Proc.devRef .tc main_v88_1) (ix2 (0 : Fin 1) q)) Cert.GnnSpec.cN * Ideal.div (X (Proc.devRef .tc main_v88_1) (ix2 (0 : Fin 1) q)) Cert.GnnSpec.cN := by
  have e : after (hostOps3 (F := Ideal)) X (Proc.devRef .tc main_v94)
      = subf (Host.divf (X (Proc.devRef .tc main_v88_2)) (broadcastInDim S1x128 ![] bcast_S_S1x128 (constant (F := Ideal) S_ .f32 0x47435000#32)))
          (mulf (Host.divf (X (Proc.devRef .tc main_v88_1)) (broadcastInDim S1x128 ![] bcast_S_S1x128 (constant (F := Ideal) S_ .f32 0x47435000#32)))
            (Host.divf (X (Proc.devRef .tc main_v88_1)) (broadcastInDim S1x128 ![] bcast_S_S1x128 (constant (F := Ideal) S_ .f32 0x47435000#32)))) := by
    after_results_simp
  rw [e, var_row_apply]
/-- Layer 1's scale row. -/
theorem after3_gamma : after (hostOps3 (F := Ideal)) X (Proc.devRef .tc main_v97) = Cert.GnnSpec.row 1 (X (Proc.devRef .tc main_arg9)) := by
  after_results_simp
  exact row_of_slice 1 ![1, 0] rfl rfl _ _ _ _
/-- Layer 1's shift row. -/
theorem after3_beta : after (hostOps3 (F := Ideal)) X (Proc.devRef .tc main_v100) = Cert.GnnSpec.row 1 (X (Proc.devRef .tc main_arg10)) := by
  after_results_simp
  exact row_of_slice 1 ![1, 0] rfl rfl _ _ _ _

end Cert.KernelIdeal.Chain

end
-- ==== Proof.HostK4.lean ====
/-
  The host stretch before layer 2's combine-and-statistics region read as values: the neighbour sums and the
  per-graph read-outs of the layer's input features, and the layer's three matrices and three bias rows cut out of
  the weight stacks. A buffer the stretch does not write keeps its contents.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-- The buffers the stretch writes: the result of each of its operations. -/
abbrev hostOps4_W : List (Ref sig .tc) := [main_c_14, main_v102, main_v103, main_c_15, main_v104, main_v105, main_v106, main_v107, main_v108, main_cst_16, main_v109, main_v110, main_v111, main_cst_17, main_v112, main_v113, main_v114, main_c_18, main_v115, main_v116, main_c_19, main_v117, main_v118, main_v119, main_v120, main_v121, main_v122, main_v123, main_v124, main_v125, main_v126, main_v127, main_v128, main_v129, main_v130, main_v131, main_v132, main_v133, main_v134, main_v135, main_v136]

theorem hostOps4_writes : (hostOps4 (F := Ideal)).Forall fun op => op.writes ⊆ (hostOps4_W.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write keeps its contents. -/
theorem keep4 (X : Valuation τ sig (Elt Ideal)) (r : Ref sig .tc) (h : r ∉ hostOps4_W) :
    after (hostOps4 (F := Ideal)) X (Proc.devRef .tc r) = X (Proc.devRef .tc r) :=
  StableHlo.after_of_writes_sub _ _ hostOps4_writes h

variable (X : Valuation τ sig (Elt Ideal))

/-- The neighbour sums of the node features, along the flattened edge vectors an earlier stretch left. -/
theorem after4_agg : after (hostOps4 (F := Ideal)) X (Proc.devRef .tc main_v111) = aggF (X (Proc.devRef .tc main_v1)) (X (Proc.devRef .tc main_v3)) (X (Proc.devRef .tc main_v101)) := by
  after_results_simp; rfl
/-- The per-graph read-outs of the node features. -/
theorem after4_ro : after (hostOps4 (F := Ideal)) X (Proc.devRef .tc main_v121) = roK (X (Proc.devRef .tc main_arg2)) (X (Proc.devRef .tc main_v101)) := by
  after_results_simp; rfl
/-- Layer 2's matrix of the stack arg3. -/
theorem after4_v123 : after (hostOps4 (F := Ideal)) X (Proc.devRef .tc main_v123) = Cert.GnnSpec.mat 2 (X (Proc.devRef .tc main_arg3)) := by
  after_results_simp
  exact mat_of_slice 2 ![2, 0, 0] rfl rfl rfl _ _ _
/-- Layer 2's matrix of the stack arg5. -/
theorem after4_v128 : after (hostOps4 (F := Ideal)) X (Proc.devRef .tc main_v128) = Cert.GnnSpec.mat 2 (X (Proc.devRef .tc main_arg5)) := by
  after_results_simp
  exact mat_of_slice 2 ![2, 0, 0] rfl rfl rfl _ _ _
/-- Layer 2's matrix of the stack arg7. -/
theorem after4_v133 : after (hostOps4 (F := Ideal)) X (Proc.devRef .tc main_v133) = Cert.GnnSpec.mat 2 (X (Proc.devRef .tc main_arg7)) := by
  after_results_simp
  exact mat_of_slice 2 ![2, 0, 0] rfl rfl rfl _ _ _
/-- Layer 2's row of the stack arg4. -/
theorem after4_v126 : after (hostOps4 (F := Ideal)) X (Proc.devRef .tc main_v126) = Cert.GnnSpec.row 2 (X (Proc.devRef .tc main_arg4)) := by
  after_results_simp
  exact row_of_slice 2 ![2, 0] rfl rfl _ _ _ _
/-- Layer 2's row of the stack arg6. -/
theorem after4_v131 : after (hostOps4 (F := Ideal)) X (Proc.devRef .tc main_v131) = Cert.GnnSpec.row 2 (X (Proc.devRef .tc main_arg6)) := by
  after_results_simp
  exact row_of_slice 2 ![2, 0] rfl rfl _ _ _ _
/-- Layer 2's row of the stack arg8. -/
theorem after4_v136 : after (hostOps4 (F := Ideal)) X (Proc.devRef .tc main_v136) = Cert.GnnSpec.row 2 (X (Proc.devRef .tc main_arg8)) := by
  after_results_simp
  exact row_of_slice 2 ![2, 0] rfl rfl _ _ _ _

end Cert.KernelIdeal.Chain

end
-- ==== Proof.HostK5.lean ====
/-
  The host stretch between layer 2's two regions read as values: the mean row and the variance row from the
  column sums and sums of squares the statistics region left, and the layer's scale and shift rows cut out of the
  weight stacks. A buffer the stretch does not write keeps its contents.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-- The buffers the stretch writes: the result of each of its operations. -/
abbrev hostOps5_W : List (Ref sig .tc) := [main_cst_20, main_v138, main_v139, main_cst_21, main_v140, main_v141, main_v142, main_v143, main_v144, main_v145, main_v146, main_v147, main_v148, main_v149]

theorem hostOps5_writes : (hostOps5 (F := Ideal)).Forall fun op => op.writes ⊆ (hostOps5_W.map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write keeps its contents. -/
theorem keep5 (X : Valuation τ sig (Elt Ideal)) (r : Ref sig .tc) (h : r ∉ hostOps5_W) :
    after (hostOps5 (F := Ideal)) X (Proc.devRef .tc r) = X (Proc.devRef .tc r) :=
  StableHlo.after_of_writes_sub _ _ hostOps5_writes h

variable (X : Valuation τ sig (Elt Ideal))

/-- The mean row at column q: the column sum divided by 50000. -/
theorem after5_mean (q : Fin 128) : after (hostOps5 (F := Ideal)) X (Proc.devRef .tc main_v139) (ix2 (0 : Fin 1) q) = Ideal.div (X (Proc.devRef .tc main_v137_1) (ix2 (0 : Fin 1) q)) Cert.GnnSpec.cN := by
  have e : after (hostOps5 (F := Ideal)) X (Proc.devRef .tc main_v139) = Host.divf (X (Proc.devRef .tc main_v137_1)) (broadcastInDim S1x128 ![] bcast_S_S1x128 (constant (F := Ideal) S_ .f32 0x47435000#32)) := by
    after_results_simp
  rw [e, mean_row_apply]
/-- The variance row at column q: the sum of squares divided by 50000, less the square of the mean. -/
theorem after5_var (q : Fin 128) : after (hostOps5 (F := Ideal)) X (Proc.devRef .tc main_v143) (ix2 (0 : Fin 1) q)
    = Ideal.div (X (Proc.devRef .tc main_v137_2) (ix2 (0 : Fin 1) q)) Cert.GnnSpec.cN
      - Ideal.div (X (Proc.devRef .tc main_v137_1) (ix2 (0 : Fin 1) q)) Cert.GnnSpec.cN * Ideal.div (X (Proc.devRef .tc main_v137_1) (ix2 (0 : Fin 1) q)) Cert.GnnSpec.cN := by
  have e : after (hostOps5 (F := Ideal)) X (Proc.devRef .tc main_v143)
      = subf (Host.divf (X (Proc.devRef .tc main_v137_2)) (broadcastInDim S1x128 ![] bcast_S_S1x128 (constant (F := Ideal) S_ .f32 0x47435000#32)))
          (mulf (Host.divf (X (Proc.devRef .tc main_v137_1)) (broadcastInDim S1x128 ![] bcast_S_S1x128 (constant (F := Ideal) S_ .f32 0x47435000#32)))
            (Host.divf (X (Proc.devRef .tc main_v137_1)) (broadcastInDim S1x128 ![] bcast_S_S1x128 (constant (F := Ideal) S_ .f32 0x47435000#32)))) := by
    after_results_simp
  rw [e, var_row_apply]
/-- Layer 2's scale row. -/
theorem after5_gamma : after (hostOps5 (F := Ideal)) X (Proc.devRef .tc main_v146) = Cert.GnnSpec.row 2 (X (Proc.devRef .tc main_arg9)) := by
  after_results_simp
  exact row_of_slice 2 ![2, 0] rfl rfl _ _ _ _
/-- Layer 2's shift row. -/
theorem after5_beta : after (hostOps5 (F := Ideal)) X (Proc.devRef .tc main_v149) = Cert.GnnSpec.row 2 (X (Proc.devRef .tc main_arg10)) := by
  after_results_simp
  exact row_of_slice 2 ![2, 0] rfl rfl _ _ _ _

end Cert.KernelIdeal.Chain

end
-- ==== Proof.HostK6.lean ====
/-
  The last host stretch read as values: the head's bias vector as one row.
-/
import proofs.«142960_j19688130085206_1_alg».proof.Proof.HostK

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)

/-- The buffers the stretch writes: the result of each of its operations. -/
abbrev hostOps6_W : List (Ref sig .tc) := [main_v151]

theorem hostOps6_writes : (hostOps6 (F := Ideal)).Forall fun op => op.writes ⊆ (hostOps6_W.map (Proc.devRef (τ := τ) .tc)).toFinset := by
  simp only [hostOps6, List.Forall, StableHlo.nullary_writes, StableHlo.unary_writes, StableHlo.binary_writes, StableHlo.ternary_writes,
    StableHlo.reshape_writes, Finset.singleton_subset_iff, List.mem_toFinset]
  exact List.mem_map_of_mem (by decide)

/-- A buffer the stretch does not write keeps its contents. -/
theorem keep6 (X : Valuation τ sig (Elt Ideal)) (r : Ref sig .tc) (h : r ∉ hostOps6_W) :
    after (hostOps6 (F := Ideal)) X (Proc.devRef .tc r) = X (Proc.devRef .tc r) :=
  StableHlo.after_of_writes_sub _ _ hostOps6_writes h

variable (X : Valuation τ sig (Elt Ideal))

/-- The head's bias row at column q is the bias vector at q. -/
theorem after6_bias (q : Fin 64) : after (hostOps6 (F := Ideal)) X (Proc.devRef .tc main_v151) (ix2 (0 : Fin 1) q) = X (Proc.devRef .tc main_arg12) (ix1 q) := by
  have e : after (hostOps6 (F := Ideal)) X (Proc.devRef .tc main_v151) = shapeCast S1x64 (X (Proc.devRef .tc main_arg12)) shapeCasts_S64_S1x64 := by
    after_results; rfl
  rw [e, row_of_vec_apply]

end Cert.KernelIdeal.Chain

end
-- ==== Proof.Persist.lean ====
/-
  What survives from one segment of the program to a later one. An argument array is written by no host operation
  and by no region, so at every segment boundary up to the one where it is last read it still holds what the launch
  memory held. The two flattened edge vectors, computed once by the first host stretch, are written by nothing after
  it, so the later layers' host stretches read the same vectors.
-/
import proofs.«142960_j19688130085206_1_alg».proof.Proof.HostK0
import proofs.«142960_j19688130085206_1_alg».proof.Proof.HostK1
import proofs.«142960_j19688130085206_1_alg».proof.Proof.HostK2
import proofs.«142960_j19688130085206_1_alg».proof.Proof.HostK3
import proofs.«142960_j19688130085206_1_alg».proof.Proof.HostK4
import proofs.«142960_j19688130085206_1_alg».proof.Proof.HostK5
import proofs.«142960_j19688130085206_1_alg».proof.Proof.HostK6

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)
variable (m : (ℓ : Loc nD τ sig) → Buf (Elt Ideal) ℓ) (ρ : Dev nD → PrngReg) (c : Dev nD)

/-! ## At launch -/
theorem W0_arg0 : W0 m ρ c (Proc.devRef .tc main_arg0) = (m ((c : Thread nD τ).loc main_arg0)) := rfl
theorem W0_arg1 : W0 m ρ c (Proc.devRef .tc main_arg1) = (m ((c : Thread nD τ).loc main_arg1)) := rfl
theorem W0_arg2 : W0 m ρ c (Proc.devRef .tc main_arg2) = (m ((c : Thread nD τ).loc main_arg2)) := rfl
theorem W0_arg3 : W0 m ρ c (Proc.devRef .tc main_arg3) = (m ((c : Thread nD τ).loc main_arg3)) := rfl
theorem W0_arg4 : W0 m ρ c (Proc.devRef .tc main_arg4) = (m ((c : Thread nD τ).loc main_arg4)) := rfl
theorem W0_arg5 : W0 m ρ c (Proc.devRef .tc main_arg5) = (m ((c : Thread nD τ).loc main_arg5)) := rfl
theorem W0_arg6 : W0 m ρ c (Proc.devRef .tc main_arg6) = (m ((c : Thread nD τ).loc main_arg6)) := rfl
theorem W0_arg7 : W0 m ρ c (Proc.devRef .tc main_arg7) = (m ((c : Thread nD τ).loc main_arg7)) := rfl
theorem W0_arg8 : W0 m ρ c (Proc.devRef .tc main_arg8) = (m ((c : Thread nD τ).loc main_arg8)) := rfl
theorem W0_arg9 : W0 m ρ c (Proc.devRef .tc main_arg9) = (m ((c : Thread nD τ).loc main_arg9)) := rfl
theorem W0_arg10 : W0 m ρ c (Proc.devRef .tc main_arg10) = (m ((c : Thread nD τ).loc main_arg10)) := rfl
theorem W0_arg11 : W0 m ρ c (Proc.devRef .tc main_arg11) = (m ((c : Thread nD τ).loc main_arg11)) := rfl
theorem W0_arg12 : W0 m ρ c (Proc.devRef .tc main_arg12) = (m ((c : Thread nD τ).loc main_arg12)) := rfl

/-! ## The arguments: no stretch and no region up to the stage writes them -/
theorem W1_arg2 : W1 m ρ c (Proc.devRef .tc main_arg2) = (m ((c : Thread nD τ).loc main_arg2)) :=
  (keep0 (W0 m ρ c) main_arg2 (by decide))
theorem W2_arg2 : W2 m ρ c (Proc.devRef .tc main_arg2) = (m ((c : Thread nD τ).loc main_arg2)) :=
  (W2_of_ne m ρ c main_arg2 (by decide)).trans (W1_arg2 m ρ c)
theorem W3_arg2 : W3 m ρ c (Proc.devRef .tc main_arg2) = (m ((c : Thread nD τ).loc main_arg2)) :=
  (keep1 (W2 m ρ c) main_arg2 (by decide)).trans (W2_arg2 m ρ c)
theorem W4_arg2 : W4 m ρ c (Proc.devRef .tc main_arg2) = (m ((c : Thread nD τ).loc main_arg2)) :=
  (W4_of_ne m ρ c main_arg2 (by decide)).trans (W3_arg2 m ρ c)
theorem W5_arg2 : W5 m ρ c (Proc.devRef .tc main_arg2) = (m ((c : Thread nD τ).loc main_arg2)) :=
  (keep2 (W4 m ρ c) main_arg2 (by decide)).trans (W4_arg2 m ρ c)
theorem W6_arg2 : W6 m ρ c (Proc.devRef .tc main_arg2) = (m ((c : Thread nD τ).loc main_arg2)) :=
  (W6_of_ne m ρ c main_arg2 (by decide)).trans (W5_arg2 m ρ c)
theorem W7_arg2 : W7 m ρ c (Proc.devRef .tc main_arg2) = (m ((c : Thread nD τ).loc main_arg2)) :=
  (keep3 (W6 m ρ c) main_arg2 (by decide)).trans (W6_arg2 m ρ c)
theorem W8_arg2 : W8 m ρ c (Proc.devRef .tc main_arg2) = (m ((c : Thread nD τ).loc main_arg2)) :=
  (W8_of_ne m ρ c main_arg2 (by decide)).trans (W7_arg2 m ρ c)
theorem W1_arg3 : W1 m ρ c (Proc.devRef .tc main_arg3) = (m ((c : Thread nD τ).loc main_arg3)) :=
  (keep0 (W0 m ρ c) main_arg3 (by decide))
theorem W2_arg3 : W2 m ρ c (Proc.devRef .tc main_arg3) = (m ((c : Thread nD τ).loc main_arg3)) :=
  (W2_of_ne m ρ c main_arg3 (by decide)).trans (W1_arg3 m ρ c)
theorem W3_arg3 : W3 m ρ c (Proc.devRef .tc main_arg3) = (m ((c : Thread nD τ).loc main_arg3)) :=
  (keep1 (W2 m ρ c) main_arg3 (by decide)).trans (W2_arg3 m ρ c)
theorem W4_arg3 : W4 m ρ c (Proc.devRef .tc main_arg3) = (m ((c : Thread nD τ).loc main_arg3)) :=
  (W4_of_ne m ρ c main_arg3 (by decide)).trans (W3_arg3 m ρ c)
theorem W5_arg3 : W5 m ρ c (Proc.devRef .tc main_arg3) = (m ((c : Thread nD τ).loc main_arg3)) :=
  (keep2 (W4 m ρ c) main_arg3 (by decide)).trans (W4_arg3 m ρ c)
theorem W6_arg3 : W6 m ρ c (Proc.devRef .tc main_arg3) = (m ((c : Thread nD τ).loc main_arg3)) :=
  (W6_of_ne m ρ c main_arg3 (by decide)).trans (W5_arg3 m ρ c)
theorem W7_arg3 : W7 m ρ c (Proc.devRef .tc main_arg3) = (m ((c : Thread nD τ).loc main_arg3)) :=
  (keep3 (W6 m ρ c) main_arg3 (by decide)).trans (W6_arg3 m ρ c)
theorem W8_arg3 : W8 m ρ c (Proc.devRef .tc main_arg3) = (m ((c : Thread nD τ).loc main_arg3)) :=
  (W8_of_ne m ρ c main_arg3 (by decide)).trans (W7_arg3 m ρ c)
theorem W1_arg4 : W1 m ρ c (Proc.devRef .tc main_arg4) = (m ((c : Thread nD τ).loc main_arg4)) :=
  (keep0 (W0 m ρ c) main_arg4 (by decide))
theorem W2_arg4 : W2 m ρ c (Proc.devRef .tc main_arg4) = (m ((c : Thread nD τ).loc main_arg4)) :=
  (W2_of_ne m ρ c main_arg4 (by decide)).trans (W1_arg4 m ρ c)
theorem W3_arg4 : W3 m ρ c (Proc.devRef .tc main_arg4) = (m ((c : Thread nD τ).loc main_arg4)) :=
  (keep1 (W2 m ρ c) main_arg4 (by decide)).trans (W2_arg4 m ρ c)
theorem W4_arg4 : W4 m ρ c (Proc.devRef .tc main_arg4) = (m ((c : Thread nD τ).loc main_arg4)) :=
  (W4_of_ne m ρ c main_arg4 (by decide)).trans (W3_arg4 m ρ c)
theorem W5_arg4 : W5 m ρ c (Proc.devRef .tc main_arg4) = (m ((c : Thread nD τ).loc main_arg4)) :=
  (keep2 (W4 m ρ c) main_arg4 (by decide)).trans (W4_arg4 m ρ c)
theorem W6_arg4 : W6 m ρ c (Proc.devRef .tc main_arg4) = (m ((c : Thread nD τ).loc main_arg4)) :=
  (W6_of_ne m ρ c main_arg4 (by decide)).trans (W5_arg4 m ρ c)
theorem W7_arg4 : W7 m ρ c (Proc.devRef .tc main_arg4) = (m ((c : Thread nD τ).loc main_arg4)) :=
  (keep3 (W6 m ρ c) main_arg4 (by decide)).trans (W6_arg4 m ρ c)
theorem W8_arg4 : W8 m ρ c (Proc.devRef .tc main_arg4) = (m ((c : Thread nD τ).loc main_arg4)) :=
  (W8_of_ne m ρ c main_arg4 (by decide)).trans (W7_arg4 m ρ c)
theorem W1_arg5 : W1 m ρ c (Proc.devRef .tc main_arg5) = (m ((c : Thread nD τ).loc main_arg5)) :=
  (keep0 (W0 m ρ c) main_arg5 (by decide))
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) :=
  (keep1 (W2 m ρ c) main_arg5 (by decide)).trans (W2_arg5 m ρ c)
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) :=
  (keep2 (W4 m ρ c) main_arg5 (by decide)).trans (W4_arg5 m ρ c)
theorem W6_arg5 : W6 m ρ c (Proc.devRef .tc main_arg5) = (m ((c : Thread nD τ).loc main_arg5)) :=
  (W6_of_ne m ρ c main_arg5 (by decide)).trans (W5_arg5 m ρ c)
theorem W7_arg5 : W7 m ρ c (Proc.devRef .tc main_arg5) = (m ((c : Thread nD τ).loc main_arg5)) :=
  (keep3 (W6 m ρ c) main_arg5 (by decide)).trans (W6_arg5 m ρ c)
theorem W8_arg5 : W8 m ρ c (Proc.devRef .tc main_arg5) = (m ((c : Thread nD τ).loc main_arg5)) :=
  (W8_of_ne m ρ c main_arg5 (by decide)).trans (W7_arg5 m ρ c)
theorem W1_arg6 : W1 m ρ c (Proc.devRef .tc main_arg6) = (m ((c : Thread nD τ).loc main_arg6)) :=
  (keep0 (W0 m ρ c) main_arg6 (by decide))
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) :=
  (keep1 (W2 m ρ c) main_arg6 (by decide)).trans (W2_arg6 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (keep2 (W4 m ρ c) main_arg6 (by decide)).trans (W4_arg6 m ρ c)
theorem W6_arg6 : W6 m ρ c (Proc.devRef .tc main_arg6) = (m ((c : Thread nD τ).loc main_arg6)) :=
  (W6_of_ne m ρ c main_arg6 (by decide)).trans (W5_arg6 m ρ c)
theorem W7_arg6 : W7 m ρ c (Proc.devRef .tc main_arg6) = (m ((c : Thread nD τ).loc main_arg6)) :=
  (keep3 (W6 m ρ c) main_arg6 (by decide)).trans (W6_arg6 m ρ c)
theorem W8_arg6 : W8 m ρ c (Proc.devRef .tc main_arg6) = (m ((c : Thread nD τ).loc main_arg6)) :=
  (W8_of_ne m ρ c main_arg6 (by decide)).trans (W7_arg6 m ρ c)
theorem W1_arg7 : W1 m ρ c (Proc.devRef .tc main_arg7) = (m ((c : Thread nD τ).loc main_arg7)) :=
  (keep0 (W0 m ρ c) main_arg7 (by decide))
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) :=
  (keep1 (W2 m ρ c) main_arg7 (by decide)).trans (W2_arg7 m ρ c)
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (keep2 (W4 m ρ c) main_arg7 (by decide)).trans (W4_arg7 m ρ c)
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) :=
  (keep3 (W6 m ρ c) main_arg7 (by decide)).trans (W6_arg7 m ρ c)
theorem W8_arg7 : W8 m ρ c (Proc.devRef .tc main_arg7) = (m ((c : Thread nD τ).loc main_arg7)) :=
  (W8_of_ne m ρ c main_arg7 (by decide)).trans (W7_arg7 m ρ c)
theorem W1_arg8 : W1 m ρ c (Proc.devRef .tc main_arg8) = (m ((c : Thread nD τ).loc main_arg8)) :=
  (keep0 (W0 m ρ c) main_arg8 (by decide))
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) :=
  (keep1 (W2 m ρ c) main_arg8 (by decide)).trans (W2_arg8 m ρ c)
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) :=
  (keep2 (W4 m ρ c) main_arg8 (by decide)).trans (W4_arg8 m ρ c)
theorem W6_arg8 : W6 m ρ c (Proc.devRef .tc main_arg8) = (m ((c : Thread nD τ).loc main_arg8)) :=
  (W6_of_ne m ρ c main_arg8 (by decide)).trans (W5_arg8 m ρ c)
theorem W7_arg8 : W7 m ρ c (Proc.devRef .tc main_arg8) = (m ((c : Thread nD τ).loc main_arg8)) :=
  (keep3 (W6 m ρ c) main_arg8 (by decide)).trans (W6_arg8 m ρ c)
theorem W8_arg8 : W8 m ρ c (Proc.devRef .tc main_arg8) = (m ((c : Thread nD τ).loc main_arg8)) :=
  (W8_of_ne m ρ c main_arg8 (by decide)).trans (W7_arg8 m ρ c)
theorem W1_arg9 : W1 m ρ c (Proc.devRef .tc main_arg9) = (m ((c : Thread nD τ).loc main_arg9)) :=
  (keep0 (W0 m ρ c) main_arg9 (by decide))
theorem W2_arg9 : W2 m ρ c (Proc.devRef .tc main_arg9) = (m ((c : Thread nD τ).loc main_arg9)) :=
  (W2_of_ne m ρ c main_arg9 (by decide)).trans (W1_arg9 m ρ c)
theorem W3_arg9 : W3 m ρ c (Proc.devRef .tc main_arg9) = (m ((c : Thread nD τ).loc main_arg9)) :=
  (keep1 (W2 m ρ c) main_arg9 (by decide)).trans (W2_arg9 m ρ c)
theorem W4_arg9 : W4 m ρ c (Proc.devRef .tc main_arg9) = (m ((c : Thread nD τ).loc main_arg9)) :=
  (W4_of_ne m ρ c main_arg9 (by decide)).trans (W3_arg9 m ρ c)
theorem W5_arg9 : W5 m ρ c (Proc.devRef .tc main_arg9) = (m ((c : Thread nD τ).loc main_arg9)) :=
  (keep2 (W4 m ρ c) main_arg9 (by decide)).trans (W4_arg9 m ρ c)
theorem W6_arg9 : W6 m ρ c (Proc.devRef .tc main_arg9) = (m ((c : Thread nD τ).loc main_arg9)) :=
  (W6_of_ne m ρ c main_arg9 (by decide)).trans (W5_arg9 m ρ c)
theorem W7_arg9 : W7 m ρ c (Proc.devRef .tc main_arg9) = (m ((c : Thread nD τ).loc main_arg9)) :=
  (keep3 (W6 m ρ c) main_arg9 (by decide)).trans (W6_arg9 m ρ c)
theorem W8_arg9 : W8 m ρ c (Proc.devRef .tc main_arg9) = (m ((c : Thread nD τ).loc main_arg9)) :=
  (W8_of_ne m ρ c main_arg9 (by decide)).trans (W7_arg9 m ρ c)
theorem W9_arg9 : W9 m ρ c (Proc.devRef .tc main_arg9) = (m ((c : Thread nD τ).loc main_arg9)) :=
  (keep4 (W8 m ρ c) main_arg9 (by decide)).trans (W8_arg9 m ρ c)
theorem W10_arg9 : W10 m ρ c (Proc.devRef .tc main_arg9) = (m ((c : Thread nD τ).loc main_arg9)) :=
  (W10_of_ne m ρ c main_arg9 (by decide)).trans (W9_arg9 m ρ c)
theorem W1_arg10 : W1 m ρ c (Proc.devRef .tc main_arg10) = (m ((c : Thread nD τ).loc main_arg10)) :=
  (keep0 (W0 m ρ c) main_arg10 (by decide))
theorem W2_arg10 : W2 m ρ c (Proc.devRef .tc main_arg10) = (m ((c : Thread nD τ).loc main_arg10)) :=
  (W2_of_ne m ρ c main_arg10 (by decide)).trans (W1_arg10 m ρ c)
theorem W3_arg10 : W3 m ρ c (Proc.devRef .tc main_arg10) = (m ((c : Thread nD τ).loc main_arg10)) :=
  (keep1 (W2 m ρ c) main_arg10 (by decide)).trans (W2_arg10 m ρ c)
theorem W4_arg10 : W4 m ρ c (Proc.devRef .tc main_arg10) = (m ((c : Thread nD τ).loc main_arg10)) :=
  (W4_of_ne m ρ c main_arg10 (by decide)).trans (W3_arg10 m ρ c)
theorem W5_arg10 : W5 m ρ c (Proc.devRef .tc main_arg10) = (m ((c : Thread nD τ).loc main_arg10)) :=
  (keep2 (W4 m ρ c) main_arg10 (by decide)).trans (W4_arg10 m ρ c)
theorem W6_arg10 : W6 m ρ c (Proc.devRef .tc main_arg10) = (m ((c : Thread nD τ).loc main_arg10)) :=
  (W6_of_ne m ρ c main_arg10 (by decide)).trans (W5_arg10 m ρ c)
theorem W7_arg10 : W7 m ρ c (Proc.devRef .tc main_arg10) = (m ((c : Thread nD τ).loc main_arg10)) :=
  (keep3 (W6 m ρ c) main_arg10 (by decide)).trans (W6_arg10 m ρ c)
theorem W8_arg10 : W8 m ρ c (Proc.devRef .tc main_arg10) = (m ((c : Thread nD τ).loc main_arg10)) :=
  (W8_of_ne m ρ c main_arg10 (by decide)).trans (W7_arg10 m ρ c)
theorem W9_arg10 : W9 m ρ c (Proc.devRef .tc main_arg10) = (m ((c : Thread nD τ).loc main_arg10)) :=
  (keep4 (W8 m ρ c) main_arg10 (by decide)).trans (W8_arg10 m ρ c)
theorem W10_arg10 : W10 m ρ c (Proc.devRef .tc main_arg10) = (m ((c : Thread nD τ).loc main_arg10)) :=
  (W10_of_ne m ρ c main_arg10 (by decide)).trans (W9_arg10 m ρ c)
theorem W1_arg11 : W1 m ρ c (Proc.devRef .tc main_arg11) = (m ((c : Thread nD τ).loc main_arg11)) :=
  (keep0 (W0 m ρ c) main_arg11 (by decide))
theorem W2_arg11 : W2 m ρ c (Proc.devRef .tc main_arg11) = (m ((c : Thread nD τ).loc main_arg11)) :=
  (W2_of_ne m ρ c main_arg11 (by decide)).trans (W1_arg11 m ρ c)
theorem W3_arg11 : W3 m ρ c (Proc.devRef .tc main_arg11) = (m ((c : Thread nD τ).loc main_arg11)) :=
  (keep1 (W2 m ρ c) main_arg11 (by decide)).trans (W2_arg11 m ρ c)
theorem W4_arg11 : W4 m ρ c (Proc.devRef .tc main_arg11) = (m ((c : Thread nD τ).loc main_arg11)) :=
  (W4_of_ne m ρ c main_arg11 (by decide)).trans (W3_arg11 m ρ c)
theorem W5_arg11 : W5 m ρ c (Proc.devRef .tc main_arg11) = (m ((c : Thread nD τ).loc main_arg11)) :=
  (keep2 (W4 m ρ c) main_arg11 (by decide)).trans (W4_arg11 m ρ c)
theorem W6_arg11 : W6 m ρ c (Proc.devRef .tc main_arg11) = (m ((c : Thread nD τ).loc main_arg11)) :=
  (W6_of_ne m ρ c main_arg11 (by decide)).trans (W5_arg11 m ρ c)
theorem W7_arg11 : W7 m ρ c (Proc.devRef .tc main_arg11) = (m ((c : Thread nD τ).loc main_arg11)) :=
  (keep3 (W6 m ρ c) main_arg11 (by decide)).trans (W6_arg11 m ρ c)
theorem W8_arg11 : W8 m ρ c (Proc.devRef .tc main_arg11) = (m ((c : Thread nD τ).loc main_arg11)) :=
  (W8_of_ne m ρ c main_arg11 (by decide)).trans (W7_arg11 m ρ c)
theorem W9_arg11 : W9 m ρ c (Proc.devRef .tc main_arg11) = (m ((c : Thread nD τ).loc main_arg11)) :=
  (keep4 (W8 m ρ c) main_arg11 (by decide)).trans (W8_arg11 m ρ c)
theorem W10_arg11 : W10 m ρ c (Proc.devRef .tc main_arg11) = (m ((c : Thread nD τ).loc main_arg11)) :=
  (W10_of_ne m ρ c main_arg11 (by decide)).trans (W9_arg11 m ρ c)
theorem W11_arg11 : W11 m ρ c (Proc.devRef .tc main_arg11) = (m ((c : Thread nD τ).loc main_arg11)) :=
  (keep5 (W10 m ρ c) main_arg11 (by decide)).trans (W10_arg11 m ρ c)
theorem W12_arg11 : W12 m ρ c (Proc.devRef .tc main_arg11) = (m ((c : Thread nD τ).loc main_arg11)) :=
  (W12_of_ne m ρ c main_arg11 (by decide)).trans (W11_arg11 m ρ c)
theorem W13_arg11 : W13 m ρ c (Proc.devRef .tc main_arg11) = (m ((c : Thread nD τ).loc main_arg11)) :=
  (keep6 (W12 m ρ c) main_arg11 (by decide)).trans (W12_arg11 m ρ c)
theorem W1_arg12 : W1 m ρ c (Proc.devRef .tc main_arg12) = (m ((c : Thread nD τ).loc main_arg12)) :=
  (keep0 (W0 m ρ c) main_arg12 (by decide))
theorem W2_arg12 : W2 m ρ c (Proc.devRef .tc main_arg12) = (m ((c : Thread nD τ).loc main_arg12)) :=
  (W2_of_ne m ρ c main_arg12 (by decide)).trans (W1_arg12 m ρ c)
theorem W3_arg12 : W3 m ρ c (Proc.devRef .tc main_arg12) = (m ((c : Thread nD τ).loc main_arg12)) :=
  (keep1 (W2 m ρ c) main_arg12 (by decide)).trans (W2_arg12 m ρ c)
theorem W4_arg12 : W4 m ρ c (Proc.devRef .tc main_arg12) = (m ((c : Thread nD τ).loc main_arg12)) :=
  (W4_of_ne m ρ c main_arg12 (by decide)).trans (W3_arg12 m ρ c)
theorem W5_arg12 : W5 m ρ c (Proc.devRef .tc main_arg12) = (m ((c : Thread nD τ).loc main_arg12)) :=
  (keep2 (W4 m ρ c) main_arg12 (by decide)).trans (W4_arg12 m ρ c)
theorem W6_arg12 : W6 m ρ c (Proc.devRef .tc main_arg12) = (m ((c : Thread nD τ).loc main_arg12)) :=
  (W6_of_ne m ρ c main_arg12 (by decide)).trans (W5_arg12 m ρ c)
theorem W7_arg12 : W7 m ρ c (Proc.devRef .tc main_arg12) = (m ((c : Thread nD τ).loc main_arg12)) :=
  (keep3 (W6 m ρ c) main_arg12 (by decide)).trans (W6_arg12 m ρ c)
theorem W8_arg12 : W8 m ρ c (Proc.devRef .tc main_arg12) = (m ((c : Thread nD τ).loc main_arg12)) :=
  (W8_of_ne m ρ c main_arg12 (by decide)).trans (W7_arg12 m ρ c)
theorem W9_arg12 : W9 m ρ c (Proc.devRef .tc main_arg12) = (m ((c : Thread nD τ).loc main_arg12)) :=
  (keep4 (W8 m ρ c) main_arg12 (by decide)).trans (W8_arg12 m ρ c)
theorem W10_arg12 : W10 m ρ c (Proc.devRef .tc main_arg12) = (m ((c : Thread nD τ).loc main_arg12)) :=
  (W10_of_ne m ρ c main_arg12 (by decide)).trans (W9_arg12 m ρ c)
theorem W11_arg12 : W11 m ρ c (Proc.devRef .tc main_arg12) = (m ((c : Thread nD τ).loc main_arg12)) :=
  (keep5 (W10 m ρ c) main_arg12 (by decide)).trans (W10_arg12 m ρ c)
theorem W12_arg12 : W12 m ρ c (Proc.devRef .tc main_arg12) = (m ((c : Thread nD τ).loc main_arg12)) :=
  (W12_of_ne m ρ c main_arg12 (by decide)).trans (W11_arg12 m ρ c)

/-! ## The flattened edge vectors the first stretch computes: later stretches read them again -/
theorem W1_v1 : W1 m ρ c (Proc.devRef .tc main_v1) = srcFlat (m ((c : Thread nD τ).loc main_arg1)) :=
  after0_v1 (W0 m ρ c)
theorem W2_v1 : W2 m ρ c (Proc.devRef .tc main_v1) = srcFlat (m ((c : Thread nD τ).loc main_arg1)) :=
  (W2_of_ne m ρ c main_v1 (by decide)).trans (W1_v1 m ρ c)
theorem W3_v1 : W3 m ρ c (Proc.devRef .tc main_v1) = srcFlat (m ((c : Thread nD τ).loc main_arg1)) :=
  (keep1 (W2 m ρ c) main_v1 (by decide)).trans (W2_v1 m ρ c)
theorem W4_v1 : W4 m ρ c (Proc.devRef .tc main_v1) = srcFlat (m ((c : Thread nD τ).loc main_arg1)) :=
  (W4_of_ne m ρ c main_v1 (by decide)).trans (W3_v1 m ρ c)
theorem W5_v1 : W5 m ρ c (Proc.devRef .tc main_v1) = srcFlat (m ((c : Thread nD τ).loc main_arg1)) :=
  (keep2 (W4 m ρ c) main_v1 (by decide)).trans (W4_v1 m ρ c)
theorem W6_v1 : W6 m ρ c (Proc.devRef .tc main_v1) = srcFlat (m ((c : Thread nD τ).loc main_arg1)) :=
  (W6_of_ne m ρ c main_v1 (by decide)).trans (W5_v1 m ρ c)
theorem W7_v1 : W7 m ρ c (Proc.devRef .tc main_v1) = srcFlat (m ((c : Thread nD τ).loc main_arg1)) :=
  (keep3 (W6 m ρ c) main_v1 (by decide)).trans (W6_v1 m ρ c)
theorem W8_v1 : W8 m ρ c (Proc.devRef .tc main_v1) = srcFlat (m ((c : Thread nD τ).loc main_arg1)) :=
  (W8_of_ne m ρ c main_v1 (by decide)).trans (W7_v1 m ρ c)
theorem W1_v3 : W1 m ρ c (Proc.devRef .tc main_v3) = dstFlat (m ((c : Thread nD τ).loc main_arg1)) :=
  after0_v3 (W0 m ρ c)
theorem W2_v3 : W2 m ρ c (Proc.devRef .tc main_v3) = dstFlat (m ((c : Thread nD τ).loc main_arg1)) :=
  (W2_of_ne m ρ c main_v3 (by decide)).trans (W1_v3 m ρ c)
theorem W3_v3 : W3 m ρ c (Proc.devRef .tc main_v3) = dstFlat (m ((c : Thread nD τ).loc main_arg1)) :=
  (keep1 (W2 m ρ c) main_v3 (by decide)).trans (W2_v3 m ρ c)
theorem W4_v3 : W4 m ρ c (Proc.devRef .tc main_v3) = dstFlat (m ((c : Thread nD τ).loc main_arg1)) :=
  (W4_of_ne m ρ c main_v3 (by decide)).trans (W3_v3 m ρ c)
theorem W5_v3 : W5 m ρ c (Proc.devRef .tc main_v3) = dstFlat (m ((c : Thread nD τ).loc main_arg1)) :=
  (keep2 (W4 m ρ c) main_v3 (by decide)).trans (W4_v3 m ρ c)
theorem W6_v3 : W6 m ρ c (Proc.devRef .tc main_v3) = dstFlat (m ((c : Thread nD τ).loc main_arg1)) :=
  (W6_of_ne m ρ c main_v3 (by decide)).trans (W5_v3 m ρ c)
theorem W7_v3 : W7 m ρ c (Proc.devRef .tc main_v3) = dstFlat (m ((c : Thread nD τ).loc main_arg1)) :=
  (keep3 (W6 m ρ c) main_v3 (by decide)).trans (W6_v3 m ρ c)
theorem W8_v3 : W8 m ρ c (Proc.devRef .tc main_v3) = dstFlat (m ((c : Thread nD τ).loc main_arg1)) :=
  (W8_of_ne m ρ c main_v3 (by decide)).trans (W7_v3 m ρ c)

end Cert.KernelIdeal.Chain

end
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.RegStats4a.lean ====
/-
  A combine-and-statistics region, its body read as values. At a grid point the body holds a block of 5000 rows
  of the features h, of the neighbour sums and of the read-outs, three weight matrices and three bias rows. It
  stores the block of clamped sums pre = max(h·V + v + (agg·A + a) + (ro·R + r), 0), and adds the block's column
  sums of pre and of pre² into two one-row accumulators, which the first point resets to zero beforehand.
-/
import proofs.«142960_j19688130085206_1_alg».proof.Proof.Gen.KernelIdeal.Frame
import proofs.«142960_j19688130085206_1_alg».proof.Proof.Spec
import proofs.«142960_j19688130085206_1_alg».proof.Proof.SpecL
import proofs.«142960_j19688130085206_1_alg».proof.Proof.LibRealLift
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegStats4

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-! ## What each case of the body leaves in the three outputs -/

/-- The block of clamped sums, from the nine input blocks. -/
abbrev blockPre (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) : FVec Ideal S5000x128 .f32 :=
  k4_pay1 (k4_pay6 x0 x3 x4) (k4_pay7 x1 x5 x6) (k4_pay8 x2 x7) (k4_pay9 x8)

section Cases
variable (c : Dev nD) (i : grid0.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S1x128 .f32) (h9 : a9.IsWhole) (a10 : Memref sig .tc .vmem S5000x128 .f32) (h10 : a10.IsWhole) (a11 : Memref sig .tc .vmem S1x128 .f32) (h11 : a11.IsWhole) (a12 : Memref sig .tc .vmem S1x128 .f32) (h12 : a12.IsWhole)

theorem out_A_9 (hc : cond4_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out4_A_9 c i a1 h1 a2 h2 a3 h3 a4 h4 a5 h5 a6 h6 a7 h7 a8 h8 a9 h9 a10 h10 a11 h11 a12 h12 hc x0 x1 x2 x3 x4 x5 x6 x7 x8 = blockPre x0 x1 x2 x3 x4 x5 x6 x7 x8 := by
  unfold out4_A_9
  rw [View.read_writes_eq_canon _ _ _ (cover4_A_9 c i a1 h1 a2 h2 a3 h3 a4 h4 a5 h5 a6 h6 a7 h7 a8 h8 a9 h9 a10 h10 a11 h11 a12 h12 hc x0 x1 x2 x3 x4 x5 x6 x7 x8)]
  unfold kernelRun4_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_B_9 (hc : ¬cond4_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out4_B_9 c i a1 h1 a2 h2 a3 h3 a4 h4 a5 h5 a6 h6 a7 h7 a8 h8 a9 h9 a10 h10 a11 h11 a12 h12 hc x0 x1 x2 x3 x4 x5 x6 x7 x8 xo10 xo11 = blockPre x0 x1 x2 x3 x4 x5 x6 x7 x8 := by
  unfold out4_B_9
  rw [View.read_writes_eq_canon _ _ _ (cover4_B_9 c i a1 h1 a2 h2 a3 h3 a4 h4 a5 h5 a6 h6 a7 h7 a8 h8 a9 h9 a10 h10 a11 h11 a12 h12 hc x0 x1 x2 x3 x4 x5 x6 x7 x8 xo10 xo11)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_A_10 (hc : cond4_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out4_A_10 c i a1 h1 a2 h2 a3 h3 a4 h4 a5 h5 a6 h6 a7 h7 a8 h8 a9 h9 a10 h10 a11 h11 a12 h12 hc x0 x1 x2 x3 x4 x5 x6 x7 x8 = k4_pay2 (k4_pay6 x0 x3 x4) (k4_pay7 x1 x5 x6) (k4_pay8 x2 x7) (k4_pay9 x8) (k4_pay4 (F := Ideal)) := by
  unfold out4_A_10
  rw [View.read_writes_eq_canon _ _ _ (cover4_A_10 c i a1 h1 a2 h2 a3 h3 a4 h4 a5 h5 a6 h6 a7 h7 a8 h8 a9 h9 a10 h10 a11 h11 a12 h12 hc x0 x1 x2 x3 x4 x5 x6 x7 x8)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_A_11 (hc : cond4_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out4_A_11 c i a1 h1 a2 h2 a3 h3 a4 h4 a5 h5 a6 h6 a7 h7 a8 h8 a9 h9 a10 h10 a11 h11 a12 h12 hc x0 x1 x2 x3 x4 x5 x6 x7 x8 = k4_pay3 (k4_pay6 x0 x3 x4) (k4_pay7 x1 x5 x6) (k4_pay8 x2 x7) (k4_pay9 x8) (k4_pay5 (F := Ideal)) := by
  unfold out4_A_11
  rw [View.read_writes_eq_canon _ _ _ (cover4_A_11 c i a1 h1 a2 h2 a3 h3 a4 h4 a5 h5 a6 h6 a7 h7 a8 h8 a9 h9 a10 h10 a11 h11 a12 h12 hc x0 x1 x2 x3 x4 x5 x6 x7 x8)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_B_10 (hc : ¬cond4_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out4_B_10 c i a1 h1 a2 h2 a3 h3 a4 h4 a5 h5 a6 h6 a7 h7 a8 h8 a9 h9 a10 h10 a11 h11 a12 h12 hc x0 x1 x2 x3 x4 x5 x6 x7 x8 xo10 xo11 = k4_pay2 (k4_pay6 x0 x3 x4) (k4_pay7 x1 x5 x6) (k4_pay8 x2 x7) (k4_pay9 x8) xo10 := by
  unfold out4_B_10
  rw [View.read_writes_eq_canon _ _ _ (cover4_B_10 c i a1 h1 a2 h2 a3 h3 a4 h4 a5 h5 a6 h6 a7 h7 a8 h8 a9 h9 a10 h10 a11 h11 a12 h12 hc x0 x1 x2 x3 x4 x5 x6 x7 x8 xo10 xo11)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, View.ld_unit_zero (S := S5000x128) hz, View.ld_unit_zero (S := S128x128) hz, View.ld_unit_zero (S := S1x128) hz]

theorem out_B_11 (hc : ¬cond4_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out4_B_11 c i a1 h1 a2 h2 a3 h3 a4 h4 a5 h5 a6 h6 a7 h7 a8 h8 a9 h9 a10 h10 a11 h11 a12 h12 hc x0 x1 x2 x3 x4 x5 x6 x7 x8 xo10 xo11 = k4_pay3 (k4_pay6 x0 x3 x4) (k4_pay7 x1 x5 x6) (k4_pay8 x2 x7) (k4_pay9 x8) xo11 := by
  unfold out4_B_11
  rw [View.read_writes_eq_canon _ _ _ (cover4_B_11 c i a1 h1 a2 h2 a3 h3 a4 h4 a5 h5 a6 h6 a7 h7 a8 h8 a9 h9 a10 h10 a11 h11 a12 h12 hc x0 x1 x2 x3 x4 x5 x6 x7 x8 xo10 xo11)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S5000x128) hz, View.ld_unit_zero (S := S128x128) hz, View.ld_unit_zero (S := S1x128) hz]

end Cases

end Cert.KernelIdeal.RegStats4

end
-- ==== Proof.RegStats4b.lean ====
/-
  A combine-and-statistics region: its body's values entry by entry, and what a grid point contributes. Entry
  (r, q) of the block of clamped sums at point t is the clamped sum of the whole arrays at row 5000t + r; the
  point adds to the two one-row accumulators, at column q, the sum over its 5000 rows of that entry and of its
  square.
-/
import proofs.«142960_j19688130085206_1_alg».proof.Proof.RegStats4a

set_option maxRecDepth 16384

noncomputable section

namespace Cert.KernelIdeal.RegStats4

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-! ## The payloads, entry by entry -/

/-- The contraction sum of a [5000, 128] × [128, 128] product at (p, q). -/
theorem dot_sum (l : (⟨2, ![5000, 128]⟩ : Shape).Idx → EReal) (r : (⟨2, ![128, 128]⟩ : Shape).Idx → EReal) (p : Fin 5000) (q : Fin 128) :
    (∑ k : dot_S5000x128_S128x128_S5000x128_1_0_0_1_n_n.contr.Idx, l (dot_S5000x128_S128x128_S5000x128_1_0_0_1_n_n.lhsIdx (ix2 p q) k) * r (dot_S5000x128_S128x128_S5000x128_1_0_0_1_n_n.rhsIdx (ix2 p q) k)) = ∑ k : Fin 128, l (ix2 p k) * r (ix2 k q) :=
  Cert.LibRealLift.plain_sum 5000 128 128 l r p q

/-- An affine map of a block at (r, q): row r times column q, plus the bias at q. -/
theorem lin6_apply (x : Vec Ideal S5000x128 .f32) (W : Vec Ideal S128x128 .f32) (b : Vec Ideal S1x128 .f32) (r : Fin 5000) (q : Fin 128) :
    k4_pay6 (F := Ideal) x W b (ix2 r q) = (∑ k : Fin 128, x (ix2 r k) * W (ix2 k q)) + b (ix2 (0 : Fin 1) q) := by
  unfold k4_pay6
  simp only [shapeCast_self, addf_apply, broadcastTo_1b_ab_apply, Ideal.matmul_constant_zero_apply]
  exact congrArg (· + b (ix2 (0 : Fin 1) q)) (dot_sum _ _ r q)

/-- An affine map of a block at (r, q): row r times column q, plus the bias at q. -/
theorem lin7_apply (x : Vec Ideal S5000x128 .f32) (W : Vec Ideal S128x128 .f32) (b : Vec Ideal S1x128 .f32) (r : Fin 5000) (q : Fin 128) :
    k4_pay7 (F := Ideal) x W b (ix2 r q) = (∑ k : Fin 128, x (ix2 r k) * W (ix2 k q)) + b (ix2 (0 : Fin 1) q) := by
  unfold k4_pay7
  simp only [shapeCast_self, addf_apply, broadcastTo_1b_ab_apply, Ideal.matmul_constant_zero_apply]
  exact congrArg (· + b (ix2 (0 : Fin 1) q)) (dot_sum _ _ r q)

/-- The third product of a block at (r, q): row r times column q. -/
theorem lin8_apply (x : Vec Ideal S5000x128 .f32) (W : Vec Ideal S128x128 .f32) (r : Fin 5000) (q : Fin 128) :
    k4_pay8 (F := Ideal) x W (ix2 r q) = ∑ k : Fin 128, x (ix2 r k) * W (ix2 k q) := by
  unfold k4_pay8
  simp only [shapeCast_self, Ideal.matmul_constant_zero_apply]
  exact dot_sum _ _ r q

/-- The third bias row spread over the block, at (r, q). -/
theorem lin9_apply (b : Vec Ideal S1x128 .f32) (r : Fin 5000) (q : Fin 128) :
    k4_pay9 (F := Ideal) b (ix2 r q) = b (ix2 (0 : Fin 1) q) := by
  unfold k4_pay9
  simp only [shapeCast_self, broadcastTo_1b_ab_apply]

/-- The clamped sum at an entry. -/
theorem pay1_apply (a b d e : FVec Ideal S5000x128 .f32) (i : S5000x128.Idx) : k4_pay1 (F := Ideal) a b d e i = max ((a i + b i) + (d i + e i)) 0 := by
  unfold k4_pay1
  simp only [maximumf_apply, addf_apply, broadcast_apply]
  exact congrArg (max ((a i + b i) + (d i + e i))) Ideal.ofBits_zero_f32

/-- The block of clamped sums at (r, q), from the nine input blocks. -/
theorem blockPre_apply (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (r : Fin 5000) (q : Fin 128) :
    blockPre x0 x1 x2 x3 x4 x5 x6 x7 x8 (ix2 r q)
      = max ((((∑ k : Fin 128, x0 (ix2 r k) * x3 (ix2 k q)) + x4 (ix2 (0 : Fin 1) q)) + ((∑ k : Fin 128, x1 (ix2 r k) * x5 (ix2 k q)) + x6 (ix2 (0 : Fin 1) q)))
          + ((∑ k : Fin 128, x2 (ix2 r k) * x7 (ix2 k q)) + x8 (ix2 (0 : Fin 1) q))) 0 := by
  refine (pay1_apply _ _ _ _ (ix2 r q)).trans ?_
  rw [lin6_apply, lin7_apply, lin8_apply, lin9_apply]

/-- A sum over axis 0 of a [5000, 128] array, read at column q. -/
theorem colred (src : FVec Ideal S5000x128 .f32) (h : S5000x128.Reduces [0] S128) (hφ : FKind.Formats .f32)
    (hacc : (0x00000000#32 : BitVec 32) = 0x00000000#32) (q : Fin 128) :
    multiReduction .add [0] S128 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a; apply Fin.ext
  match a with
  | ⟨0, _⟩ => rfl
  | ⟨1, _⟩ => rfl

/-- The new first accumulator at column q: the old one plus the block's column sum. -/
theorem acc10_apply (a b d e : FVec Ideal S5000x128 .f32) (prev : Vec Ideal S1x128 .f32) (q : Fin 128) :
    k4_pay2 (F := Ideal) a b d e prev (ix2 (0 : Fin 1) q) = prev (ix2 (0 : Fin 1) q) + ∑ r : Fin 5000, k4_pay1 (F := Ideal) a b d e (ix2 r q) := by
  unfold k4_pay2
  simp only [shapeCast_self, addf_apply]
  refine congrArg (prev (ix2 (0 : Fin 1) q) + ·) ?_
  refine (shapeCast_a_1a_apply _ shapeCasts_S128_S1x128 (0 : Fin 1) q).trans ?_
  exact colred _ _ _ _ q

/-- The new second accumulator at column q: the old one plus the block's column sum of squares. -/
theorem acc11_apply (a b d e : FVec Ideal S5000x128 .f32) (prev : Vec Ideal S1x128 .f32) (q : Fin 128) :
    k4_pay3 (F := Ideal) a b d e prev (ix2 (0 : Fin 1) q) = prev (ix2 (0 : Fin 1) q) + ∑ r : Fin 5000, k4_pay1 (F := Ideal) a b d e (ix2 r q) * k4_pay1 (F := Ideal) a b d e (ix2 r q) := by
  unfold k4_pay3
  simp only [shapeCast_self, addf_apply]
  refine congrArg (prev (ix2 (0 : Fin 1) q) + ·) ?_
  refine (shapeCast_a_1a_apply _ shapeCasts_S128_S1x128 (0 : Fin 1) q).trans ?_
  exact colred _ _ _ _ q

/-- The reset row is zero. -/
theorem zero10_apply (j : S1x128.Idx) : k4_pay4 (F := Ideal) j = 0 := by
  unfold k4_pay4
  exact Ideal.ofBits_zero_f32
theorem zero11_apply (j : S1x128.Idx) : k4_pay5 (F := Ideal) j = 0 := by
  unfold k4_pay5
  exact Ideal.ofBits_zero_f32

/-! ## The region's arrays -/

variable (V : (c : Dev nD) → (b : Ref sig .tc) → Buf (Elt Ideal) ((c : Thread nD τ).loc b))

abbrev aH (c : Dev nD) : S50000x128.Idx → EReal := V c main_v101
abbrev aAgg (c : Dev nD) : S50000x128.Idx → EReal := V c main_v111
abbrev aRo (c : Dev nD) : S50000x128.Idx → EReal := V c main_v121
abbrev aWv (c : Dev nD) : S128x128.Idx → EReal := V c main_v123
abbrev aBv (c : Dev nD) : S1x128.Idx → EReal := V c main_v126
abbrev aWa (c : Dev nD) : S128x128.Idx → EReal := V c main_v128
abbrev aBa (c : Dev nD) : S1x128.Idx → EReal := V c main_v131
abbrev aWr (c : Dev nD) : S128x128.Idx → EReal := V c main_v133
abbrev aBr (c : Dev nD) : S1x128.Idx → EReal := V c main_v136

/-- The clamped sum of the three affine maps of the arrays the region finds. -/
abbrev Gpre (c : Dev nD) : S50000x128.Idx → EReal :=
  Cert.GnnSpec.preL (aH V c) (aAgg V c) (aRo V c) (aWv V c) (aWa V c) (aWr V c) (aBv V c) (aBa V c) (aBr V c)

/-- The printed index maps over the grid: the three feature blocks and the first output's block move down one block per
    point; the weights, the bias rows and the two accumulators stay. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0)
    ∧ (win4_10.index t (0 : Fin 2) = 0 ∧ win4_10.index t (1 : Fin 2) = 0)
    ∧ (win4_11.index t (0 : Fin 2) = 0 ∧ win4_11.index t (1 : Fin 2) = 0) :=
  (by decide +kernel : ∀ t : Fin grid4.N, _)

/-- Row r of the block at position t is row 5000t + r of the array (positions below ten). -/
abbrev rowOf (t : ℕ) (r : Fin 5000) : Fin 50000 := ⟨(5000 * t + r.val) % 50000, Nat.mod_lt _ (by norm_num)⟩

theorem N_lt (t : Fin cfg4.N) : t.val < 10 := lt_of_lt_of_eq t.isLt (show cfg4.N = 10 from N_4)

/-- Feature window 0's block at point t, read at (r, k). -/
theorem blk0_apply (c : Dev nD) (t : Fin cfg4.N) (r : Fin 5000) (k : Fin 128) :
    iblk4 V c 0 t (ix2 r k) = aH V c (ix2 (rowOf t.val r) k) := by
  have hi := (idx_facts t).1
  have hN := N_lt t
  unfold iblk4
  rw [View.read_apply]
  show V c main_v101 _ = V c main_v101 _
  congr 1
  funext a; apply Fin.ext
  match a with
  | ⟨0, _⟩ => show win4_0.index t (0 : Fin 2) * 5000 + 1 * r.val = (5000 * t.val + r.val) % 50000; rw [hi.1]; have := r.isLt; omega
  | ⟨1, _⟩ => show win4_0.index t (1 : Fin 2) * 128 + 1 * k.val = k.val; rw [hi.2]; omega
/-- Feature window 1's block at point t, read at (r, k). -/
theorem blk1_apply (c : Dev nD) (t : Fin cfg4.N) (r : Fin 5000) (k : Fin 128) :
    iblk4 V c 1 t (ix2 r k) = aAgg V c (ix2 (rowOf t.val r) k) := by
  have hi := (idx_facts t).2.1
  have hN := N_lt t
  unfold iblk4
  rw [View.read_apply]
  show V c main_v111 _ = V c main_v111 _
  congr 1
  funext a; apply Fin.ext
  match a with
  | ⟨0, _⟩ => show win4_1.index t (0 : Fin 2) * 5000 + 1 * r.val = (5000 * t.val + r.val) % 50000; rw [hi.1]; have := r.isLt; omega
  | ⟨1, _⟩ => show win4_1.index t (1 : Fin 2) * 128 + 1 * k.val = k.val; rw [hi.2]; omega
/-- Feature window 2's block at point t, read at (r, k). -/
theorem blk2_apply (c : Dev nD) (t : Fin cfg4.N) (r : Fin 5000) (k : Fin 128) :
    iblk4 V c 2 t (ix2 r k) = aRo V c (ix2 (rowOf t.val r) k) := by
  have hi := (idx_facts t).2.2.1
  have hN := N_lt t
  unfold iblk4
  rw [View.read_apply]
  show V c main_v121 _ = V c main_v121 _
  congr 1
  funext a; apply Fin.ext
  match a with
  | ⟨0, _⟩ => show win4_2.index t (0 : Fin 2) * 5000 + 1 * r.val = (5000 * t.val + r.val) % 50000; rw [hi.1]; have := r.isLt; omega
  | ⟨1, _⟩ => show win4_2.index t (1 : Fin 2) * 128 + 1 * k.val = k.val; rw [hi.2]; omega

/-- Weight window 3's block at any point is the whole matrix. -/
theorem blk3_apply (c : Dev nD) (t : Fin cfg4.N) (k q : Fin 128) :
    iblk4 V c 3 t (ix2 k q) = aWv V c (ix2 k q) := by
  have hi := (idx_facts t).2.2.2.1
  unfold iblk4
  rw [View.read_apply]
  show V c main_v123 _ = V c main_v123 _
  congr 1
  funext a; apply Fin.ext
  match a with
  | ⟨0, _⟩ => show win4_3.index t (0 : Fin 2) * 128 + 1 * k.val = k.val; rw [hi.1]; omega
  | ⟨1, _⟩ => show win4_3.index t (1 : Fin 2) * 128 + 1 * q.val = q.val; rw [hi.2]; omega
/-- Weight window 5's block at any point is the whole matrix. -/
theorem blk5_apply (c : Dev nD) (t : Fin cfg4.N) (k q : Fin 128) :
    iblk4 V c 5 t (ix2 k q) = aWa V c (ix2 k q) := by
  have hi := (idx_facts t).2.2.2.2.2.1
  unfold iblk4
  rw [View.read_apply]
  show V c main_v128 _ = V c main_v128 _
  congr 1
  funext a; apply Fin.ext
  match a with
  | ⟨0, _⟩ => show win4_5.index t (0 : Fin 2) * 128 + 1 * k.val = k.val; rw [hi.1]; omega
  | ⟨1, _⟩ => show win4_5.index t (1 : Fin 2) * 128 + 1 * q.val = q.val; rw [hi.2]; omega
/-- Weight window 7's block at any point is the whole matrix. -/
theorem blk7_apply (c : Dev nD) (t : Fin cfg4.N) (k q : Fin 128) :
    iblk4 V c 7 t (ix2 k q) = aWr V c (ix2 k q) := by
  have hi := (idx_facts t).2.2.2.2.2.2.2.1
  unfold iblk4
  rw [View.read_apply]
  show V c main_v133 _ = V c main_v133 _
  congr 1
  funext a; apply Fin.ext
  match a with
  | ⟨0, _⟩ => show win4_7.index t (0 : Fin 2) * 128 + 1 * k.val = k.val; rw [hi.1]; omega
  | ⟨1, _⟩ => show win4_7.index t (1 : Fin 2) * 128 + 1 * q.val = q.val; rw [hi.2]; omega

/-- Bias window 4's block at any point is the whole row. -/
theorem blk4_apply (c : Dev nD) (t : Fin cfg4.N) (q : Fin 128) :
    iblk4 V c 4 t (ix2 (0 : Fin 1) q) = aBv V c (ix2 (0 : Fin 1) q) := by
  have hi := (idx_facts t).2.2.2.2.1
  unfold iblk4
  rw [View.read_apply]
  show V c main_v126 _ = V c main_v126 _
  congr 1
  funext a; apply Fin.ext
  match a with
  | ⟨0, _⟩ => show win4_4.index t (0 : Fin 2) * 1 + 1 * 0 = 0; rw [hi.1]
  | ⟨1, _⟩ => show win4_4.index t (1 : Fin 2) * 128 + 1 * q.val = q.val; rw [hi.2]; omega
/-- Bias window 6's block at any point is the whole row. -/
theorem blk6_apply (c : Dev nD) (t : Fin cfg4.N) (q : Fin 128) :
    iblk4 V c 6 t (ix2 (0 : Fin 1) q) = aBa V c (ix2 (0 : Fin 1) q) := by
  have hi := (idx_facts t).2.2.2.2.2.2.1
  unfold iblk4
  rw [View.read_apply]
  show V c main_v131 _ = V c main_v131 _
  congr 1
  funext a; apply Fin.ext
  match a with
  | ⟨0, _⟩ => show win4_6.index t (0 : Fin 2) * 1 + 1 * 0 = 0; rw [hi.1]
  | ⟨1, _⟩ => show win4_6.index t (1 : Fin 2) * 128 + 1 * q.val = q.val; rw [hi.2]; omega
/-- Bias window 8's block at any point is the whole row. -/
theorem blk8_apply (c : Dev nD) (t : Fin cfg4.N) (q : Fin 128) :
    iblk4 V c 8 t (ix2 (0 : Fin 1) q) = aBr V c (ix2 (0 : Fin 1) q) := by
  have hi := (idx_facts t).2.2.2.2.2.2.2.2.1
  unfold iblk4
  rw [View.read_apply]
  show V c main_v136 _ = V c main_v136 _
  congr 1
  funext a; apply Fin.ext
  match a with
  | ⟨0, _⟩ => show win4_8.index t (0 : Fin 2) * 1 + 1 * 0 = 0; rw [hi.1]
  | ⟨1, _⟩ => show win4_8.index t (1 : Fin 2) * 128 + 1 * q.val = q.val; rw [hi.2]; omega

/-- The block of clamped sums at point t is the clamped sum of the whole arrays at the block's rows. -/
theorem blockPre_at (c : Dev nD) (t : Fin cfg4.N) (r : Fin 5000) (q : Fin 128) :
    blockPre (iblk4 V c 0 t) (iblk4 V c 1 t) (iblk4 V c 2 t) (iblk4 V c 3 t) (iblk4 V c 4 t) (iblk4 V c 5 t) (iblk4 V c 6 t) (iblk4 V c 7 t) (iblk4 V c 8 t) (ix2 r q) = Gpre V c (ix2 (rowOf t.val r) q) := by
  refine (blockPre_apply (iblk4 V c 0 t) (iblk4 V c 1 t) (iblk4 V c 2 t) (iblk4 V c 3 t) (iblk4 V c 4 t) (iblk4 V c 5 t) (iblk4 V c 6 t) (iblk4 V c 7 t) (iblk4 V c 8 t) r q).trans ?_
  simp only [blk0_apply, blk1_apply, blk2_apply, blk3_apply, blk4_apply, blk5_apply, blk6_apply, blk7_apply, blk8_apply]
  rfl

/-- What position t adds to the first accumulator at column q. -/
def S10 (c : Dev nD) (t : ℕ) (q : Fin 128) : EReal := ∑ r : Fin 5000, Gpre V c (ix2 (rowOf t r) q)
/-- What position t adds to the second accumulator at column q. -/
def S11 (c : Dev nD) (t : ℕ) (q : Fin 128) : EReal := ∑ r : Fin 5000, Gpre V c (ix2 (rowOf t r) q) * Gpre V c (ix2 (rowOf t r) q)

end Cert.KernelIdeal.RegStats4

end
-- ==== Proof.SpecLawsA.lean ====
/-
  The real-number algebra of the network specification, first part: the two float constants as reals, real
  entries under sums, products and the division by the number of rows, and the agreement of the two forms of
  the column variance on real entries.

  For real x₁ … x_N with mean μ = (∑ x) / N, the mean of the squares minus μ² equals the mean of the squared
  deviations: ∑ (x − μ)² = ∑ x² − 2 μ ∑ x + N μ² = ∑ x² − N μ².
-/
import proofs.«142960_j19688130085206_1_alg».proof.Proof.Spec

noncomputable section

namespace Cert.GnnSpec

open Idealize.ShloMosaic Idealize.ShloMosaic.ValueIdx

/-- The float 50000.0 is the real number 50000. -/
theorem cN_eq : cN = ((50000 : ℝ) : EReal) := by
  simp [cN, Ideal.ofBits, Ideal.ieee, -EReal.coe_mul]; norm_num

/-- The variance offset is the real number 10995116 · 2⁻⁴⁰. -/
theorem cEps_eq : cEps = ((10995116 * (2 : ℝ) ^ (-40 : Int) : ℝ) : EReal) := by
  simp [cEps, Ideal.ofBits, Ideal.ieee, -EReal.coe_mul]

/-- The variance offset is a positive real number. -/
theorem cEps_pos : ∃ e : ℝ, 0 < e ∧ cEps = (e : EReal) :=
  ⟨10995116 * (2 : ℝ) ^ (-40 : Int), by positivity, cEps_eq⟩

/-- A finite sum of reals, taken in the extended reals, is the real sum. -/
theorem coe_finsum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- Dividing a real by the number of rows is the real division by 50000. -/
theorem div_cN_coe (x : ℝ) : Ideal.div (x : EReal) cN = ((x / 50000 : ℝ) : EReal) := by
  rw [cN_eq, Ideal.div_coe (by norm_num), ← EReal.coe_mul, mul_one_div]

/-- The column sum of real entries is the real column sum. -/
theorem colsum_coe (p : A2 50000 128) (f : (⟨2, ![50000, 128]⟩ : Shape).Idx → ℝ) (hf : ∀ i, p i = (f i : EReal)) (q : Fin 128) :
    colsum p q = ((∑ r : Fin 50000, f (ix2 r q) : ℝ) : EReal) := by
  unfold colsum
  rw [← coe_finsum]
  exact Finset.sum_congr rfl fun r _ => hf _

/-- The column mean of real entries is the real column mean. -/
theorem mean_coe (p : A2 50000 128) (f : (⟨2, ![50000, 128]⟩ : Shape).Idx → ℝ) (hf : ∀ i, p i = (f i : EReal)) (q : Fin 128) :
    mean p q = (((∑ r : Fin 50000, f (ix2 r q)) / 50000 : ℝ) : EReal) := by
  unfold mean
  rw [colsum_coe p f hf, div_cN_coe]

/-- The centred variance of real entries is the real mean of the squared deviations from the real mean. -/
theorem varC_coe (p : A2 50000 128) (f : (⟨2, ![50000, 128]⟩ : Shape).Idx → ℝ) (hf : ∀ i, p i = (f i : EReal)) (q : Fin 128) :
    varC p q = (((∑ r : Fin 50000, (f (ix2 r q) - (∑ r : Fin 50000, f (ix2 r q)) / 50000) * (f (ix2 r q) - (∑ r : Fin 50000, f (ix2 r q)) / 50000)) / 50000 : ℝ) : EReal) := by
  have hs : (∑ r : Fin 50000, (p (ix2 r q) - mean p q) * (p (ix2 r q) - mean p q))
      = ((∑ r : Fin 50000, (f (ix2 r q) - (∑ r : Fin 50000, f (ix2 r q)) / 50000) * (f (ix2 r q) - (∑ r : Fin 50000, f (ix2 r q)) / 50000) : ℝ) : EReal) := by
    rw [← coe_finsum]
    refine Finset.sum_congr rfl fun r _ => ?_
    rw [hf, mean_coe p f hf, ← EReal.coe_sub, ← EReal.coe_mul]
  unfold varC
  rw [hs, div_cN_coe]

/-- The moment variance of real entries is the real mean of the squares minus the square of the real mean. -/
theorem varM_coe (p : A2 50000 128) (f : (⟨2, ![50000, 128]⟩ : Shape).Idx → ℝ) (hf : ∀ i, p i = (f i : EReal)) (q : Fin 128) :
    varM p q = (((∑ r : Fin 50000, f (ix2 r q) * f (ix2 r q)) / 50000 - (∑ r : Fin 50000, f (ix2 r q)) / 50000 * ((∑ r : Fin 50000, f (ix2 r q)) / 50000) : ℝ) : EReal) := by
  have hs : (∑ r : Fin 50000, p (ix2 r q) * p (ix2 r q)) = ((∑ r : Fin 50000, f (ix2 r q) * f (ix2 r q) : ℝ) : EReal) := by
    rw [← coe_finsum]
    refine Finset.sum_congr rfl fun r _ => ?_
    rw [hf, ← EReal.coe_mul]
  unfold varM
  rw [hs, div_cN_coe, mean_coe p f hf, ← EReal.coe_mul, ← EReal.coe_sub]

/-- The sum of the squared deviations from any μ is ∑ x² − 2 μ ∑ x + N μ², over N = 50000 terms. -/
theorem sum_sq_dev (g : Fin 50000 → ℝ) (μ : ℝ) :
    (∑ r : Fin 50000, (g r - μ) * (g r - μ)) = (∑ r : Fin 50000, g r * g r) - 2 * μ * (∑ r : Fin 50000, g r) + 50000 * (μ * μ) := by
  have h : ∀ r, (g r - μ) * (g r - μ) = g r * g r - 2 * μ * g r + μ * μ := fun r => by ring
  simp only [h, Finset.sum_add_distrib, Finset.sum_sub_distrib, ← Finset.mul_sum, Finset.sum_const, Finset.card_univ,
    Fintype.card_fin, nsmul_eq_mul]
  push_cast
  ring

/-- In ℝ the mean of the squares minus the squared mean is the mean of the squared deviations from the mean. -/
theorem real_var (g : Fin 50000 → ℝ) :
    (∑ r : Fin 50000, g r * g r) / 50000 - (∑ r : Fin 50000, g r) / 50000 * ((∑ r : Fin 50000, g r) / 50000)
      = (∑ r : Fin 50000, (g r - (∑ r : Fin 50000, g r) / 50000) * (g r - (∑ r : Fin 50000, g r) / 50000)) / 50000 := by
  rw [sum_sq_dev]
  field_simp
  ring

/-- On real entries the moment form of the column variance equals the centred form. -/
theorem varM_eq_varC (p : A2 50000 128) (hp : IsReal p) : varM p = varC p := by
  choose f hf using hp
  funext q
  rw [varM_coe p f hf, varC_coe p f hf, real_var fun r => f (ix2 r q)]

end Cert.GnnSpec

end
-- ==== Proof.SpecLaws.lean ====
/-
  The real-number algebra of the network specification, second part: arrays with real entries are closed under
  every step of a layer (the affine maps, the clamp at zero, the column normalisation, whose reciprocal square
  root is taken of a variance ≥ 0 plus an offset > 0), so the layers and the network stated with the moment form
  of the variance equal those stated with the centred form; gathered rows and accumulated sums of real entries
  are real; and a sum over 50000 rows is the sum over 10 blocks of 5000 rows.
-/
import proofs.«142960_j19688130085206_1_alg».proof.Proof.SpecLawsA

noncomputable section

namespace Cert.GnnSpec

open Idealize.ShloMosaic Idealize.ShloMosaic.ValueIdx

/-- The extended real x is a real number. -/
def IsR (x : EReal) : Prop := ∃ r : ℝ, x = (r : EReal)

/-- A sum of two reals is real. -/
theorem IsR.add {x y : EReal} (hx : IsR x) (hy : IsR y) : IsR (x + y) := by
  obtain ⟨a, rfl⟩ := hx; obtain ⟨b, rfl⟩ := hy; exact ⟨a + b, (EReal.coe_add a b).symm⟩

/-- A difference of two reals is real. -/
theorem IsR.sub {x y : EReal} (hx : IsR x) (hy : IsR y) : IsR (x - y) := by
  obtain ⟨a, rfl⟩ := hx; obtain ⟨b, rfl⟩ := hy; exact ⟨a - b, (EReal.coe_sub a b).symm⟩

/-- A product of two reals is real. -/
theorem IsR.mul {x y : EReal} (hx : IsR x) (hy : IsR y) : IsR (x * y) := by
  obtain ⟨a, rfl⟩ := hx; obtain ⟨b, rfl⟩ := hy; exact ⟨a * b, (EReal.coe_mul a b).symm⟩

/-- The larger of a real and zero is real. -/
theorem IsR.max_zero {x : EReal} (hx : IsR x) : IsR (max x 0) := by
  obtain ⟨a, rfl⟩ := hx
  rcases le_total ((a : ℝ) : EReal) 0 with h | h
  · exact ⟨0, by rw [max_eq_right h, EReal.coe_zero]⟩
  · exact ⟨a, max_eq_left h⟩

/-- A finite sum of reals is real. -/
theorem IsR.sum {κ : Type*} (t : Finset κ) (f : κ → EReal) (h : ∀ k ∈ t, IsR (f k)) : IsR (∑ k ∈ t, f k) := by
  classical
  induction t using Finset.induction_on with
  | empty => exact ⟨0, by simp⟩
  | insert a t ha ih =>
    rw [Finset.sum_insert ha]
    exact IsR.add (h a (Finset.mem_insert_self a t)) (ih fun k hk => h k (Finset.mem_insert_of_mem hk))

/-- The reciprocal square root of a positive real is the real 1/√r. -/
theorem isR_rsqrt_pos {r : ℝ} (hr : 0 < r) : IsR (Ideal.rsqrt (r : EReal)) := by
  rw [Ideal.rsqrt_coe, if_neg (not_lt.mpr hr.le), if_neg hr.ne']
  exact ⟨_, rfl⟩

/-- The column mean of a real array is real. -/
theorem isR_mean (p : A2 50000 128) (hp : IsReal p) (q : Fin 128) : IsR (mean p q) := by
  choose f hf using hp
  exact ⟨_, mean_coe p f hf q⟩

/-- The reciprocal square root of the centred column variance of a real array plus the offset is real: the variance
    is a real ≥ 0 and the offset a real > 0. -/
theorem isR_rsqrt_var (p : A2 50000 128) (hp : IsReal p) (q : Fin 128) : IsR (Ideal.rsqrt (varC p q + cEps)) := by
  choose f hf using hp
  obtain ⟨e, he, hee⟩ := cEps_pos
  rw [varC_coe p f hf, hee, ← EReal.coe_add]
  exact isR_rsqrt_pos (add_pos_of_nonneg_of_pos
    (div_nonneg (Finset.sum_nonneg fun r _ => mul_self_nonneg _) (by norm_num)) he)

/-- An affine map of real rows with real weights has real entries. -/
theorem isR_lin (l : Fin 3) (h : A2 50000 128) (W : A3 3 128 128) (b : A2 3 128) (hh : IsReal h) (hW : IsReal W)
    (hb : IsReal b) (p : Fin 50000) (q : Fin 128) : IsR (lin l h W b p q) := by
  unfold lin
  exact IsR.add (IsR.sum _ _ fun k _ => IsR.mul (hh _) (hW _)) (hb _)

/-- The clamped sum of the three affine maps of real arrays with real weights is a real array. -/
theorem isReal_pre (l : Fin 3) (P : Params) (hP : P.IsReal) (h agg ro : A2 50000 128) (hh : IsReal h) (ha : IsReal agg)
    (hr : IsReal ro) : IsReal (pre l P h agg ro) := by
  obtain ⟨hVw, hVb, hAw, hAb, hRw, hRb, -, -⟩ := hP
  intro i
  show IsR (max ((lin l h P.Vw P.Vb (i 0) (i 1) + lin l agg P.Aw P.Ab (i 0) (i 1)) + lin l ro P.Rw P.Rb (i 0) (i 1)) 0)
  exact IsR.max_zero (IsR.add (IsR.add (isR_lin l h _ _ hh hVw hVb _ _) (isR_lin l agg _ _ ha hAw hAb _ _))
    (isR_lin l ro _ _ hr hRw hRb _ _))

/-- A layer with the centred variance maps real arrays to a real array: the variance is a real ≥ 0 and the offset a
    real > 0, so the reciprocal square root is taken of a positive real. -/
theorem isReal_layerC (l : Fin 3) (P : Params) (hP : P.IsReal) (h agg ro : A2 50000 128) (hh : IsReal h) (ha : IsReal agg)
    (hr : IsReal ro) : IsReal (layerC l P h agg ro) := by
  have hp := isReal_pre l P hP h agg ro hh ha hr
  obtain ⟨-, -, -, -, -, -, hg, hb⟩ := hP
  intro i
  show IsR ((pre l P h agg ro i - mean (pre l P h agg ro) (i 1)) * Ideal.rsqrt (varC (pre l P h agg ro) (i 1) + cEps)
    * P.gamma (ix2 l (i 1)) + P.beta (ix2 l (i 1)))
  exact IsR.add (IsR.mul (IsR.mul (IsR.sub (hp i) (isR_mean _ hp (i 1))) (isR_rsqrt_var _ hp (i 1))) (hg _)) (hb _)

/-- On real arrays a layer with the moment variance equals the layer with the centred variance. -/
theorem layerM_eq_layerC (l : Fin 3) (P : Params) (hP : P.IsReal) (h agg ro : A2 50000 128) (hh : IsReal h)
    (ha : IsReal agg) (hr : IsReal ro) : layerM l P h agg ro = layerC l P h agg ro := by
  unfold layerM layerC
  rw [varM_eq_varC _ (isReal_pre l P hP h agg ro hh ha hr)]

/-- On a real input, with neighbour sums and read-outs that keep arrays real, the network with the moment variance
    equals the network with the centred variance: layer by layer, each layer's output being real again. -/
theorem netM_eq_netC (aggF roF : A2 50000 128 → A2 50000 128) (haggF : ∀ h, IsReal h → IsReal (aggF h))
    (hroF : ∀ h, IsReal h → IsReal (roF h)) (P : Params) (hP : P.IsReal) (x : A2 50000 128) (hx : IsReal x)
    (pw : A2 128 64) (pb : A1 64) : netM aggF roF P x pw pb = netC aggF roF P x pw pb := by
  have e0 := layerM_eq_layerC 0 P hP x _ _ hx (haggF x hx) (hroF x hx)
  have r0 := isReal_layerC 0 P hP x _ _ hx (haggF x hx) (hroF x hx)
  have e1 := layerM_eq_layerC 1 P hP _ _ _ r0 (haggF _ r0) (hroF _ r0)
  have r1 := isReal_layerC 1 P hP _ _ _ r0 (haggF _ r0) (hroF _ r0)
  have e2 := layerM_eq_layerC 2 P hP _ _ _ r1 (haggF _ r1) (hroF _ r1)
  unfold netM netC
  rw [e0, e1, e2]

/-- The neighbour sums of a real array into a real array are real: each entry is an entry of z plus a finite sum of
    gathered entries of h. -/
theorem isReal_aggOf (gd : GatherDims ⟨2, ![50000, 128]⟩ ⟨2, ![800000, 1]⟩ ⟨2, ![800000, 128]⟩)
    (sd : ScatterDims ⟨2, ![50000, 128]⟩ ⟨2, ![800000, 1]⟩ ⟨2, ![800000, 128]⟩)
    (z : A2 50000 128) (src dst : IVec ⟨2, ![800000, 1]⟩ 32) (hz : IsReal z) (h : A2 50000 128) (hh : IsReal h) :
    IsReal (aggOf gd sd z src dst h) := by
  intro i
  exact IsR.add (hz i) (IsR.sum _ _ fun j _ => hh _)

/-- The per-graph read-outs of a real array into a real array are real: each entry is an entry of z plus a finite
    sum of entries of h, read back at a computed row. -/
theorem isReal_roOf (gd : GatherDims ⟨2, ![64, 128]⟩ ⟨2, ![50000, 1]⟩ ⟨2, ![50000, 128]⟩)
    (sd : ScatterDims ⟨2, ![64, 128]⟩ ⟨2, ![50000, 1]⟩ ⟨2, ![50000, 128]⟩)
    (z : A2 64 128) (b b' : IVec ⟨2, ![50000, 1]⟩ 32) (hz : IsReal z) (h : A2 50000 128) (hh : IsReal h) :
    IsReal (roOf gd sd z b b' h) := by
  intro i
  exact IsR.add (hz _) (IsR.sum _ _ fun j _ => hh _)

/-- A sum over 50000 rows is the sum over 10 blocks of the sums over the 5000 rows of each block: row 5000·t + r is
    row r of block t. -/
theorem sum_blocks {M : Type*} [AddCommMonoid M] (f : Fin 50000 → M) :
    (∑ t : Fin 10, ∑ r : Fin 5000, f ⟨5000 * t.val + r.val, by omega⟩) = ∑ i : Fin 50000, f i := by
  rw [← Fintype.sum_prod_type']
  refine Fintype.sum_equiv (finProdFinEquiv (m := 10) (n := 5000)) _ _ fun x => ?_
  congr 1
  apply Fin.ext
  show 5000 * x.1.val + x.2.val = x.2.val + 5000 * x.1.val
  omega

end Cert.GnnSpec

end
-- ==== Proof.RegStats4.lean ====
/-
  A combine-and-statistics region, as functions of the arrays it finds. After the region its first output array is
  the clamped sum pre = max(h·V + v + (agg·A + a) + (ro·R + r), 0) of the arrays it was given, entry by entry, and
  its two one-row outputs hold, at column q, the sum over all 50000 rows of pre(·, q) and of pre(·, q)²: the
  accumulators start from zero at the first point, every point adds its 5000 rows, and the ten blocks of rows are
  all the rows.
-/
import proofs.«142960_j19688130085206_1_alg».proof.Proof.RegStats4b
import proofs.«142960_j19688130085206_1_alg».proof.Proof.SpecLaws

set_option maxRecDepth 16384

noncomputable section

namespace Cert.KernelIdeal.RegStats4

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

variable (V : (c : Dev nD) → (b : Ref sig .tc) → Buf (Elt Ideal) ((c : Thread nD τ).loc b))

/-! ## The outputs' staging buffers after a point -/

set_option maxHeartbeats 2000000 in
/-- After any point the first output's buffer holds the point's block of clamped sums. -/
theorem o9 (c : Dev nD) (t : Fin cfg4.N) :
    (outsAt4 V c t.val t.isLt).1 = blockPre (iblk4 V c 0 t) (iblk4 V c 1 t) (iblk4 V c 2 t) (iblk4 V c 3 t) (iblk4 V c 4 t) (iblk4 V c 5 t) (iblk4 V c 6 t) (iblk4 V c 7 t) (iblk4 V c 8 t) := by
  by_cases h0 : t.val % 10 = 0
  · rw [outsAt4_A V c t h0]
    dsimp only
    exact out_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t)
  · rw [outsAt4_B V c t h0]
    dsimp only
    exact out_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2

/-- One point's addition to the first accumulator, at column q. -/
theorem step10 (c : Dev nD) (t : Fin cfg4.N) (prev : Vec Ideal S1x128 .f32) (q : Fin 128) :
    k4_pay2 (F := Ideal) (k4_pay6 (F := Ideal) (iblk4 V c 0 t) (iblk4 V c 3 t) (iblk4 V c 4 t)) (k4_pay7 (F := Ideal) (iblk4 V c 1 t) (iblk4 V c 5 t) (iblk4 V c 6 t)) (k4_pay8 (F := Ideal) (iblk4 V c 2 t) (iblk4 V c 7 t)) (k4_pay9 (F := Ideal) (iblk4 V c 8 t)) prev (ix2 (0 : Fin 1) q) = prev (ix2 (0 : Fin 1) q) + S10 V c t.val q := by
  refine (acc10_apply (k4_pay6 (F := Ideal) (iblk4 V c 0 t) (iblk4 V c 3 t) (iblk4 V c 4 t)) (k4_pay7 (F := Ideal) (iblk4 V c 1 t) (iblk4 V c 5 t) (iblk4 V c 6 t)) (k4_pay8 (F := Ideal) (iblk4 V c 2 t) (iblk4 V c 7 t)) (k4_pay9 (F := Ideal) (iblk4 V c 8 t)) prev q).trans ?_
  exact congrArg (prev (ix2 (0 : Fin 1) q) + ·) (Finset.sum_congr rfl fun r _ => blockPre_at V c t r q)

/-- One point's addition to the second accumulator, at column q. -/
theorem step11 (c : Dev nD) (t : Fin cfg4.N) (prev : Vec Ideal S1x128 .f32) (q : Fin 128) :
    k4_pay3 (F := Ideal) (k4_pay6 (F := Ideal) (iblk4 V c 0 t) (iblk4 V c 3 t) (iblk4 V c 4 t)) (k4_pay7 (F := Ideal) (iblk4 V c 1 t) (iblk4 V c 5 t) (iblk4 V c 6 t)) (k4_pay8 (F := Ideal) (iblk4 V c 2 t) (iblk4 V c 7 t)) (k4_pay9 (F := Ideal) (iblk4 V c 8 t)) prev (ix2 (0 : Fin 1) q) = prev (ix2 (0 : Fin 1) q) + S11 V c t.val q := by
  refine (acc11_apply (k4_pay6 (F := Ideal) (iblk4 V c 0 t) (iblk4 V c 3 t) (iblk4 V c 4 t)) (k4_pay7 (F := Ideal) (iblk4 V c 1 t) (iblk4 V c 5 t) (iblk4 V c 6 t)) (k4_pay8 (F := Ideal) (iblk4 V c 2 t) (iblk4 V c 7 t)) (k4_pay9 (F := Ideal) (iblk4 V c 8 t)) prev q).trans ?_
  refine congrArg (prev (ix2 (0 : Fin 1) q) + ·) (Finset.sum_congr rfl fun r _ => ?_)
  have e := blockPre_at V c t r q
  exact congrArg₂ (· * ·) e e

set_option maxHeartbeats 2000000 in
/-- At the first point the first accumulator is that point's contribution. -/
theorem o10_A (c : Dev nD) (t : Fin cfg4.N) (h0 : t.val % 10 = 0) (q : Fin 128) :
    (outsAt4 V c t.val t.isLt).2.1 (ix2 (0 : Fin 1) q) = S10 V c t.val q := by
  rw [outsAt4_A V c t h0]
  dsimp only
  refine (congrFun (out_A_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t)) (ix2 (0 : Fin 1) q)).trans ?_
  refine (step10 V c t _ q).trans ?_
  rw [zero10_apply, zero_add]

set_option maxHeartbeats 2000000 in
theorem o11_A (c : Dev nD) (t : Fin cfg4.N) (h0 : t.val % 10 = 0) (q : Fin 128) :
    (outsAt4 V c t.val t.isLt).2.2 (ix2 (0 : Fin 1) q) = S11 V c t.val q := by
  rw [outsAt4_A V c t h0]
  dsimp only
  refine (congrFun (out_A_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t)) (ix2 (0 : Fin 1) q)).trans ?_
  refine (step11 V c t _ q).trans ?_
  rw [zero11_apply, zero_add]

set_option maxHeartbeats 2000000 in
/-- At a later point the first accumulator is the previous point's plus this point's contribution. -/
theorem o10_B (c : Dev nD) (t : Fin cfg4.N) (h0 : ¬t.val % 10 = 0) (q : Fin 128) :
    (outsAt4 V c t.val t.isLt).2.1 (ix2 (0 : Fin 1) q) = (outsAt4 V c (t.val - 1) (Nat.lt_of_le_of_lt (Nat.sub_le _ _) t.isLt)).2.1 (ix2 (0 : Fin 1) q) + S10 V c t.val q := by
  rw [outsAt4_B V c t h0]
  dsimp only
  refine (congrFun (out_B_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
  exact step10 V c t _ q

set_option maxHeartbeats 2000000 in
theorem o11_B (c : Dev nD) (t : Fin cfg4.N) (h0 : ¬t.val % 10 = 0) (q : Fin 128) :
    (outsAt4 V c t.val t.isLt).2.2 (ix2 (0 : Fin 1) q) = (outsAt4 V c (t.val - 1) (Nat.lt_of_le_of_lt (Nat.sub_le _ _) t.isLt)).2.2 (ix2 (0 : Fin 1) q) + S11 V c t.val q := by
  rw [outsAt4_B V c t h0]
  dsimp only
  refine (congrFun (out_B_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (fun h => h0 ((hcond4_0 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
  exact step11 V c t _ q

/-- After point n the accumulators hold, at column q, the contributions of the points 0 … n. -/
theorem acc (c : Dev nD) : ∀ (n : ℕ) (h : n < cfg4.N) (q : Fin 128),
    (outsAt4 V c n h).2.1 (ix2 (0 : Fin 1) q) = ∑ t ∈ Finset.range (n + 1), S10 V c t q
    ∧ (outsAt4 V c n h).2.2 (ix2 (0 : Fin 1) q) = ∑ t ∈ Finset.range (n + 1), S11 V c t q
  | 0, h, q => by
    constructor
    · exact (o10_A V c ⟨0, h⟩ rfl q).trans (Finset.sum_range_one (fun t => S10 V c t q)).symm
    · exact (o11_A V c ⟨0, h⟩ rfl q).trans (Finset.sum_range_one (fun t => S11 V c t q)).symm
  | n + 1, h, q => by
    have hN : n + 1 < 10 := N_lt ⟨n + 1, h⟩
    have hB : ¬(⟨n + 1, h⟩ : Fin cfg4.N).val % 10 = 0 := by dsimp only; omega
    have ih := acc c n (Nat.lt_of_succ_lt h) q
    constructor
    · refine (o10_B V c ⟨n + 1, h⟩ hB q).trans ?_
      exact (congrArg (· + S10 V c (n + 1) q) ih.1).trans (Finset.sum_range_succ (fun t => S10 V c t q) (n + 1)).symm
    · refine (o11_B V c ⟨n + 1, h⟩ hB q).trans ?_
      exact (congrArg (· + S11 V c (n + 1) q) ih.2).trans (Finset.sum_range_succ (fun t => S11 V c t q) (n + 1)).symm

/-- The ten blocks of rows are all the rows. -/
theorem sum_S (f : Fin 50000 → EReal) : (∑ t ∈ Finset.range 10, ∑ r : Fin 5000, f (rowOf t r)) = ∑ i : Fin 50000, f i := by
  rw [Finset.sum_range, ← Cert.GnnSpec.sum_blocks f]
  refine Finset.sum_congr rfl fun t _ => Finset.sum_congr rfl fun r _ => congrArg f ?_
  apply Fin.ext
  show (5000 * t.val + r.val) % 50000 = 5000 * t.val + r.val
  have := t.isLt; have := r.isLt; omega

/-! ## The first output: ten row blocks -/

theorem emb9 (t : Fin cfg4.N) (r : Fin 5000) (q : Fin 128) :
    ((cfg4.win 9).blk t).view.emb (ix2 r q) = ix2 (rowOf t.val r) q := by
  have hi := (idx_facts t).2.2.2.2.2.2.2.2.2.1
  have hN := N_lt t
  funext a; apply Fin.ext
  match a with
  | ⟨0, _⟩ => show win4_9.index t (0 : Fin 2) * 5000 + 1 * r.val = (5000 * t.val + r.val) % 50000; rw [hi.1]; have := r.isLt; omega
  | ⟨1, _⟩ => show win4_9.index t (1 : Fin 2) * 128 + 1 * q.val = q.val; rw [hi.2]; omega

theorem flushed9 (c : Dev nD) (t : Fin cfg4.N) :
    (dat4 V c).flushed 9 t = ((cfg4.win 9).blk t).view.read (Elt Ideal) (Gpre V c) := by
  show (cfg4.win 9).cut (grid4.coords t) ((dat4 V c).after 9 t) = _
  rw [after4_9, o9]
  funext j
  obtain ⟨r, q, rfl⟩ : ∃ (r : Fin 5000) (q : Fin 128), j = ix2 r q := ⟨j 0, j 1, eq_ix2 j⟩
  show blockPre (iblk4 V c 0 t) (iblk4 V c 1 t) (iblk4 V c 2 t) (iblk4 V c 3 t) (iblk4 V c 4 t) (iblk4 V c 5 t) (iblk4 V c 6 t) (iblk4 V c 7 t) (iblk4 V c 8 t) (ix2 r q) = Gpre V c (((cfg4.win 9).blk t).view.emb (ix2 r q))
  rw [emb9]
  exact blockPre_at V c t r q

theorem mem_blk9 (t : Fin cfg4.N) (i : S50000x128.Idx) :
    i ∈ ((cfg4.win 9).blk t).view.set ↔ ∀ a : Fin 2, win4_9.index t a * S5000x128.size a ≤ (i a).val ∧ (i a).val < win4_9.index t a * S5000x128.size a + S5000x128.size a := by
  show i ∈ ((View.whole main_v137_0).slice (win4_9.rect t)).set ↔ _
  rw [View.set_slice_whole, Rect.mem_set_unit]
  exact Iff.rfl

theorem cover9 (i : S50000x128.Idx) : ∃ t : Fin cfg4.N, (cfg4.win 9).flush t = true ∧ i ∈ ((cfg4.win 9).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_9 _, ?_⟩
  rw [mem_blk9]
  have hi := (idx_facts ⟨(i 0).val / 5000, by rw [hN]; omega⟩).2.2.2.2.2.2.2.2.2.1
  intro a
  match a with
  | ⟨0, _⟩ => show win4_9.index _ (0 : Fin 2) * 5000 ≤ (i 0).val ∧ (i 0).val < win4_9.index _ (0 : Fin 2) * 5000 + 5000; rw [hi.1]; dsimp only; omega
  | ⟨1, _⟩ => show win4_9.index _ (1 : Fin 2) * 128 ≤ (i 1).val ∧ (i 1).val < win4_9.index _ (1 : Fin 2) * 128 + 128; rw [hi.2]; omega

/-- After the region the first output array is the clamped sum. -/
theorem final9 (c : Dev nD) : (dat4 V c).arrAt 9 cfg4.N = Gpre V c :=
  (dat4 V c).arrAt_eq_of_cover 9 (Gpre V c) (fun t _ => flushed9 V c t) cover9

/-! ## The two accumulators: written back once, after the last point -/

theorem lt9 : 9 < cfg4.N := by rw [show cfg4.N = 10 from N_4]; decide

/-- The accumulators after the last point. -/
abbrev R10 (c : Dev nD) : S1x128.Idx → EReal := (outsAt4 V c 9 lt9).2.1
abbrev R11 (c : Dev nD) : S1x128.Idx → EReal := (outsAt4 V c 9 lt9).2.2

theorem flushed10 (c : Dev nD) (t : Fin cfg4.N) (hf : (cfg4.win 10).flush t = true) :
    (dat4 V c).flushed 10 t = ((cfg4.win 10).blk t).view.read (Elt Ideal) (R10 V c) := by
  have hN := N_lt t
  have h9 : t.val = 9 := by have := (flush4_10 t).mp hf; omega
  obtain rfl : t = t4_9 := Fin.ext h9
  show (cfg4.win 10).cut (grid4.coords t4_9) ((dat4 V c).after 10 t4_9) = _
  rw [after4_10]
  have hz' : (fun a => win4_10.index t4_9 a * main_v137_1.ty.shape.size a) = fun _ => 0 := funext fun a => by fin_cases a <;> decide
  exact (Memref.read_access_unit_zero (Elt Ideal) main_v137_1 hz' (fun a => by rw [congrFun hz' a]; simp) (R10 V c)).symm

theorem flushed11 (c : Dev nD) (t : Fin cfg4.N) (hf : (cfg4.win 11).flush t = true) :
    (dat4 V c).flushed 11 t = ((cfg4.win 11).blk t).view.read (Elt Ideal) (R11 V c) := by
  have hN := N_lt t
  have h9 : t.val = 9 := by have := (flush4_11 t).mp hf; omega
  obtain rfl : t = t4_9 := Fin.ext h9
  show (cfg4.win 11).cut (grid4.coords t4_9) ((dat4 V c).after 11 t4_9) = _
  rw [after4_11]
  have hz' : (fun a => win4_11.index t4_9 a * main_v137_2.ty.shape.size a) = fun _ => 0 := funext fun a => by fin_cases a <;> decide
  exact (Memref.read_access_unit_zero (Elt Ideal) main_v137_2 hz' (fun a => by rw [congrFun hz' a]; simp) (R11 V c)).symm

theorem cover10 (i : S1x128.Idx) : ∃ t : Fin cfg4.N, (cfg4.win 10).flush t = true ∧ i ∈ ((cfg4.win 10).blk t).view.set :=
  ⟨t4_9, (flush4_10 t4_9).mpr rfl, by
    show i ∈ ((View.whole main_v137_1).slice (win4_10.rect t4_9)).set
    rw [View.set_slice_whole, Rect.mem_set_unit]
    intro a
    have h0 : (i 0 : Nat) < 1 := (i 0).isLt
    have h1 : (i 1 : Nat) < 128 := (i 1).isLt
    match a with
    | ⟨0, _⟩ => show win4_10.index t4_9 0 * win4_10.size 0 ≤ (i 0 : Nat) ∧ (i 0 : Nat) < win4_10.index t4_9 0 * win4_10.size 0 + win4_10.xsize (grid4.coords t4_9) 0
                rw [show win4_10.index t4_9 0 * win4_10.size 0 = 0 from by decide +kernel, show win4_10.xsize (grid4.coords t4_9) 0 = 1 from by decide +kernel]; omega
    | ⟨1, _⟩ => show win4_10.index t4_9 1 * win4_10.size 1 ≤ (i 1 : Nat) ∧ (i 1 : Nat) < win4_10.index t4_9 1 * win4_10.size 1 + win4_10.xsize (grid4.coords t4_9) 1
                rw [show win4_10.index t4_9 1 * win4_10.size 1 = 0 from by decide +kernel, show win4_10.xsize (grid4.coords t4_9) 1 = 128 from by decide +kernel]; omega⟩

theorem cover11 (i : S1x128.Idx) : ∃ t : Fin cfg4.N, (cfg4.win 11).flush t = true ∧ i ∈ ((cfg4.win 11).blk t).view.set :=
  ⟨t4_9, (flush4_11 t4_9).mpr rfl, by
    show i ∈ ((View.whole main_v137_2).slice (win4_11.rect t4_9)).set
    rw [View.set_slice_whole, Rect.mem_set_unit]
    intro a
    have h0 : (i 0 : Nat) < 1 := (i 0).isLt
    have h1 : (i 1 : Nat) < 128 := (i 1).isLt
    match a with
    | ⟨0, _⟩ => show win4_11.index t4_9 0 * win4_11.size 0 ≤ (i 0 : Nat) ∧ (i 0 : Nat) < win4_11.index t4_9 0 * win4_11.size 0 + win4_11.xsize (grid4.coords t4_9) 0
                rw [show win4_11.index t4_9 0 * win4_11.size 0 = 0 from by decide +kernel, show win4_11.xsize (grid4.coords t4_9) 0 = 1 from by decide +kernel]; omega
    | ⟨1, _⟩ => show win4_11.index t4_9 1 * win4_11.size 1 ≤ (i 1 : Nat) ∧ (i 1 : Nat) < win4_11.index t4_9 1 * win4_11.size 1 + win4_11.xsize (grid4.coords t4_9) 1
                rw [show win4_11.index t4_9 1 * win4_11.size 1 = 0 from by decide +kernel, show win4_11.xsize (grid4.coords t4_9) 1 = 128 from by decide +kernel]; omega⟩

/-- After the region the second output holds the column sums of the clamped sum. -/
theorem final10 (c : Dev nD) (q : Fin 128) : (dat4 V c).arrAt 10 cfg4.N (ix2 (0 : Fin 1) q) = Cert.GnnSpec.colsum (Gpre V c) q := by
  rw [(dat4 V c).arrAt_eq_of_cover 10 (R10 V c) (flushed10 V c) cover10]
  refine ((acc V c 9 lt9 q).1).trans ?_
  exact sum_S (fun i => Gpre V c (ix2 i q))

/-- After the region the third output holds the column sums of its squares. -/
theorem final11 (c : Dev nD) (q : Fin 128) : (dat4 V c).arrAt 11 cfg4.N (ix2 (0 : Fin 1) q) = Cert.GnnSpec.colsumsq (Gpre V c) q := by
  rw [(dat4 V c).arrAt_eq_of_cover 11 (R11 V c) (flushed11 V c) cover11]
  refine ((acc V c 9 lt9 q).2).trans ?_
  exact sum_S (fun i => Gpre V c (ix2 i q) * Gpre V c (ix2 i q))

end Cert.KernelIdeal.RegStats4

end
-- ==== Proof.RegNorm5.lean ====
/-
  A normalisation region. The region runs ten points; point t loads rows 5000t … 5000t + 4999 of the array p
  [50000, 128] and the four one-row arrays μ, v, γ, β [1, 128], and writes the same rows of the result: entry
  (r, q) of the block is (p(5000t + r, q) − μ(0, q)) · (v(0, q) + ε)^(−1/2) · γ(0, q) + β(0, q). The ten row blocks
  tile the result array, so after the region the array is that function of p, μ, v, γ, β, entry by entry.
-/
import proofs.«142960_j19688130085206_1_alg».proof.Proof.Gen.KernelIdeal.Frame
import proofs.«142960_j19688130085206_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegNorm5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at (r, q): the entry of p, centred by μ, scaled by the reciprocal root of v + ε and by γ, shifted by β. -/
theorem pay_apply (x0 : Vec Ideal S5000x128 .f32) (x1 x2 x3 x4 : Vec Ideal S1x128 .f32) (r : Fin 5000) (q : Fin 128) :
    k5_pay1 (F := Ideal) x0 x1 x2 x3 x4 (ix2 r q)
      = (x0 (ix2 r q) - x1 (ix2 (0 : Fin 1) q)) * Ideal.rsqrt (x2 (ix2 (0 : Fin 1) q) + Cert.GnnSpec.cEps) * x3 (ix2 (0 : Fin 1) q) + x4 (ix2 (0 : Fin 1) q) := by
  unfold k5_pay1
  simp only [shapeCast_self, addf_apply, mulf_apply, subf_apply, broadcastTo_1b_ab_apply]
  rfl

/-- The printed index maps over the grid: the blocks of p and of the result move down one block per point, the four rows stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row r of point t's block is row 5000t + r of the array. -/
abbrev rowOf (t : Fin cfg5.N) (r : Fin 5000) : Fin 50000 :=
  ⟨5000 * t.val + r.val, by have h1 : t.val < 10 := lt_of_lt_of_eq t.isLt (show cfg5.N = 10 from N_5); have h2 := r.isLt; omega⟩

/-- The block of p at point t, read at (r, q). -/
theorem blk0_apply (c : Dev nD) (t : Fin cfg5.N) (r : Fin 5000) (q : Fin 128) :
    iblk5 V c 0 t (ix2 r q) = V c main_v137_0 (ix2 (rowOf t r) q) := by
  obtain ⟨e0, e1, -⟩ := idx_facts t
  unfold iblk5
  rw [View.read_apply]
  show V c main_v137_0 _ = V c main_v137_0 _
  congr 1
  funext a; apply Fin.ext
  match a with
  | ⟨0, _⟩ => show win5_0.index t (0 : Fin 2) * 5000 + 1 * r.val = 5000 * t.val + r.val; rw [e0]; omega
  | ⟨1, _⟩ => show win5_0.index t (1 : Fin 2) * 128 + 1 * q.val = q.val; rw [e1]; omega

/-- A one-row window's block at any point is the whole row. -/
theorem blk1_apply (c : Dev nD) (t : Fin cfg5.N) (q : Fin 128) :
    iblk5 V c 1 t (ix2 (0 : Fin 1) q) = V c main_v139 (ix2 (0 : Fin 1) q) := by
  obtain ⟨-, -, e0, e1, -⟩ := idx_facts t
  unfold iblk5
  rw [View.read_apply]
  show V c main_v139 _ = V c main_v139 _
  congr 1
  funext a; apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega
theorem blk2_apply (c : Dev nD) (t : Fin cfg5.N) (q : Fin 128) :
    iblk5 V c 2 t (ix2 (0 : Fin 1) q) = V c main_v143 (ix2 (0 : Fin 1) q) := by
  obtain ⟨-, -, -, -, e0, e1, -⟩ := idx_facts t
  unfold iblk5
  rw [View.read_apply]
  show V c main_v143 _ = V c main_v143 _
  congr 1
  funext a; apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega
theorem blk3_apply (c : Dev nD) (t : Fin cfg5.N) (q : Fin 128) :
    iblk5 V c 3 t (ix2 (0 : Fin 1) q) = V c main_v146 (ix2 (0 : Fin 1) q) := by
  obtain ⟨-, -, -, -, -, -, e0, e1, -⟩ := idx_facts t
  unfold iblk5
  rw [View.read_apply]
  show V c main_v146 _ = V c main_v146 _
  congr 1
  funext a; apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega
theorem blk4_apply (c : Dev nD) (t : Fin cfg5.N) (q : Fin 128) :
    iblk5 V c 4 t (ix2 (0 : Fin 1) q) = V c main_v149 (ix2 (0 : Fin 1) q) := by
  obtain ⟨-, -, -, -, -, -, -, -, e0, e1, -⟩ := idx_facts t
  unfold iblk5
  rw [View.read_apply]
  show V c main_v149 _ = V c main_v149 _
  congr 1
  funext a; apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

/-- Where entry (r, q) of point t's result block sits in the result array. -/
theorem emb5 (t : Fin cfg5.N) (r : Fin 5000) (q : Fin 128) :
    ((cfg5.win 5).blk t).view.emb (ix2 r q) = ix2 (rowOf t r) q := by
  obtain ⟨-, -, -, -, -, -, -, -, -, -, e0, e1⟩ := idx_facts t
  funext a; apply Fin.ext
  match a with
  | ⟨0, _⟩ => show win5_5.index t (0 : Fin 2) * 5000 + 1 * r.val = 5000 * t.val + r.val; rw [e0]; omega
  | ⟨1, _⟩ => show win5_5.index t (1 : Fin 2) * 128 + 1 * q.val = q.val; rw [e1]; omega

/-- The result array after the region, as a function of the arrays the region finds. -/
abbrev aP (c : Dev nD) : S50000x128.Idx → EReal := V c main_v137_0
abbrev aMu (c : Dev nD) : S1x128.Idx → EReal := V c main_v139
abbrev aVar (c : Dev nD) : S1x128.Idx → EReal := V c main_v143
abbrev aGam (c : Dev nD) : S1x128.Idx → EReal := V c main_v146
abbrev aBet (c : Dev nD) : S1x128.Idx → EReal := V c main_v149
abbrev G (c : Dev nD) : S50000x128.Idx → EReal := fun i =>
  (aP V c i - aMu V c (ix2 (0 : Fin 1) (i 1))) * Ideal.rsqrt (aVar V c (ix2 (0 : Fin 1) (i 1)) + Cert.GnnSpec.cEps)
    * aGam V c (ix2 (0 : Fin 1) (i 1)) + aBet V c (ix2 (0 : Fin 1) (i 1))

/-- What point t writes back is block t of G. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k5_pay1 (F := Ideal) (iblk5 V c 0 t) (iblk5 V c 1 t) (iblk5 V c 2 t) (iblk5 V c 3 t) (iblk5 V c 4 t) (ix2 r q)
      = G V c (((cfg5.win 5).blk t).view.emb (ix2 r q))
  rw [emb5]
  refine (pay_apply (iblk5 V c 0 t) (iblk5 V c 1 t) (iblk5 V c 2 t) (iblk5 V c 3 t) (iblk5 V c 4 t) r q).trans ?_
  rw [blk0_apply, blk1_apply, blk2_apply, blk3_apply, blk4_apply]

/-- An index of the result array is in point t's block iff each coordinate is in the block's range. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v150).slice (win5_5.rect t)).set ↔ _
  rw [View.set_slice_whole, Rect.mem_set_unit]
  exact Iff.rfl

/-- The ten row blocks cover the result array: row i lies in the block of point i / 5000. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_5 _, ?_⟩
  rw [mem_blk]
  obtain ⟨-, -, -, -, -, -, -, -, -, -, e0, e1⟩ := idx_facts ⟨(i 0).val / 5000, by rw [hN]; omega⟩
  intro a
  match a with
  | ⟨0, _⟩ => show win5_5.index _ (0 : Fin 2) * 5000 ≤ (i 0).val ∧ (i 0).val < win5_5.index _ (0 : Fin 2) * 5000 + 5000; rw [e0]; dsimp only; omega
  | ⟨1, _⟩ => show win5_5.index _ (1 : Fin 2) * 128 ≤ (i 1).val ∧ (i 1).val < win5_5.index _ (1 : Fin 2) * 128 + 128; rw [e1]; omega

/-- After the region the result array is the normalisation of the arrays the region finds. -/
theorem final (c : Dev nD) : (dat5 V c).arrAt 5 cfg5.N = G V c :=
  (dat5 V c).arrAt_eq_of_cover 5 (G V c) (fun t _ => flushed_eq V c t) cover

end Cert.KernelIdeal.RegNorm5

end
-- ==== Proof.RegStats2a.lean ====
/-
  A combine-and-statistics region, its body read as values. At a grid point the body holds a block of 5000 rows
  of the features h, of the neighbour sums and of the read-outs, three weight matrices and three bias rows. It
  stores the block of clamped sums pre = max(h·V + v + (agg·A + a) + (ro·R + r), 0), and adds the block's column
  sums of pre and of pre² into two one-row accumulators, which the first point resets to zero beforehand.
-/
import proofs.«142960_j19688130085206_1_alg».proof.Proof.Gen.KernelIdeal.Frame
import proofs.«142960_j19688130085206_1_alg».proof.Proof.Spec
import proofs.«142960_j19688130085206_1_alg».proof.Proof.SpecL
import proofs.«142960_j19688130085206_1_alg».proof.Proof.LibRealLift
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegStats2

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-! ## What each case of the body leaves in the three outputs -/

/-- The block of clamped sums, from the nine input blocks. -/
abbrev blockPre (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) : FVec Ideal S5000x128 .f32 :=
  k2_pay1 (k2_pay6 x0 x3 x4) (k2_pay7 x1 x5 x6) (k2_pay8 x2 x7) (k2_pay9 x8)

section Cases
variable (c : Dev nD) (i : grid0.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S1x128 .f32) (h9 : a9.IsWhole) (a10 : Memref sig .tc .vmem S5000x128 .f32) (h10 : a10.IsWhole) (a11 : Memref sig .tc .vmem S1x128 .f32) (h11 : a11.IsWhole) (a12 : Memref sig .tc .vmem S1x128 .f32) (h12 : a12.IsWhole)

theorem out_A_9 (hc : cond2_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out2_A_9 c i a1 h1 a2 h2 a3 h3 a4 h4 a5 h5 a6 h6 a7 h7 a8 h8 a9 h9 a10 h10 a11 h11 a12 h12 hc x0 x1 x2 x3 x4 x5 x6 x7 x8 = blockPre x0 x1 x2 x3 x4 x5 x6 x7 x8 := by
  unfold out2_A_9
  rw [View.read_writes_eq_canon _ _ _ (cover2_A_9 c i a1 h1 a2 h2 a3 h3 a4 h4 a5 h5 a6 h6 a7 h7 a8 h8 a9 h9 a10 h10 a11 h11 a12 h12 hc x0 x1 x2 x3 x4 x5 x6 x7 x8)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_B_9 (hc : ¬cond2_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out2_B_9 c i a1 h1 a2 h2 a3 h3 a4 h4 a5 h5 a6 h6 a7 h7 a8 h8 a9 h9 a10 h10 a11 h11 a12 h12 hc x0 x1 x2 x3 x4 x5 x6 x7 x8 xo10 xo11 = blockPre x0 x1 x2 x3 x4 x5 x6 x7 x8 := by
  unfold out2_B_9
  rw [View.read_writes_eq_canon _ _ _ (cover2_B_9 c i a1 h1 a2 h2 a3 h3 a4 h4 a5 h5 a6 h6 a7 h7 a8 h8 a9 h9 a10 h10 a11 h11 a12 h12 hc x0 x1 x2 x3 x4 x5 x6 x7 x8 xo10 xo11)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_A_10 (hc : cond2_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out2_A_10 c i a1 h1 a2 h2 a3 h3 a4 h4 a5 h5 a6 h6 a7 h7 a8 h8 a9 h9 a10 h10 a11 h11 a12 h12 hc x0 x1 x2 x3 x4 x5 x6 x7 x8 = k2_pay2 (k2_pay6 x0 x3 x4) (k2_pay7 x1 x5 x6) (k2_pay8 x2 x7) (k2_pay9 x8) (k2_pay4 (F := Ideal)) := by
  unfold out2_A_10
  rw [View.read_writes_eq_canon _ _ _ (cover2_A_10 c i a1 h1 a2 h2 a3 h3 a4 h4 a5 h5 a6 h6 a7 h7 a8 h8 a9 h9 a10 h10 a11 h11 a12 h12 hc x0 x1 x2 x3 x4 x5 x6 x7 x8)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_A_11 (hc : cond2_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out2_A_11 c i a1 h1 a2 h2 a3 h3 a4 h4 a5 h5 a6 h6 a7 h7 a8 h8 a9 h9 a10 h10 a11 h11 a12 h12 hc x0 x1 x2 x3 x4 x5 x6 x7 x8 = k2_pay3 (k2_pay6 x0 x3 x4) (k2_pay7 x1 x5 x6) (k2_pay8 x2 x7) (k2_pay9 x8) (k2_pay5 (F := Ideal)) := by
  unfold out2_A_11
  rw [View.read_writes_eq_canon _ _ _ (cover2_A_11 c i a1 h1 a2 h2 a3 h3 a4 h4 a5 h5 a6 h6 a7 h7 a8 h8 a9 h9 a10 h10 a11 h11 a12 h12 hc x0 x1 x2 x3 x4 x5 x6 x7 x8)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_B_10 (hc : ¬cond2_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out2_B_10 c i a1 h1 a2 h2 a3 h3 a4 h4 a5 h5 a6 h6 a7 h7 a8 h8 a9 h9 a10 h10 a11 h11 a12 h12 hc x0 x1 x2 x3 x4 x5 x6 x7 x8 xo10 xo11 = k2_pay2 (k2_pay6 x0 x3 x4) (k2_pay7 x1 x5 x6) (k2_pay8 x2 x7) (k2_pay9 x8) xo10 := by
  unfold out2_B_10
  rw [View.read_writes_eq_canon _ _ _ (cover2_B_10 c i a1 h1 a2 h2 a3 h3 a4 h4 a5 h5 a6 h6 a7 h7 a8 h8 a9 h9 a10 h10 a11 h11 a12 h12 hc x0 x1 x2 x3 x4 x5 x6 x7 x8 xo10 xo11)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, View.ld_unit_zero (S := S5000x128) hz, View.ld_unit_zero (S := S128x128) hz, View.ld_unit_zero (S := S1x128) hz]

theorem out_B_11 (hc : ¬cond2_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out2_B_11 c i a1 h1 a2 h2 a3 h3 a4 h4 a5 h5 a6 h6 a7 h7 a8 h8 a9 h9 a10 h10 a11 h11 a12 h12 hc x0 x1 x2 x3 x4 x5 x6 x7 x8 xo10 xo11 = k2_pay3 (k2_pay6 x0 x3 x4) (k2_pay7 x1 x5 x6) (k2_pay8 x2 x7) (k2_pay9 x8) xo11 := by
  unfold out2_B_11
  rw [View.read_writes_eq_canon _ _ _ (cover2_B_11 c i a1 h1 a2 h2 a3 h3 a4 h4 a5 h5 a6 h6 a7 h7 a8 h8 a9 h9 a10 h10 a11 h11 a12 h12 hc x0 x1 x2 x3 x4 x5 x6 x7 x8 xo10 xo11)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S5000x128) hz, View.ld_unit_zero (S := S128x128) hz, View.ld_unit_zero (S := S1x128) hz]

end Cases

end Cert.KernelIdeal.RegStats2

end
-- ==== Proof.RegStats2b.lean ====
/-
  A combine-and-statistics region: its body's values entry by entry, and what a grid point contributes. Entry
  (r, q) of the block of clamped sums at point t is the clamped sum of the whole arrays at row 5000t + r; the
  point adds to the two one-row accumulators, at column q, the sum over its 5000 rows of that entry and of its
  square.
-/
import proofs.«142960_j19688130085206_1_alg».proof.Proof.RegStats2a

set_option maxRecDepth 16384

noncomputable section

namespace Cert.KernelIdeal.RegStats2

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-! ## The payloads, entry by entry -/

/-- The contraction sum of a [5000, 128] × [128, 128] product at (p, q). -/
theorem dot_sum (l : (⟨2, ![5000, 128]⟩ : Shape).Idx → EReal) (r : (⟨2, ![128, 128]⟩ : Shape).Idx → EReal) (p : Fin 5000) (q : Fin 128) :
    (∑ k : dot_S5000x128_S128x128_S5000x128_1_0_0_1_n_n.contr.Idx, l (dot_S5000x128_S128x128_S5000x128_1_0_0_1_n_n.lhsIdx (ix2 p q) k) * r (dot_S5000x128_S128x128_S5000x128_1_0_0_1_n_n.rhsIdx (ix2 p q) k)) = ∑ k : Fin 128, l (ix2 p k) * r (ix2 k q) :=
  Cert.LibRealLift.plain_sum 5000 128 128 l r p q

/-- An affine map of a block at (r, q): row r times column q, plus the bias at q. -/
theorem lin6_apply (x : Vec Ideal S5000x128 .f32) (W : Vec Ideal S128x128 .f32) (b : Vec Ideal S1x128 .f32) (r : Fin 5000) (q : Fin 128) :
    k2_pay6 (F := Ideal) x W b (ix2 r q) = (∑ k : Fin 128, x (ix2 r k) * W (ix2 k q)) + b (ix2 (0 : Fin 1) q) := by
  unfold k2_pay6
  simp only [shapeCast_self, addf_apply, broadcastTo_1b_ab_apply, Ideal.matmul_constant_zero_apply]
  exact congrArg (· + b (ix2 (0 : Fin 1) q)) (dot_sum _ _ r q)

/-- An affine map of a block at (r, q): row r times column q, plus the bias at q. -/
theorem lin7_apply (x : Vec Ideal S5000x128 .f32) (W : Vec Ideal S128x128 .f32) (b : Vec Ideal S1x128 .f32) (r : Fin 5000) (q : Fin 128) :
    k2_pay7 (F := Ideal) x W b (ix2 r q) = (∑ k : Fin 128, x (ix2 r k) * W (ix2 k q)) + b (ix2 (0 : Fin 1) q) := by
  unfold k2_pay7
  simp only [shapeCast_self, addf_apply, broadcastTo_1b_ab_apply, Ideal.matmul_constant_zero_apply]
  exact congrArg (· + b (ix2 (0 : Fin 1) q)) (dot_sum _ _ r q)

/-- The third product of a block at (r, q): row r times column q. -/
theorem lin8_apply (x : Vec Ideal S5000x128 .f32) (W : Vec Ideal S128x128 .f32) (r : Fin 5000) (q : Fin 128) :
    k2_pay8 (F := Ideal) x W (ix2 r q) = ∑ k : Fin 128, x (ix2 r k) * W (ix2 k q) := by
  unfold k2_pay8
  simp only [shapeCast_self, Ideal.matmul_constant_zero_apply]
  exact dot_sum _ _ r q

/-- The third bias row spread over the block, at (r, q). -/
theorem lin9_apply (b : Vec Ideal S1x128 .f32) (r : Fin 5000) (q : Fin 128) :
    k2_pay9 (F := Ideal) b (ix2 r q) = b (ix2 (0 : Fin 1) q) := by
  unfold k2_pay9
  simp only [shapeCast_self, broadcastTo_1b_ab_apply]

/-- The clamped sum at an entry. -/
theorem pay1_apply (a b d e : FVec Ideal S5000x128 .f32) (i : S5000x128.Idx) : k2_pay1 (F := Ideal) a b d e i = max ((a i + b i) + (d i + e i)) 0 := by
  unfold k2_pay1
  simp only [maximumf_apply, addf_apply, broadcast_apply]
  exact congrArg (max ((a i + b i) + (d i + e i))) Ideal.ofBits_zero_f32

/-- The block of clamped sums at (r, q), from the nine input blocks. -/
theorem blockPre_apply (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (r : Fin 5000) (q : Fin 128) :
    blockPre x0 x1 x2 x3 x4 x5 x6 x7 x8 (ix2 r q)
      = max ((((∑ k : Fin 128, x0 (ix2 r k) * x3 (ix2 k q)) + x4 (ix2 (0 : Fin 1) q)) + ((∑ k : Fin 128, x1 (ix2 r k) * x5 (ix2 k q)) + x6 (ix2 (0 : Fin 1) q)))
          + ((∑ k : Fin 128, x2 (ix2 r k) * x7 (ix2 k q)) + x8 (ix2 (0 : Fin 1) q))) 0 := by
  refine (pay1_apply _ _ _ _ (ix2 r q)).trans ?_
  rw [lin6_apply, lin7_apply, lin8_apply, lin9_apply]

/-- A sum over axis 0 of a [5000, 128] array, read at column q. -/
theorem colred (src : FVec Ideal S5000x128 .f32) (h : S5000x128.Reduces [0] S128) (hφ : FKind.Formats .f32)
    (hacc : (0x00000000#32 : BitVec 32) = 0x00000000#32) (q : Fin 128) :
    multiReduction .add [0] S128 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a; apply Fin.ext
  match a with
  | ⟨0, _⟩ => rfl
  | ⟨1, _⟩ => rfl

/-- The new first accumulator at column q: the old one plus the block's column sum. -/
theorem acc10_apply (a b d e : FVec Ideal S5000x128 .f32) (prev : Vec Ideal S1x128 .f32) (q : Fin 128) :
    k2_pay2 (F := Ideal) a b d e prev (ix2 (0 : Fin 1) q) = prev (ix2 (0 : Fin 1) q) + ∑ r : Fin 5000, k2_pay1 (F := Ideal) a b d e (ix2 r q) := by
  unfold k2_pay2
  simp only [shapeCast_self, addf_apply]
  refine congrArg (prev (ix2 (0 : Fin 1) q) + ·) ?_
  refine (shapeCast_a_1a_apply _ shapeCasts_S128_S1x128 (0 : Fin 1) q).trans ?_
  exact colred _ _ _ _ q

/-- The new second accumulator at column q: the old one plus the block's column sum of squares. -/
theorem acc11_apply (a b d e : FVec Ideal S5000x128 .f32) (prev : Vec Ideal S1x128 .f32) (q : Fin 128) :
    k2_pay3 (F := Ideal) a b d e prev (ix2 (0 : Fin 1) q) = prev (ix2 (0 : Fin 1) q) + ∑ r : Fin 5000, k2_pay1 (F := Ideal) a b d e (ix2 r q) * k2_pay1 (F := Ideal) a b d e (ix2 r q) := by
  unfold k2_pay3
  simp only [shapeCast_self, addf_apply]
  refine congrArg (prev (ix2 (0 : Fin 1) q) + ·) ?_
  refine (shapeCast_a_1a_apply _ shapeCasts_S128_S1x128 (0 : Fin 1) q).trans ?_
  exact colred _ _ _ _ q

/-- The reset row is zero. -/
theorem zero10_apply (j : S1x128.Idx) : k2_pay4 (F := Ideal) j = 0 := by
  unfold k2_pay4
  exact Ideal.ofBits_zero_f32
theorem zero11_apply (j : S1x128.Idx) : k2_pay5 (F := Ideal) j = 0 := by
  unfold k2_pay5
  exact Ideal.ofBits_zero_f32

/-! ## The region's arrays -/

variable (V : (c : Dev nD) → (b : Ref sig .tc) → Buf (Elt Ideal) ((c : Thread nD τ).loc b))

abbrev aH (c : Dev nD) : S50000x128.Idx → EReal := V c main_v52
abbrev aAgg (c : Dev nD) : S50000x128.Idx → EReal := V c main_v62
abbrev aRo (c : Dev nD) : S50000x128.Idx → EReal := V c main_v72
abbrev aWv (c : Dev nD) : S128x128.Idx → EReal := V c main_v74
abbrev aBv (c : Dev nD) : S1x128.Idx → EReal := V c main_v77
abbrev aWa (c : Dev nD) : S128x128.Idx → EReal := V c main_v79
abbrev aBa (c : Dev nD) : S1x128.Idx → EReal := V c main_v82
abbrev aWr (c : Dev nD) : S128x128.Idx → EReal := V c main_v84
abbrev aBr (c : Dev nD) : S1x128.Idx → EReal := V c main_v87

/-- The clamped sum of the three affine maps of the arrays the region finds. -/
abbrev Gpre (c : Dev nD) : S50000x128.Idx → EReal :=
  Cert.GnnSpec.preL (aH V c) (aAgg V c) (aRo V c) (aWv V c) (aWa V c) (aWr V c) (aBv V c) (aBa V c) (aBr V c)

/-- The printed index maps over the grid: the three feature blocks and the first output's block move down one block per
    point; the weights, the bias rows and the two accumulators stay. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

/-- Row r of the block at position t is row 5000t + r of the array (positions below ten). -/
abbrev rowOf (t : ℕ) (r : Fin 5000) : Fin 50000 := ⟨(5000 * t + r.val) % 50000, Nat.mod_lt _ (by norm_num)⟩

theorem N_lt (t : Fin cfg2.N) : t.val < 10 := lt_of_lt_of_eq t.isLt (show cfg2.N = 10 from N_2)

/-- Feature window 0's block at point t, read at (r, k). -/
theorem blk0_apply (c : Dev nD) (t : Fin cfg2.N) (r : Fin 5000) (k : Fin 128) :
    iblk2 V c 0 t (ix2 r k) = aH V c (ix2 (rowOf t.val r) k) := by
  have hi := (idx_facts t).1
  have hN := N_lt t
  unfold iblk2
  rw [View.read_apply]
  show V c main_v52 _ = V c main_v52 _
  congr 1
  funext a; apply Fin.ext
  match a with
  | ⟨0, _⟩ => show win2_0.index t (0 : Fin 2) * 5000 + 1 * r.val = (5000 * t.val + r.val) % 50000; rw [hi.1]; have := r.isLt; omega
  | ⟨1, _⟩ => show win2_0.index t (1 : Fin 2) * 128 + 1 * k.val = k.val; rw [hi.2]; omega
/-- Feature window 1's block at point t, read at (r, k). -/
theorem blk1_apply (c : Dev nD) (t : Fin cfg2.N) (r : Fin 5000) (k : Fin 128) :
    iblk2 V c 1 t (ix2 r k) = aAgg V c (ix2 (rowOf t.val r) k) := by
  have hi := (idx_facts t).2.1
  have hN := N_lt t
  unfold iblk2
  rw [View.read_apply]
  show V c main_v62 _ = V c main_v62 _
  congr 1
  funext a; apply Fin.ext
  match a with
  | ⟨0, _⟩ => show win2_1.index t (0 : Fin 2) * 5000 + 1 * r.val = (5000 * t.val + r.val) % 50000; rw [hi.1]; have := r.isLt; omega
  | ⟨1, _⟩ => show win2_1.index t (1 : Fin 2) * 128 + 1 * k.val = k.val; rw [hi.2]; omega
/-- Feature window 2's block at point t, read at (r, k). -/
theorem blk2_apply (c : Dev nD) (t : Fin cfg2.N) (r : Fin 5000) (k : Fin 128) :
    iblk2 V c 2 t (ix2 r k) = aRo V c (ix2 (rowOf t.val r) k) := by
  have hi := (idx_facts t).2.2.1
  have hN := N_lt t
  unfold iblk2
  rw [View.read_apply]
  show V c main_v72 _ = V c main_v72 _
  congr 1
  funext a; apply Fin.ext
  match a with
  | ⟨0, _⟩ => show win2_2.index t (0 : Fin 2) * 5000 + 1 * r.val = (5000 * t.val + r.val) % 50000; rw [hi.1]; have := r.isLt; omega
  | ⟨1, _⟩ => show win2_2.index t (1 : Fin 2) * 128 + 1 * k.val = k.val; rw [hi.2]; omega

/-- Weight window 3's block at any point is the whole matrix. -/
theorem blk3_apply (c : Dev nD) (t : Fin cfg2.N) (k q : Fin 128) :
    iblk2 V c 3 t (ix2 k q) = aWv V c (ix2 k q) := by
  have hi := (idx_facts t).2.2.2.1
  unfold iblk2
  rw [View.read_apply]
  show V c main_v74 _ = V c main_v74 _
  congr 1
  funext a; apply Fin.ext
  match a with
  | ⟨0, _⟩ => show win2_3.index t (0 : Fin 2) * 128 + 1 * k.val = k.val; rw [hi.1]; omega
  | ⟨1, _⟩ => show win2_3.index t (1 : Fin 2) * 128 + 1 * q.val = q.val; rw [hi.2]; omega
/-- Weight window 5's block at any point is the whole matrix. -/
theorem blk5_apply (c : Dev nD) (t : Fin cfg2.N) (k q : Fin 128) :
    iblk2 V c 5 t (ix2 k q) = aWa V c (ix2 k q) := by
  have hi := (idx_facts t).2.2.2.2.2.1
  unfold iblk2
  rw [View.read_apply]
  show V c main_v79 _ = V c main_v79 _
  congr 1
  funext a; apply Fin.ext
  match a with
  | ⟨0, _⟩ => show win2_5.index t (0 : Fin 2) * 128 + 1 * k.val = k.val; rw [hi.1]; omega
  | ⟨1, _⟩ => show win2_5.index t (1 : Fin 2) * 128 + 1 * q.val = q.val; rw [hi.2]; omega
/-- Weight window 7's block at any point is the whole matrix. -/
theorem blk7_apply (c : Dev nD) (t : Fin cfg2.N) (k q : Fin 128) :
    iblk2 V c 7 t (ix2 k q) = aWr V c (ix2 k q) := by
  have hi := (idx_facts t).2.2.2.2.2.2.2.1
  unfold iblk2
  rw [View.read_apply]
  show V c main_v84 _ = V c main_v84 _
  congr 1
  funext a; apply Fin.ext
  match a with
  | ⟨0, _⟩ => show win2_7.index t (0 : Fin 2) * 128 + 1 * k.val = k.val; rw [hi.1]; omega
  | ⟨1, _⟩ => show win2_7.index t (1 : Fin 2) * 128 + 1 * q.val = q.val; rw [hi.2]; omega

/-- Bias window 4's block at any point is the whole row. -/
theorem blk4_apply (c : Dev nD) (t : Fin cfg2.N) (q : Fin 128) :
    iblk2 V c 4 t (ix2 (0 : Fin 1) q) = aBv V c (ix2 (0 : Fin 1) q) := by
  have hi := (idx_facts t).2.2.2.2.1
  unfold iblk2
  rw [View.read_apply]
  show V c main_v77 _ = V c main_v77 _
  congr 1
  funext a; apply Fin.ext
  match a with
  | ⟨0, _⟩ => show win2_4.index t (0 : Fin 2) * 1 + 1 * 0 = 0; rw [hi.1]
  | ⟨1, _⟩ => show win2_4.index t (1 : Fin 2) * 128 + 1 * q.val = q.val; rw [hi.2]; omega
/-- Bias window 6's block at any point is the whole row. -/
theorem blk6_apply (c : Dev nD) (t : Fin cfg2.N) (q : Fin 128) :
    iblk2 V c 6 t (ix2 (0 : Fin 1) q) = aBa V c (ix2 (0 : Fin 1) q) := by
  have hi := (idx_facts t).2.2.2.2.2.2.1
  unfold iblk2
  rw [View.read_apply]
  show V c main_v82 _ = V c main_v82 _
  congr 1
  funext a; apply Fin.ext
  match a with
  | ⟨0, _⟩ => show win2_6.index t (0 : Fin 2) * 1 + 1 * 0 = 0; rw [hi.1]
  | ⟨1, _⟩ => show win2_6.index t (1 : Fin 2) * 128 + 1 * q.val = q.val; rw [hi.2]; omega
/-- Bias window 8's block at any point is the whole row. -/
theorem blk8_apply (c : Dev nD) (t : Fin cfg2.N) (q : Fin 128) :
    iblk2 V c 8 t (ix2 (0 : Fin 1) q) = aBr V c (ix2 (0 : Fin 1) q) := by
  have hi := (idx_facts t).2.2.2.2.2.2.2.2.1
  unfold iblk2
  rw [View.read_apply]
  show V c main_v87 _ = V c main_v87 _
  congr 1
  funext a; apply Fin.ext
  match a with
  | ⟨0, _⟩ => show win2_8.index t (0 : Fin 2) * 1 + 1 * 0 = 0; rw [hi.1]
  | ⟨1, _⟩ => show win2_8.index t (1 : Fin 2) * 128 + 1 * q.val = q.val; rw [hi.2]; omega

/-- The block of clamped sums at point t is the clamped sum of the whole arrays at the block's rows. -/
theorem blockPre_at (c : Dev nD) (t : Fin cfg2.N) (r : Fin 5000) (q : Fin 128) :
    blockPre (iblk2 V c 0 t) (iblk2 V c 1 t) (iblk2 V c 2 t) (iblk2 V c 3 t) (iblk2 V c 4 t) (iblk2 V c 5 t) (iblk2 V c 6 t) (iblk2 V c 7 t) (iblk2 V c 8 t) (ix2 r q) = Gpre V c (ix2 (rowOf t.val r) q) := by
  refine (blockPre_apply (iblk2 V c 0 t) (iblk2 V c 1 t) (iblk2 V c 2 t) (iblk2 V c 3 t) (iblk2 V c 4 t) (iblk2 V c 5 t) (iblk2 V c 6 t) (iblk2 V c 7 t) (iblk2 V c 8 t) r q).trans ?_
  simp only [blk0_apply, blk1_apply, blk2_apply, blk3_apply, blk4_apply, blk5_apply, blk6_apply, blk7_apply, blk8_apply]
  rfl

/-- What position t adds to the first accumulator at column q. -/
def S10 (c : Dev nD) (t : ℕ) (q : Fin 128) : EReal := ∑ r : Fin 5000, Gpre V c (ix2 (rowOf t r) q)
/-- What position t adds to the second accumulator at column q. -/
def S11 (c : Dev nD) (t : ℕ) (q : Fin 128) : EReal := ∑ r : Fin 5000, Gpre V c (ix2 (rowOf t r) q) * Gpre V c (ix2 (rowOf t r) q)

end Cert.KernelIdeal.RegStats2

end
-- ==== Proof.RegStats2.lean ====
/-
  A combine-and-statistics region, as functions of the arrays it finds. After the region its first output array is
  the clamped sum pre = max(h·V + v + (agg·A + a) + (ro·R + r), 0) of the arrays it was given, entry by entry, and
  its two one-row outputs hold, at column q, the sum over all 50000 rows of pre(·, q) and of pre(·, q)²: the
  accumulators start from zero at the first point, every point adds its 5000 rows, and the ten blocks of rows are
  all the rows.
-/
import proofs.«142960_j19688130085206_1_alg».proof.Proof.RegStats2b
import proofs.«142960_j19688130085206_1_alg».proof.Proof.SpecLaws

set_option maxRecDepth 16384

noncomputable section

namespace Cert.KernelIdeal.RegStats2

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

variable (V : (c : Dev nD) → (b : Ref sig .tc) → Buf (Elt Ideal) ((c : Thread nD τ).loc b))

/-! ## The outputs' staging buffers after a point -/

set_option maxHeartbeats 2000000 in
/-- After any point the first output's buffer holds the point's block of clamped sums. -/
theorem o9 (c : Dev nD) (t : Fin cfg2.N) :
    (outsAt2 V c t.val t.isLt).1 = blockPre (iblk2 V c 0 t) (iblk2 V c 1 t) (iblk2 V c 2 t) (iblk2 V c 3 t) (iblk2 V c 4 t) (iblk2 V c 5 t) (iblk2 V c 6 t) (iblk2 V c 7 t) (iblk2 V c 8 t) := by
  by_cases h0 : t.val % 10 = 0
  · rw [outsAt2_A V c t h0]
    dsimp only
    exact out_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t)
  · rw [outsAt2_B V c t h0]
    dsimp only
    exact out_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2

/-- One point's addition to the first accumulator, at column q. -/
theorem step10 (c : Dev nD) (t : Fin cfg2.N) (prev : Vec Ideal S1x128 .f32) (q : Fin 128) :
    k2_pay2 (F := Ideal) (k2_pay6 (F := Ideal) (iblk2 V c 0 t) (iblk2 V c 3 t) (iblk2 V c 4 t)) (k2_pay7 (F := Ideal) (iblk2 V c 1 t) (iblk2 V c 5 t) (iblk2 V c 6 t)) (k2_pay8 (F := Ideal) (iblk2 V c 2 t) (iblk2 V c 7 t)) (k2_pay9 (F := Ideal) (iblk2 V c 8 t)) prev (ix2 (0 : Fin 1) q) = prev (ix2 (0 : Fin 1) q) + S10 V c t.val q := by
  refine (acc10_apply (k2_pay6 (F := Ideal) (iblk2 V c 0 t) (iblk2 V c 3 t) (iblk2 V c 4 t)) (k2_pay7 (F := Ideal) (iblk2 V c 1 t) (iblk2 V c 5 t) (iblk2 V c 6 t)) (k2_pay8 (F := Ideal) (iblk2 V c 2 t) (iblk2 V c 7 t)) (k2_pay9 (F := Ideal) (iblk2 V c 8 t)) prev q).trans ?_
  exact congrArg (prev (ix2 (0 : Fin 1) q) + ·) (Finset.sum_congr rfl fun r _ => blockPre_at V c t r q)

/-- One point's addition to the second accumulator, at column q. -/
theorem step11 (c : Dev nD) (t : Fin cfg2.N) (prev : Vec Ideal S1x128 .f32) (q : Fin 128) :
    k2_pay3 (F := Ideal) (k2_pay6 (F := Ideal) (iblk2 V c 0 t) (iblk2 V c 3 t) (iblk2 V c 4 t)) (k2_pay7 (F := Ideal) (iblk2 V c 1 t) (iblk2 V c 5 t) (iblk2 V c 6 t)) (k2_pay8 (F := Ideal) (iblk2 V c 2 t) (iblk2 V c 7 t)) (k2_pay9 (F := Ideal) (iblk2 V c 8 t)) prev (ix2 (0 : Fin 1) q) = prev (ix2 (0 : Fin 1) q) + S11 V c t.val q := by
  refine (acc11_apply (k2_pay6 (F := Ideal) (iblk2 V c 0 t) (iblk2 V c 3 t) (iblk2 V c 4 t)) (k2_pay7 (F := Ideal) (iblk2 V c 1 t) (iblk2 V c 5 t) (iblk2 V c 6 t)) (k2_pay8 (F := Ideal) (iblk2 V c 2 t) (iblk2 V c 7 t)) (k2_pay9 (F := Ideal) (iblk2 V c 8 t)) prev q).trans ?_
  refine congrArg (prev (ix2 (0 : Fin 1) q) + ·) (Finset.sum_congr rfl fun r _ => ?_)
  have e := blockPre_at V c t r q
  exact congrArg₂ (· * ·) e e

set_option maxHeartbeats 2000000 in
/-- At the first point the first accumulator is that point's contribution. -/
theorem o10_A (c : Dev nD) (t : Fin cfg2.N) (h0 : t.val % 10 = 0) (q : Fin 128) :
    (outsAt2 V c t.val t.isLt).2.1 (ix2 (0 : Fin 1) q) = S10 V c t.val q := by
  rw [outsAt2_A V c t h0]
  dsimp only
  refine (congrFun (out_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t)) (ix2 (0 : Fin 1) q)).trans ?_
  refine (step10 V c t _ q).trans ?_
  rw [zero10_apply, zero_add]

set_option maxHeartbeats 2000000 in
theorem o11_A (c : Dev nD) (t : Fin cfg2.N) (h0 : t.val % 10 = 0) (q : Fin 128) :
    (outsAt2 V c t.val t.isLt).2.2 (ix2 (0 : Fin 1) q) = S11 V c t.val q := by
  rw [outsAt2_A V c t h0]
  dsimp only
  refine (congrFun (out_A_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t)) (ix2 (0 : Fin 1) q)).trans ?_
  refine (step11 V c t _ q).trans ?_
  rw [zero11_apply, zero_add]

set_option maxHeartbeats 2000000 in
/-- At a later point the first accumulator is the previous point's plus this point's contribution. -/
theorem o10_B (c : Dev nD) (t : Fin cfg2.N) (h0 : ¬t.val % 10 = 0) (q : Fin 128) :
    (outsAt2 V c t.val t.isLt).2.1 (ix2 (0 : Fin 1) q) = (outsAt2 V c (t.val - 1) (Nat.lt_of_le_of_lt (Nat.sub_le _ _) t.isLt)).2.1 (ix2 (0 : Fin 1) q) + S10 V c t.val q := by
  rw [outsAt2_B V c t h0]
  dsimp only
  refine (congrFun (out_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  exact step10 V c t _ q

set_option maxHeartbeats 2000000 in
theorem o11_B (c : Dev nD) (t : Fin cfg2.N) (h0 : ¬t.val % 10 = 0) (q : Fin 128) :
    (outsAt2 V c t.val t.isLt).2.2 (ix2 (0 : Fin 1) q) = (outsAt2 V c (t.val - 1) (Nat.lt_of_le_of_lt (Nat.sub_le _ _) t.isLt)).2.2 (ix2 (0 : Fin 1) q) + S11 V c t.val q := by
  rw [outsAt2_B V c t h0]
  dsimp only
  refine (congrFun (out_B_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  exact step11 V c t _ q

/-- After point n the accumulators hold, at column q, the contributions of the points 0 … n. -/
theorem acc (c : Dev nD) : ∀ (n : ℕ) (h : n < cfg2.N) (q : Fin 128),
    (outsAt2 V c n h).2.1 (ix2 (0 : Fin 1) q) = ∑ t ∈ Finset.range (n + 1), S10 V c t q
    ∧ (outsAt2 V c n h).2.2 (ix2 (0 : Fin 1) q) = ∑ t ∈ Finset.range (n + 1), S11 V c t q
  | 0, h, q => by
    constructor
    · exact (o10_A V c ⟨0, h⟩ rfl q).trans (Finset.sum_range_one (fun t => S10 V c t q)).symm
    · exact (o11_A V c ⟨0, h⟩ rfl q).trans (Finset.sum_range_one (fun t => S11 V c t q)).symm
  | n + 1, h, q => by
    have hN : n + 1 < 10 := N_lt ⟨n + 1, h⟩
    have hB : ¬(⟨n + 1, h⟩ : Fin cfg2.N).val % 10 = 0 := by dsimp only; omega
    have ih := acc c n (Nat.lt_of_succ_lt h) q
    constructor
    · refine (o10_B V c ⟨n + 1, h⟩ hB q).trans ?_
      exact (congrArg (· + S10 V c (n + 1) q) ih.1).trans (Finset.sum_range_succ (fun t => S10 V c t q) (n + 1)).symm
    · refine (o11_B V c ⟨n + 1, h⟩ hB q).trans ?_
      exact (congrArg (· + S11 V c (n + 1) q) ih.2).trans (Finset.sum_range_succ (fun t => S11 V c t q) (n + 1)).symm

/-- The ten blocks of rows are all the rows. -/
theorem sum_S (f : Fin 50000 → EReal) : (∑ t ∈ Finset.range 10, ∑ r : Fin 5000, f (rowOf t r)) = ∑ i : Fin 50000, f i := by
  rw [Finset.sum_range, ← Cert.GnnSpec.sum_blocks f]
  refine Finset.sum_congr rfl fun t _ => Finset.sum_congr rfl fun r _ => congrArg f ?_
  apply Fin.ext
  show (5000 * t.val + r.val) % 50000 = 5000 * t.val + r.val
  have := t.isLt; have := r.isLt; omega

/-! ## The first output: ten row blocks -/

theorem emb9 (t : Fin cfg2.N) (r : Fin 5000) (q : Fin 128) :
    ((cfg2.win 9).blk t).view.emb (ix2 r q) = ix2 (rowOf t.val r) q := by
  have hi := (idx_facts t).2.2.2.2.2.2.2.2.2.1
  have hN := N_lt t
  funext a; apply Fin.ext
  match a with
  | ⟨0, _⟩ => show win2_9.index t (0 : Fin 2) * 5000 + 1 * r.val = (5000 * t.val + r.val) % 50000; rw [hi.1]; have := r.isLt; omega
  | ⟨1, _⟩ => show win2_9.index t (1 : Fin 2) * 128 + 1 * q.val = q.val; rw [hi.2]; omega

theorem flushed9 (c : Dev nD) (t : Fin cfg2.N) :
    (dat2 V c).flushed 9 t = ((cfg2.win 9).blk t).view.read (Elt Ideal) (Gpre V c) := by
  show (cfg2.win 9).cut (grid2.coords t) ((dat2 V c).after 9 t) = _
  rw [after2_9, o9]
  funext j
  obtain ⟨r, q, rfl⟩ : ∃ (r : Fin 5000) (q : Fin 128), j = ix2 r q := ⟨j 0, j 1, eq_ix2 j⟩
  show blockPre (iblk2 V c 0 t) (iblk2 V c 1 t) (iblk2 V c 2 t) (iblk2 V c 3 t) (iblk2 V c 4 t) (iblk2 V c 5 t) (iblk2 V c 6 t) (iblk2 V c 7 t) (iblk2 V c 8 t) (ix2 r q) = Gpre V c (((cfg2.win 9).blk t).view.emb (ix2 r q))
  rw [emb9]
  exact blockPre_at V c t r q

theorem mem_blk9 (t : Fin cfg2.N) (i : S50000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v88_0).slice (win2_9.rect t)).set ↔ _
  rw [View.set_slice_whole, Rect.mem_set_unit]
  exact Iff.rfl

theorem cover9 (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_9 _, ?_⟩
  rw [mem_blk9]
  have hi := (idx_facts ⟨(i 0).val / 5000, by rw [hN]; omega⟩).2.2.2.2.2.2.2.2.2.1
  intro a
  match a with
  | ⟨0, _⟩ => show win2_9.index _ (0 : Fin 2) * 5000 ≤ (i 0).val ∧ (i 0).val < win2_9.index _ (0 : Fin 2) * 5000 + 5000; rw [hi.1]; dsimp only; omega
  | ⟨1, _⟩ => show win2_9.index _ (1 : Fin 2) * 128 ≤ (i 1).val ∧ (i 1).val < win2_9.index _ (1 : Fin 2) * 128 + 128; rw [hi.2]; omega

/-- After the region the first output array is the clamped sum. -/
theorem final9 (c : Dev nD) : (dat2 V c).arrAt 9 cfg2.N = Gpre V c :=
  (dat2 V c).arrAt_eq_of_cover 9 (Gpre V c) (fun t _ => flushed9 V c t) cover9

/-! ## The two accumulators: written back once, after the last point -/

theorem lt9 : 9 < cfg2.N := by rw [show cfg2.N = 10 from N_2]; decide

/-- The accumulators after the last point. -/
abbrev R10 (c : Dev nD) : S1x128.Idx → EReal := (outsAt2 V c 9 lt9).2.1
abbrev R11 (c : Dev nD) : S1x128.Idx → EReal := (outsAt2 V c 9 lt9).2.2

theorem flushed10 (c : Dev nD) (t : Fin cfg2.N) (hf : (cfg2.win 10).flush t = true) :
    (dat2 V c).flushed 10 t = ((cfg2.win 10).blk t).view.read (Elt Ideal) (R10 V c) := by
  have hN := N_lt t
  have h9 : t.val = 9 := by have := (flush2_10 t).mp hf; omega
  obtain rfl : t = t2_9 := Fin.ext h9
  show (cfg2.win 10).cut (grid2.coords t2_9) ((dat2 V c).after 10 t2_9) = _
  rw [after2_10]
  have hz' : (fun a => win2_10.index t2_9 a * main_v88_1.ty.shape.size a) = fun _ => 0 := funext fun a => by fin_cases a <;> decide
  exact (Memref.read_access_unit_zero (Elt Ideal) main_v88_1 hz' (fun a => by rw [congrFun hz' a]; simp) (R10 V c)).symm

theorem flushed11 (c : Dev nD) (t : Fin cfg2.N) (hf : (cfg2.win 11).flush t = true) :
    (dat2 V c).flushed 11 t = ((cfg2.win 11).blk t).view.read (Elt Ideal) (R11 V c) := by
  have hN := N_lt t
  have h9 : t.val = 9 := by have := (flush2_11 t).mp hf; omega
  obtain rfl : t = t2_9 := Fin.ext h9
  show (cfg2.win 11).cut (grid2.coords t2_9) ((dat2 V c).after 11 t2_9) = _
  rw [after2_11]
  have hz' : (fun a => win2_11.index t2_9 a * main_v88_2.ty.shape.size a) = fun _ => 0 := funext fun a => by fin_cases a <;> decide
  exact (Memref.read_access_unit_zero (Elt Ideal) main_v88_2 hz' (fun a => by rw [congrFun hz' a]; simp) (R11 V c)).symm

theorem cover10 (i : S1x128.Idx) : ∃ t : Fin cfg2.N, (cfg2.win 10).flush t = true ∧ i ∈ ((cfg2.win 10).blk t).view.set :=
  ⟨t2_9, (flush2_10 t2_9).mpr rfl, by
    show i ∈ ((View.whole main_v88_1).slice (win2_10.rect t2_9)).set
    rw [View.set_slice_whole, Rect.mem_set_unit]
    intro a
    have h0 : (i 0 : Nat) < 1 := (i 0).isLt
    have h1 : (i 1 : Nat) < 128 := (i 1).isLt
    match a with
    | ⟨0, _⟩ => show win2_10.index t2_9 0 * win2_10.size 0 ≤ (i 0 : Nat) ∧ (i 0 : Nat) < win2_10.index t2_9 0 * win2_10.size 0 + win2_10.xsize (grid2.coords t2_9) 0
                rw [show win2_10.index t2_9 0 * win2_10.size 0 = 0 from by decide +kernel, show win2_10.xsize (grid2.coords t2_9) 0 = 1 from by decide +kernel]; omega
    | ⟨1, _⟩ => show win2_10.index t2_9 1 * win2_10.size 1 ≤ (i 1 : Nat) ∧ (i 1 : Nat) < win2_10.index t2_9 1 * win2_10.size 1 + win2_10.xsize (grid2.coords t2_9) 1
                rw [show win2_10.index t2_9 1 * win2_10.size 1 = 0 from by decide +kernel, show win2_10.xsize (grid2.coords t2_9) 1 = 128 from by decide +kernel]; omega⟩

theorem cover11 (i : S1x128.Idx) : ∃ t : Fin cfg2.N, (cfg2.win 11).flush t = true ∧ i ∈ ((cfg2.win 11).blk t).view.set :=
  ⟨t2_9, (flush2_11 t2_9).mpr rfl, by
    show i ∈ ((View.whole main_v88_2).slice (win2_11.rect t2_9)).set
    rw [View.set_slice_whole, Rect.mem_set_unit]
    intro a
    have h0 : (i 0 : Nat) < 1 := (i 0).isLt
    have h1 : (i 1 : Nat) < 128 := (i 1).isLt
    match a with
    | ⟨0, _⟩ => show win2_11.index t2_9 0 * win2_11.size 0 ≤ (i 0 : Nat) ∧ (i 0 : Nat) < win2_11.index t2_9 0 * win2_11.size 0 + win2_11.xsize (grid2.coords t2_9) 0
                rw [show win2_11.index t2_9 0 * win2_11.size 0 = 0 from by decide +kernel, show win2_11.xsize (grid2.coords t2_9) 0 = 1 from by decide +kernel]; omega
    | ⟨1, _⟩ => show win2_11.index t2_9 1 * win2_11.size 1 ≤ (i 1 : Nat) ∧ (i 1 : Nat) < win2_11.index t2_9 1 * win2_11.size 1 + win2_11.xsize (grid2.coords t2_9) 1
                rw [show win2_11.index t2_9 1 * win2_11.size 1 = 0 from by decide +kernel, show win2_11.xsize (grid2.coords t2_9) 1 = 128 from by decide +kernel]; omega⟩

/-- After the region the second output holds the column sums of the clamped sum. -/
theorem final10 (c : Dev nD) (q : Fin 128) : (dat2 V c).arrAt 10 cfg2.N (ix2 (0 : Fin 1) q) = Cert.GnnSpec.colsum (Gpre V c) q := by
  rw [(dat2 V c).arrAt_eq_of_cover 10 (R10 V c) (flushed10 V c) cover10]
  refine ((acc V c 9 lt9 q).1).trans ?_
  exact sum_S (fun i => Gpre V c (ix2 i q))

/-- After the region the third output holds the column sums of its squares. -/
theorem final11 (c : Dev nD) (q : Fin 128) : (dat2 V c).arrAt 11 cfg2.N (ix2 (0 : Fin 1) q) = Cert.GnnSpec.colsumsq (Gpre V c) q := by
  rw [(dat2 V c).arrAt_eq_of_cover 11 (R11 V c) (flushed11 V c) cover11]
  refine ((acc V c 9 lt9 q).2).trans ?_
  exact sum_S (fun i => Gpre V c (ix2 i q) * Gpre V c (ix2 i q))

end Cert.KernelIdeal.RegStats2

end
-- ==== Proof.RegNorm3.lean ====
/-
  A normalisation region. The region runs ten points; point t loads rows 5000t … 5000t + 4999 of the array p
  [50000, 128] and the four one-row arrays μ, v, γ, β [1, 128], and writes the same rows of the result: entry
  (r, q) of the block is (p(5000t + r, q) − μ(0, q)) · (v(0, q) + ε)^(−1/2) · γ(0, q) + β(0, q). The ten row blocks
  tile the result array, so after the region the array is that function of p, μ, v, γ, β, entry by entry.
-/
import proofs.«142960_j19688130085206_1_alg».proof.Proof.Gen.KernelIdeal.Frame
import proofs.«142960_j19688130085206_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegNorm3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at (r, q): the entry of p, centred by μ, scaled by the reciprocal root of v + ε and by γ, shifted by β. -/
theorem pay_apply (x0 : Vec Ideal S5000x128 .f32) (x1 x2 x3 x4 : Vec Ideal S1x128 .f32) (r : Fin 5000) (q : Fin 128) :
    k3_pay1 (F := Ideal) x0 x1 x2 x3 x4 (ix2 r q)
      = (x0 (ix2 r q) - x1 (ix2 (0 : Fin 1) q)) * Ideal.rsqrt (x2 (ix2 (0 : Fin 1) q) + Cert.GnnSpec.cEps) * x3 (ix2 (0 : Fin 1) q) + x4 (ix2 (0 : Fin 1) q) := by
  unfold k3_pay1
  simp only [shapeCast_self, addf_apply, mulf_apply, subf_apply, broadcastTo_1b_ab_apply]
  rfl

/-- The printed index maps over the grid: the blocks of p and of the result move down one block per point, the four rows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of point t's block is row 5000t + r of the array. -/
abbrev rowOf (t : Fin cfg3.N) (r : Fin 5000) : Fin 50000 :=
  ⟨5000 * t.val + r.val, by have h1 : t.val < 10 := lt_of_lt_of_eq t.isLt (show cfg3.N = 10 from N_3); have h2 := r.isLt; omega⟩

/-- The block of p at point t, read at (r, q). -/
theorem blk0_apply (c : Dev nD) (t : Fin cfg3.N) (r : Fin 5000) (q : Fin 128) :
    iblk3 V c 0 t (ix2 r q) = V c main_v88_0 (ix2 (rowOf t r) q) := by
  obtain ⟨e0, e1, -⟩ := idx_facts t
  unfold iblk3
  rw [View.read_apply]
  show V c main_v88_0 _ = V c main_v88_0 _
  congr 1
  funext a; apply Fin.ext
  match a with
  | ⟨0, _⟩ => show win3_0.index t (0 : Fin 2) * 5000 + 1 * r.val = 5000 * t.val + r.val; rw [e0]; omega
  | ⟨1, _⟩ => show win3_0.index t (1 : Fin 2) * 128 + 1 * q.val = q.val; rw [e1]; omega

/-- A one-row window's block at any point is the whole row. -/
theorem blk1_apply (c : Dev nD) (t : Fin cfg3.N) (q : Fin 128) :
    iblk3 V c 1 t (ix2 (0 : Fin 1) q) = V c main_v90 (ix2 (0 : Fin 1) q) := by
  obtain ⟨-, -, e0, e1, -⟩ := idx_facts t
  unfold iblk3
  rw [View.read_apply]
  show V c main_v90 _ = V c main_v90 _
  congr 1
  funext a; apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega
theorem blk2_apply (c : Dev nD) (t : Fin cfg3.N) (q : Fin 128) :
    iblk3 V c 2 t (ix2 (0 : Fin 1) q) = V c main_v94 (ix2 (0 : Fin 1) q) := by
  obtain ⟨-, -, -, -, e0, e1, -⟩ := idx_facts t
  unfold iblk3
  rw [View.read_apply]
  show V c main_v94 _ = V c main_v94 _
  congr 1
  funext a; apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega
theorem blk3_apply (c : Dev nD) (t : Fin cfg3.N) (q : Fin 128) :
    iblk3 V c 3 t (ix2 (0 : Fin 1) q) = V c main_v97 (ix2 (0 : Fin 1) q) := by
  obtain ⟨-, -, -, -, -, -, e0, e1, -⟩ := idx_facts t
  unfold iblk3
  rw [View.read_apply]
  show V c main_v97 _ = V c main_v97 _
  congr 1
  funext a; apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega
theorem blk4_apply (c : Dev nD) (t : Fin cfg3.N) (q : Fin 128) :
    iblk3 V c 4 t (ix2 (0 : Fin 1) q) = V c main_v100 (ix2 (0 : Fin 1) q) := by
  obtain ⟨-, -, -, -, -, -, -, -, e0, e1, -⟩ := idx_facts t
  unfold iblk3
  rw [View.read_apply]
  show V c main_v100 _ = V c main_v100 _
  congr 1
  funext a; apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- Where entry (r, q) of point t's result block sits in the result array. -/
theorem emb5 (t : Fin cfg3.N) (r : Fin 5000) (q : Fin 128) :
    ((cfg3.win 5).blk t).view.emb (ix2 r q) = ix2 (rowOf t r) q := by
  obtain ⟨-, -, -, -, -, -, -, -, -, -, e0, e1⟩ := idx_facts t
  funext a; apply Fin.ext
  match a with
  | ⟨0, _⟩ => show win3_5.index t (0 : Fin 2) * 5000 + 1 * r.val = 5000 * t.val + r.val; rw [e0]; omega
  | ⟨1, _⟩ => show win3_5.index t (1 : Fin 2) * 128 + 1 * q.val = q.val; rw [e1]; omega

/-- The result array after the region, as a function of the arrays the region finds. -/
abbrev aP (c : Dev nD) : S50000x128.Idx → EReal := V c main_v88_0
abbrev aMu (c : Dev nD) : S1x128.Idx → EReal := V c main_v90
abbrev aVar (c : Dev nD) : S1x128.Idx → EReal := V c main_v94
abbrev aGam (c : Dev nD) : S1x128.Idx → EReal := V c main_v97
abbrev aBet (c : Dev nD) : S1x128.Idx → EReal := V c main_v100
abbrev G (c : Dev nD) : S50000x128.Idx → EReal := fun i =>
  (aP V c i - aMu V c (ix2 (0 : Fin 1) (i 1))) * Ideal.rsqrt (aVar V c (ix2 (0 : Fin 1) (i 1)) + Cert.GnnSpec.cEps)
    * aGam V c (ix2 (0 : Fin 1) (i 1)) + aBet V c (ix2 (0 : Fin 1) (i 1))

/-- What point t writes back is block t of G. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k3_pay1 (F := Ideal) (iblk3 V c 0 t) (iblk3 V c 1 t) (iblk3 V c 2 t) (iblk3 V c 3 t) (iblk3 V c 4 t) (ix2 r q)
      = G V c (((cfg3.win 5).blk t).view.emb (ix2 r q))
  rw [emb5]
  refine (pay_apply (iblk3 V c 0 t) (iblk3 V c 1 t) (iblk3 V c 2 t) (iblk3 V c 3 t) (iblk3 V c 4 t) r q).trans ?_
  rw [blk0_apply, blk1_apply, blk2_apply, blk3_apply, blk4_apply]

/-- An index of the result array is in point t's block iff each coordinate is in the block's range. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v101).slice (win3_5.rect t)).set ↔ _
  rw [View.set_slice_whole, Rect.mem_set_unit]
  exact Iff.rfl

/-- The ten row blocks cover the result array: row i lies in the block of point i / 5000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_5 _, ?_⟩
  rw [mem_blk]
  obtain ⟨-, -, -, -, -, -, -, -, -, -, e0, e1⟩ := idx_facts ⟨(i 0).val / 5000, by rw [hN]; omega⟩
  intro a
  match a with
  | ⟨0, _⟩ => show win3_5.index _ (0 : Fin 2) * 5000 ≤ (i 0).val ∧ (i 0).val < win3_5.index _ (0 : Fin 2) * 5000 + 5000; rw [e0]; dsimp only; omega
  | ⟨1, _⟩ => show win3_5.index _ (1 : Fin 2) * 128 ≤ (i 1).val ∧ (i 1).val < win3_5.index _ (1 : Fin 2) * 128 + 128; rw [e1]; omega

/-- After the region the result array is the normalisation of the arrays the region finds. -/
theorem final (c : Dev nD) : (dat3 V c).arrAt 5 cfg3.N = G V c :=
  (dat3 V c).arrAt_eq_of_cover 5 (G V c) (fun t _ => flushed_eq V c t) cover

end Cert.KernelIdeal.RegNorm3

end
-- ==== Proof.RegStats0a.lean ====
/-
  A combine-and-statistics region, its body read as values. At a grid point the body holds a block of 5000 rows
  of the features h, of the neighbour sums and of the read-outs, three weight matrices and three bias rows. It
  stores the block of clamped sums pre = max(h·V + v + (agg·A + a) + (ro·R + r), 0), and adds the block's column
  sums of pre and of pre² into two one-row accumulators, which the first point resets to zero beforehand.
-/
import proofs.«142960_j19688130085206_1_alg».proof.Proof.Gen.KernelIdeal.Frame
import proofs.«142960_j19688130085206_1_alg».proof.Proof.Spec
import proofs.«142960_j19688130085206_1_alg».proof.Proof.SpecL
import proofs.«142960_j19688130085206_1_alg».proof.Proof.LibRealLift
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegStats0

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-! ## What each case of the body leaves in the three outputs -/

/-- The block of clamped sums, from the nine input blocks. -/
abbrev blockPre (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) : FVec Ideal S5000x128 .f32 :=
  k0_pay1 (k0_pay6 x0 x3 x4) (k0_pay7 x1 x5 x6) (k0_pay8 x2 x7 x8)

section Cases
variable (c : Dev nD) (i : grid0.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S1x128 .f32) (h9 : a9.IsWhole) (a10 : Memref sig .tc .vmem S5000x128 .f32) (h10 : a10.IsWhole) (a11 : Memref sig .tc .vmem S1x128 .f32) (h11 : a11.IsWhole) (a12 : Memref sig .tc .vmem S1x128 .f32) (h12 : a12.IsWhole)

theorem out_A_9 (hc : cond0_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out0_A_9 c i a1 h1 a2 h2 a3 h3 a4 h4 a5 h5 a6 h6 a7 h7 a8 h8 a9 h9 a10 h10 a11 h11 a12 h12 hc x0 x1 x2 x3 x4 x5 x6 x7 x8 = blockPre x0 x1 x2 x3 x4 x5 x6 x7 x8 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_B_9 (hc : ¬cond0_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out0_B_9 c i a1 h1 a2 h2 a3 h3 a4 h4 a5 h5 a6 h6 a7 h7 a8 h8 a9 h9 a10 h10 a11 h11 a12 h12 hc x0 x1 x2 x3 x4 x5 x6 x7 x8 xo10 xo11 = blockPre x0 x1 x2 x3 x4 x5 x6 x7 x8 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 x7 x8 xo10 xo11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_A_10 (hc : cond0_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out0_A_10 c i a1 h1 a2 h2 a3 h3 a4 h4 a5 h5 a6 h6 a7 h7 a8 h8 a9 h9 a10 h10 a11 h11 a12 h12 hc x0 x1 x2 x3 x4 x5 x6 x7 x8 = k0_pay2 (k0_pay6 x0 x3 x4) (k0_pay7 x1 x5 x6) (k0_pay8 x2 x7 x8) (k0_pay4 (F := Ideal)) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_A_11 (hc : cond0_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) :
    out0_A_11 c i a1 h1 a2 h2 a3 h3 a4 h4 a5 h5 a6 h6 a7 h7 a8 h8 a9 h9 a10 h10 a11 h11 a12 h12 hc x0 x1 x2 x3 x4 x5 x6 x7 x8 = k0_pay3 (k0_pay6 x0 x3 x4) (k0_pay7 x1 x5 x6) (k0_pay8 x2 x7 x8) (k0_pay5 (F := Ideal)) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S1x128) hz]

theorem out_B_10 (hc : ¬cond0_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out0_B_10 c i a1 h1 a2 h2 a3 h3 a4 h4 a5 h5 a6 h6 a7 h7 a8 h8 a9 h9 a10 h10 a11 h11 a12 h12 hc x0 x1 x2 x3 x4 x5 x6 x7 x8 xo10 xo11 = k0_pay2 (k0_pay6 x0 x3 x4) (k0_pay7 x1 x5 x6) (k0_pay8 x2 x7 x8) xo10 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 x8 xo10 xo11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h11.read_unread, View.ld_unit_zero (S := S5000x128) hz, View.ld_unit_zero (S := S128x128) hz, View.ld_unit_zero (S := S1x128) hz]

theorem out_B_11 (hc : ¬cond0_0 i) (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (xo10 xo11 : Vec Ideal S1x128 .f32) :
    out0_B_11 c i a1 h1 a2 h2 a3 h3 a4 h4 a5 h5 a6 h6 a7 h7 a8 h8 a9 h9 a10 h10 a11 h11 a12 h12 hc x0 x1 x2 x3 x4 x5 x6 x7 x8 xo10 xo11 = k0_pay3 (k0_pay6 x0 x3 x4) (k0_pay7 x1 x5 x6) (k0_pay8 x2 x7 x8) xo11 := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 x8 xo10 xo11)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S5000x128) hz, View.ld_unit_zero (S := S128x128) hz, View.ld_unit_zero (S := S1x128) hz]

end Cases

end Cert.KernelIdeal.RegStats0

end
-- ==== Proof.RegStats0b.lean ====
/-
  A combine-and-statistics region: its body's values entry by entry, and what a grid point contributes. Entry
  (r, q) of the block of clamped sums at point t is the clamped sum of the whole arrays at row 5000t + r; the
  point adds to the two one-row accumulators, at column q, the sum over its 5000 rows of that entry and of its
  square.
-/
import proofs.«142960_j19688130085206_1_alg».proof.Proof.RegStats0a

set_option maxRecDepth 16384

noncomputable section

namespace Cert.KernelIdeal.RegStats0

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

/-! ## The payloads, entry by entry -/

/-- The contraction sum of a [5000, 128] × [128, 128] product at (p, q). -/
theorem dot_sum (l : (⟨2, ![5000, 128]⟩ : Shape).Idx → EReal) (r : (⟨2, ![128, 128]⟩ : Shape).Idx → EReal) (p : Fin 5000) (q : Fin 128) :
    (∑ k : dot_S5000x128_S128x128_S5000x128_1_0_0_1_n_n.contr.Idx, l (dot_S5000x128_S128x128_S5000x128_1_0_0_1_n_n.lhsIdx (ix2 p q) k) * r (dot_S5000x128_S128x128_S5000x128_1_0_0_1_n_n.rhsIdx (ix2 p q) k)) = ∑ k : Fin 128, l (ix2 p k) * r (ix2 k q) :=
  Cert.LibRealLift.plain_sum 5000 128 128 l r p q

/-- An affine map of a block at (r, q): row r times column q, plus the bias at q. -/
theorem lin6_apply (x : Vec Ideal S5000x128 .f32) (W : Vec Ideal S128x128 .f32) (b : Vec Ideal S1x128 .f32) (r : Fin 5000) (q : Fin 128) :
    k0_pay6 (F := Ideal) x W b (ix2 r q) = (∑ k : Fin 128, x (ix2 r k) * W (ix2 k q)) + b (ix2 (0 : Fin 1) q) := by
  unfold k0_pay6
  simp only [shapeCast_self, addf_apply, broadcastTo_1b_ab_apply, Ideal.matmul_constant_zero_apply]
  exact congrArg (· + b (ix2 (0 : Fin 1) q)) (dot_sum _ _ r q)

/-- An affine map of a block at (r, q): row r times column q, plus the bias at q. -/
theorem lin7_apply (x : Vec Ideal S5000x128 .f32) (W : Vec Ideal S128x128 .f32) (b : Vec Ideal S1x128 .f32) (r : Fin 5000) (q : Fin 128) :
    k0_pay7 (F := Ideal) x W b (ix2 r q) = (∑ k : Fin 128, x (ix2 r k) * W (ix2 k q)) + b (ix2 (0 : Fin 1) q) := by
  unfold k0_pay7
  simp only [shapeCast_self, addf_apply, broadcastTo_1b_ab_apply, Ideal.matmul_constant_zero_apply]
  exact congrArg (· + b (ix2 (0 : Fin 1) q)) (dot_sum _ _ r q)

/-- An affine map of a block at (r, q): row r times column q, plus the bias at q. -/
theorem lin8_apply (x : Vec Ideal S5000x128 .f32) (W : Vec Ideal S128x128 .f32) (b : Vec Ideal S1x128 .f32) (r : Fin 5000) (q : Fin 128) :
    k0_pay8 (F := Ideal) x W b (ix2 r q) = (∑ k : Fin 128, x (ix2 r k) * W (ix2 k q)) + b (ix2 (0 : Fin 1) q) := by
  unfold k0_pay8
  simp only [shapeCast_self, addf_apply, broadcastTo_1b_ab_apply, Ideal.matmul_constant_zero_apply]
  exact congrArg (· + b (ix2 (0 : Fin 1) q)) (dot_sum _ _ r q)

/-- The clamped sum at an entry. -/
theorem pay1_apply (a b d : FVec Ideal S5000x128 .f32) (i : S5000x128.Idx) : k0_pay1 (F := Ideal) a b d i = max ((a i + b i) + d i) 0 := by
  unfold k0_pay1
  simp only [maximumf_apply, addf_apply, broadcast_apply]
  exact congrArg (max ((a i + b i) + d i)) Ideal.ofBits_zero_f32

/-- The block of clamped sums at (r, q), from the nine input blocks. -/
theorem blockPre_apply (x0 x1 x2 : Vec Ideal S5000x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (r : Fin 5000) (q : Fin 128) :
    blockPre x0 x1 x2 x3 x4 x5 x6 x7 x8 (ix2 r q)
      = max ((((∑ k : Fin 128, x0 (ix2 r k) * x3 (ix2 k q)) + x4 (ix2 (0 : Fin 1) q)) + ((∑ k : Fin 128, x1 (ix2 r k) * x5 (ix2 k q)) + x6 (ix2 (0 : Fin 1) q)))
          + ((∑ k : Fin 128, x2 (ix2 r k) * x7 (ix2 k q)) + x8 (ix2 (0 : Fin 1) q))) 0 := by
  refine (pay1_apply _ _ _ (ix2 r q)).trans ?_
  rw [lin6_apply, lin7_apply, lin8_apply]

/-- A sum over axis 0 of a [5000, 128] array, read at column q. -/
theorem colred (src : FVec Ideal S5000x128 .f32) (h : S5000x128.Reduces [0] S128) (hφ : FKind.Formats .f32)
    (hacc : (0x00000000#32 : BitVec 32) = 0x00000000#32) (q : Fin 128) :
    multiReduction .add [0] S128 src 0x00000000#32 h hφ hacc (ix1 q) = ∑ r : Fin 5000, src (ix2 r q) := by
  refine (Ideal.multiReduction_add_single src 0x00000000#32 h hφ hacc (ix1 q)).trans ?_
  refine Finset.sum_congr rfl fun k _ => congrArg src ?_
  funext a; apply Fin.ext
  match a with
  | ⟨0, _⟩ => rfl
  | ⟨1, _⟩ => rfl

/-- The new first accumulator at column q: the old one plus the block's column sum. -/
theorem acc10_apply (a b d : FVec Ideal S5000x128 .f32) (prev : Vec Ideal S1x128 .f32) (q : Fin 128) :
    k0_pay2 (F := Ideal) a b d prev (ix2 (0 : Fin 1) q) = prev (ix2 (0 : Fin 1) q) + ∑ r : Fin 5000, k0_pay1 (F := Ideal) a b d (ix2 r q) := by
  unfold k0_pay2
  simp only [shapeCast_self, addf_apply]
  refine congrArg (prev (ix2 (0 : Fin 1) q) + ·) ?_
  refine (shapeCast_a_1a_apply _ shapeCasts_S128_S1x128 (0 : Fin 1) q).trans ?_
  exact colred _ _ _ _ q

/-- The new second accumulator at column q: the old one plus the block's column sum of squares. -/
theorem acc11_apply (a b d : FVec Ideal S5000x128 .f32) (prev : Vec Ideal S1x128 .f32) (q : Fin 128) :
    k0_pay3 (F := Ideal) a b d prev (ix2 (0 : Fin 1) q) = prev (ix2 (0 : Fin 1) q) + ∑ r : Fin 5000, k0_pay1 (F := Ideal) a b d (ix2 r q) * k0_pay1 (F := Ideal) a b d (ix2 r q) := by
  unfold k0_pay3
  simp only [shapeCast_self, addf_apply]
  refine congrArg (prev (ix2 (0 : Fin 1) q) + ·) ?_
  refine (shapeCast_a_1a_apply _ shapeCasts_S128_S1x128 (0 : Fin 1) q).trans ?_
  exact colred _ _ _ _ q

/-- The reset row is zero. -/
theorem zero10_apply (j : S1x128.Idx) : k0_pay4 (F := Ideal) j = 0 := by
  unfold k0_pay4
  exact Ideal.ofBits_zero_f32
theorem zero11_apply (j : S1x128.Idx) : k0_pay5 (F := Ideal) j = 0 := by
  unfold k0_pay5
  exact Ideal.ofBits_zero_f32

/-! ## The region's arrays -/

variable (V : (c : Dev nD) → (b : Ref sig .tc) → Buf (Elt Ideal) ((c : Thread nD τ).loc b))

abbrev aH (c : Dev nD) : S50000x128.Idx → EReal := V c main_arg0
abbrev aAgg (c : Dev nD) : S50000x128.Idx → EReal := V c main_v13
abbrev aRo (c : Dev nD) : S50000x128.Idx → EReal := V c main_v23
abbrev aWv (c : Dev nD) : S128x128.Idx → EReal := V c main_v25
abbrev aBv (c : Dev nD) : S1x128.Idx → EReal := V c main_v28
abbrev aWa (c : Dev nD) : S128x128.Idx → EReal := V c main_v30
abbrev aBa (c : Dev nD) : S1x128.Idx → EReal := V c main_v33
abbrev aWr (c : Dev nD) : S128x128.Idx → EReal := V c main_v35
abbrev aBr (c : Dev nD) : S1x128.Idx → EReal := V c main_v38

/-- The clamped sum of the three affine maps of the arrays the region finds. -/
abbrev Gpre (c : Dev nD) : S50000x128.Idx → EReal :=
  Cert.GnnSpec.preL (aH V c) (aAgg V c) (aRo V c) (aWv V c) (aWa V c) (aWr V c) (aBv V c) (aBa V c) (aBr V c)

/-- The printed index maps over the grid: the three feature blocks and the first output's block move down one block per
    point; the weights, the bias rows and the two accumulators stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Row r of the block at position t is row 5000t + r of the array (positions below ten). -/
abbrev rowOf (t : ℕ) (r : Fin 5000) : Fin 50000 := ⟨(5000 * t + r.val) % 50000, Nat.mod_lt _ (by norm_num)⟩

theorem N_lt (t : Fin cfg0.N) : t.val < 10 := lt_of_lt_of_eq t.isLt (show cfg0.N = 10 from N_0)

/-- Feature window 0's block at point t, read at (r, k). -/
theorem blk0_apply (c : Dev nD) (t : Fin cfg0.N) (r : Fin 5000) (k : Fin 128) :
    iblk0 V c 0 t (ix2 r k) = aH V c (ix2 (rowOf t.val r) k) := by
  have hi := (idx_facts t).1
  have hN := N_lt t
  unfold iblk0
  rw [View.read_apply]
  show V c main_arg0 _ = V c main_arg0 _
  congr 1
  funext a; apply Fin.ext
  match a with
  | ⟨0, _⟩ => show win0_0.index t (0 : Fin 2) * 5000 + 1 * r.val = (5000 * t.val + r.val) % 50000; rw [hi.1]; have := r.isLt; omega
  | ⟨1, _⟩ => show win0_0.index t (1 : Fin 2) * 128 + 1 * k.val = k.val; rw [hi.2]; omega
/-- Feature window 1's block at point t, read at (r, k). -/
theorem blk1_apply (c : Dev nD) (t : Fin cfg0.N) (r : Fin 5000) (k : Fin 128) :
    iblk0 V c 1 t (ix2 r k) = aAgg V c (ix2 (rowOf t.val r) k) := by
  have hi := (idx_facts t).2.1
  have hN := N_lt t
  unfold iblk0
  rw [View.read_apply]
  show V c main_v13 _ = V c main_v13 _
  congr 1
  funext a; apply Fin.ext
  match a with
  | ⟨0, _⟩ => show win0_1.index t (0 : Fin 2) * 5000 + 1 * r.val = (5000 * t.val + r.val) % 50000; rw [hi.1]; have := r.isLt; omega
  | ⟨1, _⟩ => show win0_1.index t (1 : Fin 2) * 128 + 1 * k.val = k.val; rw [hi.2]; omega
/-- Feature window 2's block at point t, read at (r, k). -/
theorem blk2_apply (c : Dev nD) (t : Fin cfg0.N) (r : Fin 5000) (k : Fin 128) :
    iblk0 V c 2 t (ix2 r k) = aRo V c (ix2 (rowOf t.val r) k) := by
  have hi := (idx_facts t).2.2.1
  have hN := N_lt t
  unfold iblk0
  rw [View.read_apply]
  show V c main_v23 _ = V c main_v23 _
  congr 1
  funext a; apply Fin.ext
  match a with
  | ⟨0, _⟩ => show win0_2.index t (0 : Fin 2) * 5000 + 1 * r.val = (5000 * t.val + r.val) % 50000; rw [hi.1]; have := r.isLt; omega
  | ⟨1, _⟩ => show win0_2.index t (1 : Fin 2) * 128 + 1 * k.val = k.val; rw [hi.2]; omega

/-- Weight window 3's block at any point is the whole matrix. -/
theorem blk3_apply (c : Dev nD) (t : Fin cfg0.N) (k q : Fin 128) :
    iblk0 V c 3 t (ix2 k q) = aWv V c (ix2 k q) := by
  have hi := (idx_facts t).2.2.2.1
  unfold iblk0
  rw [View.read_apply]
  show V c main_v25 _ = V c main_v25 _
  congr 1
  funext a; apply Fin.ext
  match a with
  | ⟨0, _⟩ => show win0_3.index t (0 : Fin 2) * 128 + 1 * k.val = k.val; rw [hi.1]; omega
  | ⟨1, _⟩ => show win0_3.index t (1 : Fin 2) * 128 + 1 * q.val = q.val; rw [hi.2]; omega
/-- Weight window 5's block at any point is the whole matrix. -/
theorem blk5_apply (c : Dev nD) (t : Fin cfg0.N) (k q : Fin 128) :
    iblk0 V c 5 t (ix2 k q) = aWa V c (ix2 k q) := by
  have hi := (idx_facts t).2.2.2.2.2.1
  unfold iblk0
  rw [View.read_apply]
  show V c main_v30 _ = V c main_v30 _
  congr 1
  funext a; apply Fin.ext
  match a with
  | ⟨0, _⟩ => show win0_5.index t (0 : Fin 2) * 128 + 1 * k.val = k.val; rw [hi.1]; omega
  | ⟨1, _⟩ => show win0_5.index t (1 : Fin 2) * 128 + 1 * q.val = q.val; rw [hi.2]; omega
/-- Weight window 7's block at any point is the whole matrix. -/
theorem blk7_apply (c : Dev nD) (t : Fin cfg0.N) (k q : Fin 128) :
    iblk0 V c 7 t (ix2 k q) = aWr V c (ix2 k q) := by
  have hi := (idx_facts t).2.2.2.2.2.2.2.1
  unfold iblk0
  rw [View.read_apply]
  show V c main_v35 _ = V c main_v35 _
  congr 1
  funext a; apply Fin.ext
  match a with
  | ⟨0, _⟩ => show win0_7.index t (0 : Fin 2) * 128 + 1 * k.val = k.val; rw [hi.1]; omega
  | ⟨1, _⟩ => show win0_7.index t (1 : Fin 2) * 128 + 1 * q.val = q.val; rw [hi.2]; omega

/-- Bias window 4's block at any point is the whole row. -/
theorem blk4_apply (c : Dev nD) (t : Fin cfg0.N) (q : Fin 128) :
    iblk0 V c 4 t (ix2 (0 : Fin 1) q) = aBv V c (ix2 (0 : Fin 1) q) := by
  have hi := (idx_facts t).2.2.2.2.1
  unfold iblk0
  rw [View.read_apply]
  show V c main_v28 _ = V c main_v28 _
  congr 1
  funext a; apply Fin.ext
  match a with
  | ⟨0, _⟩ => show win0_4.index t (0 : Fin 2) * 1 + 1 * 0 = 0; rw [hi.1]
  | ⟨1, _⟩ => show win0_4.index t (1 : Fin 2) * 128 + 1 * q.val = q.val; rw [hi.2]; omega
/-- Bias window 6's block at any point is the whole row. -/
theorem blk6_apply (c : Dev nD) (t : Fin cfg0.N) (q : Fin 128) :
    iblk0 V c 6 t (ix2 (0 : Fin 1) q) = aBa V c (ix2 (0 : Fin 1) q) := by
  have hi := (idx_facts t).2.2.2.2.2.2.1
  unfold iblk0
  rw [View.read_apply]
  show V c main_v33 _ = V c main_v33 _
  congr 1
  funext a; apply Fin.ext
  match a with
  | ⟨0, _⟩ => show win0_6.index t (0 : Fin 2) * 1 + 1 * 0 = 0; rw [hi.1]
  | ⟨1, _⟩ => show win0_6.index t (1 : Fin 2) * 128 + 1 * q.val = q.val; rw [hi.2]; omega
/-- Bias window 8's block at any point is the whole row. -/
theorem blk8_apply (c : Dev nD) (t : Fin cfg0.N) (q : Fin 128) :
    iblk0 V c 8 t (ix2 (0 : Fin 1) q) = aBr V c (ix2 (0 : Fin 1) q) := by
  have hi := (idx_facts t).2.2.2.2.2.2.2.2.1
  unfold iblk0
  rw [View.read_apply]
  show V c main_v38 _ = V c main_v38 _
  congr 1
  funext a; apply Fin.ext
  match a with
  | ⟨0, _⟩ => show win0_8.index t (0 : Fin 2) * 1 + 1 * 0 = 0; rw [hi.1]
  | ⟨1, _⟩ => show win0_8.index t (1 : Fin 2) * 128 + 1 * q.val = q.val; rw [hi.2]; omega

/-- The block of clamped sums at point t is the clamped sum of the whole arrays at the block's rows. -/
theorem blockPre_at (c : Dev nD) (t : Fin cfg0.N) (r : Fin 5000) (q : Fin 128) :
    blockPre (iblk0 V c 0 t) (iblk0 V c 1 t) (iblk0 V c 2 t) (iblk0 V c 3 t) (iblk0 V c 4 t) (iblk0 V c 5 t) (iblk0 V c 6 t) (iblk0 V c 7 t) (iblk0 V c 8 t) (ix2 r q) = Gpre V c (ix2 (rowOf t.val r) q) := by
  refine (blockPre_apply (iblk0 V c 0 t) (iblk0 V c 1 t) (iblk0 V c 2 t) (iblk0 V c 3 t) (iblk0 V c 4 t) (iblk0 V c 5 t) (iblk0 V c 6 t) (iblk0 V c 7 t) (iblk0 V c 8 t) r q).trans ?_
  simp only [blk0_apply, blk1_apply, blk2_apply, blk3_apply, blk4_apply, blk5_apply, blk6_apply, blk7_apply, blk8_apply]
  rfl

/-- What position t adds to the first accumulator at column q. -/
def S10 (c : Dev nD) (t : ℕ) (q : Fin 128) : EReal := ∑ r : Fin 5000, Gpre V c (ix2 (rowOf t r) q)
/-- What position t adds to the second accumulator at column q. -/
def S11 (c : Dev nD) (t : ℕ) (q : Fin 128) : EReal := ∑ r : Fin 5000, Gpre V c (ix2 (rowOf t r) q) * Gpre V c (ix2 (rowOf t r) q)

end Cert.KernelIdeal.RegStats0

end
-- ==== Proof.RegStats0.lean ====
/-
  A combine-and-statistics region, as functions of the arrays it finds. After the region its first output array is
  the clamped sum pre = max(h·V + v + (agg·A + a) + (ro·R + r), 0) of the arrays it was given, entry by entry, and
  its two one-row outputs hold, at column q, the sum over all 50000 rows of pre(·, q) and of pre(·, q)²: the
  accumulators start from zero at the first point, every point adds its 5000 rows, and the ten blocks of rows are
  all the rows.
-/
import proofs.«142960_j19688130085206_1_alg».proof.Proof.RegStats0b
import proofs.«142960_j19688130085206_1_alg».proof.Proof.SpecLaws

set_option maxRecDepth 16384

noncomputable section

namespace Cert.KernelIdeal.RegStats0

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

variable (V : (c : Dev nD) → (b : Ref sig .tc) → Buf (Elt Ideal) ((c : Thread nD τ).loc b))

/-! ## The outputs' staging buffers after a point -/

set_option maxHeartbeats 2000000 in
/-- After any point the first output's buffer holds the point's block of clamped sums. -/
theorem o9 (c : Dev nD) (t : Fin cfg0.N) :
    (outsAt0 V c t.val t.isLt).1 = blockPre (iblk0 V c 0 t) (iblk0 V c 1 t) (iblk0 V c 2 t) (iblk0 V c 3 t) (iblk0 V c 4 t) (iblk0 V c 5 t) (iblk0 V c 6 t) (iblk0 V c 7 t) (iblk0 V c 8 t) := by
  by_cases h0 : t.val % 10 = 0
  · rw [outsAt0_A V c t h0]
    dsimp only
    exact out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)
  · rw [outsAt0_B V c t h0]
    dsimp only
    exact out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2

/-- One point's addition to the first accumulator, at column q. -/
theorem step10 (c : Dev nD) (t : Fin cfg0.N) (prev : Vec Ideal S1x128 .f32) (q : Fin 128) :
    k0_pay2 (F := Ideal) (k0_pay6 (F := Ideal) (iblk0 V c 0 t) (iblk0 V c 3 t) (iblk0 V c 4 t)) (k0_pay7 (F := Ideal) (iblk0 V c 1 t) (iblk0 V c 5 t) (iblk0 V c 6 t)) (k0_pay8 (F := Ideal) (iblk0 V c 2 t) (iblk0 V c 7 t) (iblk0 V c 8 t)) prev (ix2 (0 : Fin 1) q) = prev (ix2 (0 : Fin 1) q) + S10 V c t.val q := by
  refine (acc10_apply (k0_pay6 (F := Ideal) (iblk0 V c 0 t) (iblk0 V c 3 t) (iblk0 V c 4 t)) (k0_pay7 (F := Ideal) (iblk0 V c 1 t) (iblk0 V c 5 t) (iblk0 V c 6 t)) (k0_pay8 (F := Ideal) (iblk0 V c 2 t) (iblk0 V c 7 t) (iblk0 V c 8 t)) prev q).trans ?_
  exact congrArg (prev (ix2 (0 : Fin 1) q) + ·) (Finset.sum_congr rfl fun r _ => blockPre_at V c t r q)

/-- One point's addition to the second accumulator, at column q. -/
theorem step11 (c : Dev nD) (t : Fin cfg0.N) (prev : Vec Ideal S1x128 .f32) (q : Fin 128) :
    k0_pay3 (F := Ideal) (k0_pay6 (F := Ideal) (iblk0 V c 0 t) (iblk0 V c 3 t) (iblk0 V c 4 t)) (k0_pay7 (F := Ideal) (iblk0 V c 1 t) (iblk0 V c 5 t) (iblk0 V c 6 t)) (k0_pay8 (F := Ideal) (iblk0 V c 2 t) (iblk0 V c 7 t) (iblk0 V c 8 t)) prev (ix2 (0 : Fin 1) q) = prev (ix2 (0 : Fin 1) q) + S11 V c t.val q := by
  refine (acc11_apply (k0_pay6 (F := Ideal) (iblk0 V c 0 t) (iblk0 V c 3 t) (iblk0 V c 4 t)) (k0_pay7 (F := Ideal) (iblk0 V c 1 t) (iblk0 V c 5 t) (iblk0 V c 6 t)) (k0_pay8 (F := Ideal) (iblk0 V c 2 t) (iblk0 V c 7 t) (iblk0 V c 8 t)) prev q).trans ?_
  refine congrArg (prev (ix2 (0 : Fin 1) q) + ·) (Finset.sum_congr rfl fun r _ => ?_)
  have e := blockPre_at V c t r q
  exact congrArg₂ (· * ·) e e

set_option maxHeartbeats 2000000 in
/-- At the first point the first accumulator is that point's contribution. -/
theorem o10_A (c : Dev nD) (t : Fin cfg0.N) (h0 : t.val % 10 = 0) (q : Fin 128) :
    (outsAt0 V c t.val t.isLt).2.1 (ix2 (0 : Fin 1) q) = S10 V c t.val q := by
  rw [outsAt0_A V c t h0]
  dsimp only
  refine (congrFun (out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)) (ix2 (0 : Fin 1) q)).trans ?_
  refine (step10 V c t _ q).trans ?_
  rw [zero10_apply, zero_add]

set_option maxHeartbeats 2000000 in
theorem o11_A (c : Dev nD) (t : Fin cfg0.N) (h0 : t.val % 10 = 0) (q : Fin 128) :
    (outsAt0 V c t.val t.isLt).2.2 (ix2 (0 : Fin 1) q) = S11 V c t.val q := by
  rw [outsAt0_A V c t h0]
  dsimp only
  refine (congrFun (out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)) (ix2 (0 : Fin 1) q)).trans ?_
  refine (step11 V c t _ q).trans ?_
  rw [zero11_apply, zero_add]

set_option maxHeartbeats 2000000 in
/-- At a later point the first accumulator is the previous point's plus this point's contribution. -/
theorem o10_B (c : Dev nD) (t : Fin cfg0.N) (h0 : ¬t.val % 10 = 0) (q : Fin 128) :
    (outsAt0 V c t.val t.isLt).2.1 (ix2 (0 : Fin 1) q) = (outsAt0 V c (t.val - 1) (Nat.lt_of_le_of_lt (Nat.sub_le _ _) t.isLt)).2.1 (ix2 (0 : Fin 1) q) + S10 V c t.val q := by
  rw [outsAt0_B V c t h0]
  dsimp only
  refine (congrFun (out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  exact step10 V c t _ q

set_option maxHeartbeats 2000000 in
theorem o11_B (c : Dev nD) (t : Fin cfg0.N) (h0 : ¬t.val % 10 = 0) (q : Fin 128) :
    (outsAt0 V c t.val t.isLt).2.2 (ix2 (0 : Fin 1) q) = (outsAt0 V c (t.val - 1) (Nat.lt_of_le_of_lt (Nat.sub_le _ _) t.isLt)).2.2 (ix2 (0 : Fin 1) q) + S11 V c t.val q := by
  rw [outsAt0_B V c t h0]
  dsimp only
  refine (congrFun (out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  exact step11 V c t _ q

/-- After point n the accumulators hold, at column q, the contributions of the points 0 … n. -/
theorem acc (c : Dev nD) : ∀ (n : ℕ) (h : n < cfg0.N) (q : Fin 128),
    (outsAt0 V c n h).2.1 (ix2 (0 : Fin 1) q) = ∑ t ∈ Finset.range (n + 1), S10 V c t q
    ∧ (outsAt0 V c n h).2.2 (ix2 (0 : Fin 1) q) = ∑ t ∈ Finset.range (n + 1), S11 V c t q
  | 0, h, q => by
    constructor
    · exact (o10_A V c ⟨0, h⟩ rfl q).trans (Finset.sum_range_one (fun t => S10 V c t q)).symm
    · exact (o11_A V c ⟨0, h⟩ rfl q).trans (Finset.sum_range_one (fun t => S11 V c t q)).symm
  | n + 1, h, q => by
    have hN : n + 1 < 10 := N_lt ⟨n + 1, h⟩
    have hB : ¬(⟨n + 1, h⟩ : Fin cfg0.N).val % 10 = 0 := by dsimp only; omega
    have ih := acc c n (Nat.lt_of_succ_lt h) q
    constructor
    · refine (o10_B V c ⟨n + 1, h⟩ hB q).trans ?_
      exact (congrArg (· + S10 V c (n + 1) q) ih.1).trans (Finset.sum_range_succ (fun t => S10 V c t q) (n + 1)).symm
    · refine (o11_B V c ⟨n + 1, h⟩ hB q).trans ?_
      exact (congrArg (· + S11 V c (n + 1) q) ih.2).trans (Finset.sum_range_succ (fun t => S11 V c t q) (n + 1)).symm

/-- The ten blocks of rows are all the rows. -/
theorem sum_S (f : Fin 50000 → EReal) : (∑ t ∈ Finset.range 10, ∑ r : Fin 5000, f (rowOf t r)) = ∑ i : Fin 50000, f i := by
  rw [Finset.sum_range, ← Cert.GnnSpec.sum_blocks f]
  refine Finset.sum_congr rfl fun t _ => Finset.sum_congr rfl fun r _ => congrArg f ?_
  apply Fin.ext
  show (5000 * t.val + r.val) % 50000 = 5000 * t.val + r.val
  have := t.isLt; have := r.isLt; omega

/-! ## The first output: ten row blocks -/

theorem emb9 (t : Fin cfg0.N) (r : Fin 5000) (q : Fin 128) :
    ((cfg0.win 9).blk t).view.emb (ix2 r q) = ix2 (rowOf t.val r) q := by
  have hi := (idx_facts t).2.2.2.2.2.2.2.2.2.1
  have hN := N_lt t
  funext a; apply Fin.ext
  match a with
  | ⟨0, _⟩ => show win0_9.index t (0 : Fin 2) * 5000 + 1 * r.val = (5000 * t.val + r.val) % 50000; rw [hi.1]; have := r.isLt; omega
  | ⟨1, _⟩ => show win0_9.index t (1 : Fin 2) * 128 + 1 * q.val = q.val; rw [hi.2]; omega

theorem flushed9 (c : Dev nD) (t : Fin cfg0.N) :
    (dat0 V c).flushed 9 t = ((cfg0.win 9).blk t).view.read (Elt Ideal) (Gpre V c) := by
  show (cfg0.win 9).cut (grid0.coords t) ((dat0 V c).after 9 t) = _
  rw [after0_9, o9]
  funext j
  obtain ⟨r, q, rfl⟩ : ∃ (r : Fin 5000) (q : Fin 128), j = ix2 r q := ⟨j 0, j 1, eq_ix2 j⟩
  show blockPre (iblk0 V c 0 t) (iblk0 V c 1 t) (iblk0 V c 2 t) (iblk0 V c 3 t) (iblk0 V c 4 t) (iblk0 V c 5 t) (iblk0 V c 6 t) (iblk0 V c 7 t) (iblk0 V c 8 t) (ix2 r q) = Gpre V c (((cfg0.win 9).blk t).view.emb (ix2 r q))
  rw [emb9]
  exact blockPre_at V c t r q

theorem mem_blk9 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v39_0).slice (win0_9.rect t)).set ↔ _
  rw [View.set_slice_whole, Rect.mem_set_unit]
  exact Iff.rfl

theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_9 _, ?_⟩
  rw [mem_blk9]
  have hi := (idx_facts ⟨(i 0).val / 5000, by rw [hN]; omega⟩).2.2.2.2.2.2.2.2.2.1
  intro a
  match a with
  | ⟨0, _⟩ => show win0_9.index _ (0 : Fin 2) * 5000 ≤ (i 0).val ∧ (i 0).val < win0_9.index _ (0 : Fin 2) * 5000 + 5000; rw [hi.1]; dsimp only; omega
  | ⟨1, _⟩ => show win0_9.index _ (1 : Fin 2) * 128 ≤ (i 1).val ∧ (i 1).val < win0_9.index _ (1 : Fin 2) * 128 + 128; rw [hi.2]; omega

/-- After the region the first output array is the clamped sum. -/
theorem final9 (c : Dev nD) : (dat0 V c).arrAt 9 cfg0.N = Gpre V c :=
  (dat0 V c).arrAt_eq_of_cover 9 (Gpre V c) (fun t _ => flushed9 V c t) cover9

/-! ## The two accumulators: written back once, after the last point -/

theorem lt9 : 9 < cfg0.N := by rw [show cfg0.N = 10 from N_0]; decide

/-- The accumulators after the last point. -/
abbrev R10 (c : Dev nD) : S1x128.Idx → EReal := (outsAt0 V c 9 lt9).2.1
abbrev R11 (c : Dev nD) : S1x128.Idx → EReal := (outsAt0 V c 9 lt9).2.2

theorem flushed10 (c : Dev nD) (t : Fin cfg0.N) (hf : (cfg0.win 10).flush t = true) :
    (dat0 V c).flushed 10 t = ((cfg0.win 10).blk t).view.read (Elt Ideal) (R10 V c) := by
  have hN := N_lt t
  have h9 : t.val = 9 := by have := (flush0_10 t).mp hf; omega
  obtain rfl : t = t0_9 := Fin.ext h9
  show (cfg0.win 10).cut (grid0.coords t0_9) ((dat0 V c).after 10 t0_9) = _
  rw [after0_10]
  have hz' : (fun a => win0_10.index t0_9 a * main_v39_1.ty.shape.size a) = fun _ => 0 := funext fun a => by fin_cases a <;> decide
  exact (Memref.read_access_unit_zero (Elt Ideal) main_v39_1 hz' (fun a => by rw [congrFun hz' a]; simp) (R10 V c)).symm

theorem flushed11 (c : Dev nD) (t : Fin cfg0.N) (hf : (cfg0.win 11).flush t = true) :
    (dat0 V c).flushed 11 t = ((cfg0.win 11).blk t).view.read (Elt Ideal) (R11 V c) := by
  have hN := N_lt t
  have h9 : t.val = 9 := by have := (flush0_11 t).mp hf; omega
  obtain rfl : t = t0_9 := Fin.ext h9
  show (cfg0.win 11).cut (grid0.coords t0_9) ((dat0 V c).after 11 t0_9) = _
  rw [after0_11]
  have hz' : (fun a => win0_11.index t0_9 a * main_v39_2.ty.shape.size a) = fun _ => 0 := funext fun a => by fin_cases a <;> decide
  exact (Memref.read_access_unit_zero (Elt Ideal) main_v39_2 hz' (fun a => by rw [congrFun hz' a]; simp) (R11 V c)).symm

theorem cover10 (i : S1x128.Idx) : ∃ t : Fin cfg0.N, (cfg0.win 10).flush t = true ∧ i ∈ ((cfg0.win 10).blk t).view.set :=
  ⟨t0_9, (flush0_10 t0_9).mpr rfl, by
    show i ∈ ((View.whole main_v39_1).slice (win0_10.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_10.index t0_9 0 * win0_10.size 0 ≤ (i 0 : Nat) ∧ (i 0 : Nat) < win0_10.index t0_9 0 * win0_10.size 0 + win0_10.xsize (grid0.coords t0_9) 0
                rw [show win0_10.index t0_9 0 * win0_10.size 0 = 0 from by decide +kernel, show win0_10.xsize (grid0.coords t0_9) 0 = 1 from by decide +kernel]; omega
    | ⟨1, _⟩ => show win0_10.index t0_9 1 * win0_10.size 1 ≤ (i 1 : Nat) ∧ (i 1 : Nat) < win0_10.index t0_9 1 * win0_10.size 1 + win0_10.xsize (grid0.coords t0_9) 1
                rw [show win0_10.index t0_9 1 * win0_10.size 1 = 0 from by decide +kernel, show win0_10.xsize (grid0.coords t0_9) 1 = 128 from by decide +kernel]; omega⟩

theorem cover11 (i : S1x128.Idx) : ∃ t : Fin cfg0.N, (cfg0.win 11).flush t = true ∧ i ∈ ((cfg0.win 11).blk t).view.set :=
  ⟨t0_9, (flush0_11 t0_9).mpr rfl, by
    show i ∈ ((View.whole main_v39_2).slice (win0_11.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_11.index t0_9 0 * win0_11.size 0 ≤ (i 0 : Nat) ∧ (i 0 : Nat) < win0_11.index t0_9 0 * win0_11.size 0 + win0_11.xsize (grid0.coords t0_9) 0
                rw [show win0_11.index t0_9 0 * win0_11.size 0 = 0 from by decide +kernel, show win0_11.xsize (grid0.coords t0_9) 0 = 1 from by decide +kernel]; omega
    | ⟨1, _⟩ => show win0_11.index t0_9 1 * win0_11.size 1 ≤ (i 1 : Nat) ∧ (i 1 : Nat) < win0_11.index t0_9 1 * win0_11.size 1 + win0_11.xsize (grid0.coords t0_9) 1
                rw [show win0_11.index t0_9 1 * win0_11.size 1 = 0 from by decide +kernel, show win0_11.xsize (grid0.coords t0_9) 1 = 128 from by decide +kernel]; omega⟩

/-- After the region the second output holds the column sums of the clamped sum. -/
theorem final10 (c : Dev nD) (q : Fin 128) : (dat0 V c).arrAt 10 cfg0.N (ix2 (0 : Fin 1) q) = Cert.GnnSpec.colsum (Gpre V c) q := by
  rw [(dat0 V c).arrAt_eq_of_cover 10 (R10 V c) (flushed10 V c) cover10]
  refine ((acc V c 9 lt9 q).1).trans ?_
  exact sum_S (fun i => Gpre V c (ix2 i q))

/-- After the region the third output holds the column sums of its squares. -/
theorem final11 (c : Dev nD) (q : Fin 128) : (dat0 V c).arrAt 11 cfg0.N (ix2 (0 : Fin 1) q) = Cert.GnnSpec.colsumsq (Gpre V c) q := by
  rw [(dat0 V c).arrAt_eq_of_cover 11 (R11 V c) (flushed11 V c) cover11]
  refine ((acc V c 9 lt9 q).2).trans ?_
  exact sum_S (fun i => Gpre V c (ix2 i q) * Gpre V c (ix2 i q))

end Cert.KernelIdeal.RegStats0

end
-- ==== Proof.RegNorm1.lean ====
/-
  A normalisation region. The region runs ten points; point t loads rows 5000t … 5000t + 4999 of the array p
  [50000, 128] and the four one-row arrays μ, v, γ, β [1, 128], and writes the same rows of the result: entry
  (r, q) of the block is (p(5000t + r, q) − μ(0, q)) · (v(0, q) + ε)^(−1/2) · γ(0, q) + β(0, q). The ten row blocks
  tile the result array, so after the region the array is that function of p, μ, v, γ, β, entry by entry.
-/
import proofs.«142960_j19688130085206_1_alg».proof.Proof.Gen.KernelIdeal.Frame
import proofs.«142960_j19688130085206_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegNorm1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at (r, q): the entry of p, centred by μ, scaled by the reciprocal root of v + ε and by γ, shifted by β. -/
theorem pay_apply (x0 : Vec Ideal S5000x128 .f32) (x1 x2 x3 x4 : Vec Ideal S1x128 .f32) (r : Fin 5000) (q : Fin 128) :
    k1_pay1 (F := Ideal) x0 x1 x2 x3 x4 (ix2 r q)
      = (x0 (ix2 r q) - x1 (ix2 (0 : Fin 1) q)) * Ideal.rsqrt (x2 (ix2 (0 : Fin 1) q) + Cert.GnnSpec.cEps) * x3 (ix2 (0 : Fin 1) q) + x4 (ix2 (0 : Fin 1) q) := by
  unfold k1_pay1
  simp only [shapeCast_self, addf_apply, mulf_apply, subf_apply, broadcastTo_1b_ab_apply]
  rfl

/-- The printed index maps over the grid: the blocks of p and of the result move down one block per point, the four rows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of point t's block is row 5000t + r of the array. -/
abbrev rowOf (t : Fin cfg1.N) (r : Fin 5000) : Fin 50000 :=
  ⟨5000 * t.val + r.val, by have h1 : t.val < 10 := lt_of_lt_of_eq t.isLt (show cfg1.N = 10 from N_1); have h2 := r.isLt; omega⟩

/-- The block of p at point t, read at (r, q). -/
theorem blk0_apply (c : Dev nD) (t : Fin cfg1.N) (r : Fin 5000) (q : Fin 128) :
    iblk1 V c 0 t (ix2 r q) = V c main_v39_0 (ix2 (rowOf t r) q) := by
  obtain ⟨e0, e1, -⟩ := idx_facts t
  unfold iblk1
  rw [View.read_apply]
  show V c main_v39_0 _ = V c main_v39_0 _
  congr 1
  funext a; apply Fin.ext
  match a with
  | ⟨0, _⟩ => show win1_0.index t (0 : Fin 2) * 5000 + 1 * r.val = 5000 * t.val + r.val; rw [e0]; omega
  | ⟨1, _⟩ => show win1_0.index t (1 : Fin 2) * 128 + 1 * q.val = q.val; rw [e1]; omega

/-- A one-row window's block at any point is the whole row. -/
theorem blk1_apply (c : Dev nD) (t : Fin cfg1.N) (q : Fin 128) :
    iblk1 V c 1 t (ix2 (0 : Fin 1) q) = V c main_v41 (ix2 (0 : Fin 1) q) := by
  obtain ⟨-, -, e0, e1, -⟩ := idx_facts t
  unfold iblk1
  rw [View.read_apply]
  show V c main_v41 _ = V c main_v41 _
  congr 1
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega
theorem blk2_apply (c : Dev nD) (t : Fin cfg1.N) (q : Fin 128) :
    iblk1 V c 2 t (ix2 (0 : Fin 1) q) = V c main_v45 (ix2 (0 : Fin 1) q) := by
  obtain ⟨-, -, -, -, e0, e1, -⟩ := idx_facts t
  unfold iblk1
  rw [View.read_apply]
  show V c main_v45 _ = V c main_v45 _
  congr 1
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega
theorem blk3_apply (c : Dev nD) (t : Fin cfg1.N) (q : Fin 128) :
    iblk1 V c 3 t (ix2 (0 : Fin 1) q) = V c main_v48 (ix2 (0 : Fin 1) q) := by
  obtain ⟨-, -, -, -, -, -, e0, e1, -⟩ := idx_facts t
  unfold iblk1
  rw [View.read_apply]
  show V c main_v48 _ = V c main_v48 _
  congr 1
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega
theorem blk4_apply (c : Dev nD) (t : Fin cfg1.N) (q : Fin 128) :
    iblk1 V c 4 t (ix2 (0 : Fin 1) q) = V c main_v51 (ix2 (0 : Fin 1) q) := by
  obtain ⟨-, -, -, -, -, -, -, -, e0, e1, -⟩ := idx_facts t
  unfold iblk1
  rw [View.read_apply]
  show V c main_v51 _ = V c main_v51 _
  congr 1
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- Where entry (r, q) of point t's result block sits in the result array. -/
theorem emb5 (t : Fin cfg1.N) (r : Fin 5000) (q : Fin 128) :
    ((cfg1.win 5).blk t).view.emb (ix2 r q) = ix2 (rowOf t r) q := by
  obtain ⟨-, -, -, -, -, -, -, -, -, -, e0, e1⟩ := idx_facts t
  funext a; apply Fin.ext
  match a with
  | ⟨0, _⟩ => show win1_5.index t (0 : Fin 2) * 5000 + 1 * r.val = 5000 * t.val + r.val; rw [e0]; omega
  | ⟨1, _⟩ => show win1_5.index t (1 : Fin 2) * 128 + 1 * q.val = q.val; rw [e1]; omega

/-- The result array after the region, as a function of the arrays the region finds. -/
abbrev aP (c : Dev nD) : S50000x128.Idx → EReal := V c main_v39_0
abbrev aMu (c : Dev nD) : S1x128.Idx → EReal := V c main_v41
abbrev aVar (c : Dev nD) : S1x128.Idx → EReal := V c main_v45
abbrev aGam (c : Dev nD) : S1x128.Idx → EReal := V c main_v48
abbrev aBet (c : Dev nD) : S1x128.Idx → EReal := V c main_v51
abbrev G (c : Dev nD) : S50000x128.Idx → EReal := fun i =>
  (aP V c i - aMu V c (ix2 (0 : Fin 1) (i 1))) * Ideal.rsqrt (aVar V c (ix2 (0 : Fin 1) (i 1)) + Cert.GnnSpec.cEps)
    * aGam V c (ix2 (0 : Fin 1) (i 1)) + aBet V c (ix2 (0 : Fin 1) (i 1))

/-- What point t writes back is block t of G. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k1_pay1 (F := Ideal) (iblk1 V c 0 t) (iblk1 V c 1 t) (iblk1 V c 2 t) (iblk1 V c 3 t) (iblk1 V c 4 t) (ix2 r q)
      = G V c (((cfg1.win 5).blk t).view.emb (ix2 r q))
  rw [emb5]
  refine (pay_apply (iblk1 V c 0 t) (iblk1 V c 1 t) (iblk1 V c 2 t) (iblk1 V c 3 t) (iblk1 V c 4 t) r q).trans ?_
  rw [blk0_apply, blk1_apply, blk2_apply, blk3_apply, blk4_apply]

/-- An index of the result array is in point t's block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- The ten row blocks cover the result array: row i lies in the block of point i / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e0]; dsimp only; omega
  | ⟨1, _⟩ => show win1_5.index _ (1 : Fin 2) * 128 ≤ (i 1).val ∧ (i 1).val < win1_5.index _ (1 : Fin 2) * 128 + 128; rw [e1]; omega

/-- After the region the result array is the normalisation of the arrays the region finds. -/
theorem final (c : Dev nD) : (dat1 V c).arrAt 5 cfg1.N = G V c :=
  (dat1 V c).arrAt_eq_of_cover 5 (G V c) (fun t _ => flushed_eq V c t) cover

end Cert.KernelIdeal.RegNorm1

end
-- ==== Proof.Chain0.lean ====
/-
  The first layer on the kernel's side. The host stretch before the combine-and-statistics region leaves the
  neighbour sums, the read-outs and the layer's weights; the region leaves the clamped sum of the three affine maps
  with its column sums and sums of squares; the next host stretch forms the mean and variance rows and cuts out the
  scale and shift; the normalise region leaves the layer's output, the specification's layer with the moment form
  of the variance.
-/
import proofs.«142960_j19688130085206_1_alg».proof.Proof.ChainDefs
import proofs.«142960_j19688130085206_1_alg».proof.Proof.Persist
import proofs.«142960_j19688130085206_1_alg».proof.Proof.RegStats0
import proofs.«142960_j19688130085206_1_alg».proof.Proof.RegNorm1

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)
variable (m : (ℓ : Loc nD τ sig) → Buf (Elt Ideal) ℓ) (ρ : Dev nD → PrngReg) (c : Dev nD)

/-- What the combine-and-statistics region finds is the first layer's clamped sum of the specification. -/
theorem pre0 : RegStats0.Gpre (V1 m ρ) c = Cert.GnnSpec.pre 0 (PK m c) (xK m c) (AG m c (xK m c)) (RO m c (xK m c)) :=
  (preL_congr ((keep0 (W0 m ρ c) main_arg0 (by decide)).trans (W0_arg0 m ρ c))
    ((after0_agg (W0 m ρ c)).trans (aggK_congr (W0_arg1 m ρ c) (W0_arg0 m ρ c)))
    ((after0_ro (W0 m ρ c)).trans (roK_congr (W0_arg2 m ρ c) (W0_arg0 m ρ c)))
    ((after0_v25 (W0 m ρ c)).trans (congrArg (Cert.GnnSpec.mat 0) (W0_arg3 m ρ c)))
    ((after0_v30 (W0 m ρ c)).trans (congrArg (Cert.GnnSpec.mat 0) (W0_arg5 m ρ c)))
    ((after0_v35 (W0 m ρ c)).trans (congrArg (Cert.GnnSpec.mat 0) (W0_arg7 m ρ c)))
    ((after0_v28 (W0 m ρ c)).trans (congrArg (Cert.GnnSpec.row 0) (W0_arg4 m ρ c)))
    ((after0_v33 (W0 m ρ c)).trans (congrArg (Cert.GnnSpec.row 0) (W0_arg6 m ρ c)))
    ((after0_v38 (W0 m ρ c)).trans (congrArg (Cert.GnnSpec.row 0) (W0_arg8 m ρ c)))).trans
  (Cert.GnnSpec.preL_eq_pre 0 (PK m c) _ _ _)

/-- After the statistics region its first output holds the clamped sum. -/
theorem W2_p : W2 m ρ c (Proc.devRef .tc main_v39_0) = Cert.GnnSpec.pre 0 (PK m c) (xK m c) (AG m c (xK m c)) (RO m c (xK m c)) :=
  (W2_arr m ρ c 9).trans ((RegStats0.final9 (V1 m ρ) c).trans (pre0 m ρ c))
/-- After the statistics region its second output holds the column sums of the clamped sum. -/
theorem W2_s1 (q : Fin 128) : W2 m ρ c (Proc.devRef .tc main_v39_1) (ix2 (0 : Fin 1) q) = Cert.GnnSpec.colsum (Cert.GnnSpec.pre 0 (PK m c) (xK m c) (AG m c (xK m c)) (RO m c (xK m c))) q :=
  (congrFun (W2_arr m ρ c 10) _).trans ((RegStats0.final10 (V1 m ρ) c q).trans (congrArg (fun p => Cert.GnnSpec.colsum p q) (pre0 m ρ c)))
/-- After the statistics region its third output holds the column sums of squares of the clamped sum. -/
theorem W2_s2 (q : Fin 128) : W2 m ρ c (Proc.devRef .tc main_v39_2) (ix2 (0 : Fin 1) q) = Cert.GnnSpec.colsumsq (Cert.GnnSpec.pre 0 (PK m c) (xK m c) (AG m c (xK m c)) (RO m c (xK m c))) q :=
  (congrFun (W2_arr m ρ c 11) _).trans ((RegStats0.final11 (V1 m ρ) c q).trans (congrArg (fun p => Cert.GnnSpec.colsumsq p q) (pre0 m ρ c)))

/-- After the normalise region its output holds the first layer's output. -/
theorem W4_out : W4 m ρ c (Proc.devRef .tc main_v52) = L0 m c := by
  have ep : (V3 m ρ) c main_v39_0 = Cert.GnnSpec.pre 0 (PK m c) (xK m c) (AG m c (xK m c)) (RO m c (xK m c)) :=
    (keep1 (W2 m ρ c) main_v39_0 (by decide)).trans (W2_p m ρ c)
  have emu : ∀ q : Fin 128, (V3 m ρ) c main_v41 (ix2 (0 : Fin 1) q) = Ideal.div (Cert.GnnSpec.colsum ((V3 m ρ) c main_v39_0) q) Cert.GnnSpec.cN := fun q => by
    rw [ep]
    exact (after1_mean (W2 m ρ c) q).trans (congrArg (fun x => Ideal.div x Cert.GnnSpec.cN) (W2_s1 m ρ c q))
  have evar : ∀ q : Fin 128, (V3 m ρ) c main_v45 (ix2 (0 : Fin 1) q) = Ideal.div (Cert.GnnSpec.colsumsq ((V3 m ρ) c main_v39_0) q) Cert.GnnSpec.cN
      - Ideal.div (Cert.GnnSpec.colsum ((V3 m ρ) c main_v39_0) q) Cert.GnnSpec.cN * Ideal.div (Cert.GnnSpec.colsum ((V3 m ρ) c main_v39_0) q) Cert.GnnSpec.cN := fun q => by
    rw [ep]
    exact (after1_var (W2 m ρ c) q).trans (by rw [W2_s1 m ρ c q, W2_s2 m ρ c q])
  have eg : (V3 m ρ) c main_v48 = Cert.GnnSpec.row 0 (PK m c).gamma :=
    (after1_gamma (W2 m ρ c)).trans (congrArg (Cert.GnnSpec.row 0) (W2_arg9 m ρ c))
  have eb : (V3 m ρ) c main_v51 = Cert.GnnSpec.row 0 (PK m c).beta :=
    (after1_beta (W2 m ρ c)).trans (congrArg (Cert.GnnSpec.row 0) (W2_arg10 m ρ c))
  have hG : Cert.GnnSpec.normL ((V3 m ρ) c main_v39_0) ((V3 m ρ) c main_v41) ((V3 m ρ) c main_v45) ((V3 m ρ) c main_v48) ((V3 m ρ) c main_v51) = L0 m c :=
    normL_eq_layerM 0 (PK m c) (xK m c) (AG m c (xK m c)) (RO m c (xK m c)) _ _ _ _ _ ep emu evar eg eb
  exact (W4_arr m ρ c 5).trans ((RegNorm1.final (V3 m ρ) c).trans hG)

end Cert.KernelIdeal.Chain

end
-- ==== Proof.Chain1.lean ====
/-
  The second layer on the kernel's side. The host stretch before the combine-and-statistics region leaves the
  neighbour sums, the read-outs and the layer's weights; the region leaves the clamped sum of the three affine maps
  with its column sums and sums of squares; the next host stretch forms the mean and variance rows and cuts out the
  scale and shift; the normalise region leaves the layer's output, the specification's layer with the moment form
  of the variance.
-/
import proofs.«142960_j19688130085206_1_alg».proof.Proof.ChainDefs
import proofs.«142960_j19688130085206_1_alg».proof.Proof.Persist
import proofs.«142960_j19688130085206_1_alg».proof.Proof.RegStats2
import proofs.«142960_j19688130085206_1_alg».proof.Proof.RegNorm3
import proofs.«142960_j19688130085206_1_alg».proof.Proof.Chain0

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)
variable (m : (ℓ : Loc nD τ sig) → Buf (Elt Ideal) ℓ) (ρ : Dev nD → PrngReg) (c : Dev nD)

/-- What the combine-and-statistics region finds is the second layer's clamped sum of the specification. -/
theorem pre1 : RegStats2.Gpre (V5 m ρ) c = Cert.GnnSpec.pre 1 (PK m c) (L0 m c) (AG m c (L0 m c)) (RO m c (L0 m c)) :=
  (preL_congr ((keep2 (W4 m ρ c) main_v52 (by decide)).trans (W4_out m ρ c))
    ((after2_agg (W4 m ρ c)).trans (aggF_congr (W4_v1 m ρ c) (W4_v3 m ρ c) (W4_out m ρ c)))
    ((after2_ro (W4 m ρ c)).trans (roK_congr (W4_arg2 m ρ c) (W4_out m ρ c)))
    ((after2_v74 (W4 m ρ c)).trans (congrArg (Cert.GnnSpec.mat 1) (W4_arg3 m ρ c)))
    ((after2_v79 (W4 m ρ c)).trans (congrArg (Cert.GnnSpec.mat 1) (W4_arg5 m ρ c)))
    ((after2_v84 (W4 m ρ c)).trans (congrArg (Cert.GnnSpec.mat 1) (W4_arg7 m ρ c)))
    ((after2_v77 (W4 m ρ c)).trans (congrArg (Cert.GnnSpec.row 1) (W4_arg4 m ρ c)))
    ((after2_v82 (W4 m ρ c)).trans (congrArg (Cert.GnnSpec.row 1) (W4_arg6 m ρ c)))
    ((after2_v87 (W4 m ρ c)).trans (congrArg (Cert.GnnSpec.row 1) (W4_arg8 m ρ c)))).trans
  (Cert.GnnSpec.preL_eq_pre 1 (PK m c) _ _ _)

/-- After the statistics region its first output holds the clamped sum. -/
theorem W6_p : W6 m ρ c (Proc.devRef .tc main_v88_0) = Cert.GnnSpec.pre 1 (PK m c) (L0 m c) (AG m c (L0 m c)) (RO m c (L0 m c)) :=
  (W6_arr m ρ c 9).trans ((RegStats2.final9 (V5 m ρ) c).trans (pre1 m ρ c))
/-- After the statistics region its second output holds the column sums of the clamped sum. -/
theorem W6_s1 (q : Fin 128) : W6 m ρ c (Proc.devRef .tc main_v88_1) (ix2 (0 : Fin 1) q) = Cert.GnnSpec.colsum (Cert.GnnSpec.pre 1 (PK m c) (L0 m c) (AG m c (L0 m c)) (RO m c (L0 m c))) q :=
  (congrFun (W6_arr m ρ c 10) _).trans ((RegStats2.final10 (V5 m ρ) c q).trans (congrArg (fun p => Cert.GnnSpec.colsum p q) (pre1 m ρ c)))
/-- After the statistics region its third output holds the column sums of squares of the clamped sum. -/
theorem W6_s2 (q : Fin 128) : W6 m ρ c (Proc.devRef .tc main_v88_2) (ix2 (0 : Fin 1) q) = Cert.GnnSpec.colsumsq (Cert.GnnSpec.pre 1 (PK m c) (L0 m c) (AG m c (L0 m c)) (RO m c (L0 m c))) q :=
  (congrFun (W6_arr m ρ c 11) _).trans ((RegStats2.final11 (V5 m ρ) c q).trans (congrArg (fun p => Cert.GnnSpec.colsumsq p q) (pre1 m ρ c)))

/-- After the normalise region its output holds the second layer's output. -/
theorem W8_out : W8 m ρ c (Proc.devRef .tc main_v101) = L1 m c := by
  have ep : (V7 m ρ) c main_v88_0 = Cert.GnnSpec.pre 1 (PK m c) (L0 m c) (AG m c (L0 m c)) (RO m c (L0 m c)) :=
    (keep3 (W6 m ρ c) main_v88_0 (by decide)).trans (W6_p m ρ c)
  have emu : ∀ q : Fin 128, (V7 m ρ) c main_v90 (ix2 (0 : Fin 1) q) = Ideal.div (Cert.GnnSpec.colsum ((V7 m ρ) c main_v88_0) q) Cert.GnnSpec.cN := fun q => by
    rw [ep]
    exact (after3_mean (W6 m ρ c) q).trans (congrArg (fun x => Ideal.div x Cert.GnnSpec.cN) (W6_s1 m ρ c q))
  have evar : ∀ q : Fin 128, (V7 m ρ) c main_v94 (ix2 (0 : Fin 1) q) = Ideal.div (Cert.GnnSpec.colsumsq ((V7 m ρ) c main_v88_0) q) Cert.GnnSpec.cN
      - Ideal.div (Cert.GnnSpec.colsum ((V7 m ρ) c main_v88_0) q) Cert.GnnSpec.cN * Ideal.div (Cert.GnnSpec.colsum ((V7 m ρ) c main_v88_0) q) Cert.GnnSpec.cN := fun q => by
    rw [ep]
    exact (after3_var (W6 m ρ c) q).trans (by rw [W6_s1 m ρ c q, W6_s2 m ρ c q])
  have eg : (V7 m ρ) c main_v97 = Cert.GnnSpec.row 1 (PK m c).gamma :=
    (after3_gamma (W6 m ρ c)).trans (congrArg (Cert.GnnSpec.row 1) (W6_arg9 m ρ c))
  have eb : (V7 m ρ) c main_v100 = Cert.GnnSpec.row 1 (PK m c).beta :=
    (after3_beta (W6 m ρ c)).trans (congrArg (Cert.GnnSpec.row 1) (W6_arg10 m ρ c))
  have hG : Cert.GnnSpec.normL ((V7 m ρ) c main_v88_0) ((V7 m ρ) c main_v90) ((V7 m ρ) c main_v94) ((V7 m ρ) c main_v97) ((V7 m ρ) c main_v100) = L1 m c :=
    normL_eq_layerM 1 (PK m c) (L0 m c) (AG m c (L0 m c)) (RO m c (L0 m c)) _ _ _ _ _ ep emu evar eg eb
  exact (W8_arr m ρ c 5).trans ((RegNorm3.final (V7 m ρ) c).trans hG)

end Cert.KernelIdeal.Chain

end
-- ==== Proof.Chain2.lean ====
/-
  The third layer on the kernel's side. The host stretch before the combine-and-statistics region leaves the
  neighbour sums, the read-outs and the layer's weights; the region leaves the clamped sum of the three affine maps
  with its column sums and sums of squares; the next host stretch forms the mean and variance rows and cuts out the
  scale and shift; the normalise region leaves the layer's output, the specification's layer with the moment form
  of the variance.
-/
import proofs.«142960_j19688130085206_1_alg».proof.Proof.ChainDefs
import proofs.«142960_j19688130085206_1_alg».proof.Proof.Persist
import proofs.«142960_j19688130085206_1_alg».proof.Proof.RegStats4
import proofs.«142960_j19688130085206_1_alg».proof.Proof.RegNorm5
import proofs.«142960_j19688130085206_1_alg».proof.Proof.Chain1

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)
variable (m : (ℓ : Loc nD τ sig) → Buf (Elt Ideal) ℓ) (ρ : Dev nD → PrngReg) (c : Dev nD)

/-- What the combine-and-statistics region finds is the third layer's clamped sum of the specification. -/
theorem pre2 : RegStats4.Gpre (V9 m ρ) c = Cert.GnnSpec.pre 2 (PK m c) (L1 m c) (AG m c (L1 m c)) (RO m c (L1 m c)) :=
  (preL_congr ((keep4 (W8 m ρ c) main_v101 (by decide)).trans (W8_out m ρ c))
    ((after4_agg (W8 m ρ c)).trans (aggF_congr (W8_v1 m ρ c) (W8_v3 m ρ c) (W8_out m ρ c)))
    ((after4_ro (W8 m ρ c)).trans (roK_congr (W8_arg2 m ρ c) (W8_out m ρ c)))
    ((after4_v123 (W8 m ρ c)).trans (congrArg (Cert.GnnSpec.mat 2) (W8_arg3 m ρ c)))
    ((after4_v128 (W8 m ρ c)).trans (congrArg (Cert.GnnSpec.mat 2) (W8_arg5 m ρ c)))
    ((after4_v133 (W8 m ρ c)).trans (congrArg (Cert.GnnSpec.mat 2) (W8_arg7 m ρ c)))
    ((after4_v126 (W8 m ρ c)).trans (congrArg (Cert.GnnSpec.row 2) (W8_arg4 m ρ c)))
    ((after4_v131 (W8 m ρ c)).trans (congrArg (Cert.GnnSpec.row 2) (W8_arg6 m ρ c)))
    ((after4_v136 (W8 m ρ c)).trans (congrArg (Cert.GnnSpec.row 2) (W8_arg8 m ρ c)))).trans
  (Cert.GnnSpec.preL_eq_pre 2 (PK m c) _ _ _)

/-- After the statistics region its first output holds the clamped sum. -/
theorem W10_p : W10 m ρ c (Proc.devRef .tc main_v137_0) = Cert.GnnSpec.pre 2 (PK m c) (L1 m c) (AG m c (L1 m c)) (RO m c (L1 m c)) :=
  (W10_arr m ρ c 9).trans ((RegStats4.final9 (V9 m ρ) c).trans (pre2 m ρ c))
/-- After the statistics region its second output holds the column sums of the clamped sum. -/
theorem W10_s1 (q : Fin 128) : W10 m ρ c (Proc.devRef .tc main_v137_1) (ix2 (0 : Fin 1) q) = Cert.GnnSpec.colsum (Cert.GnnSpec.pre 2 (PK m c) (L1 m c) (AG m c (L1 m c)) (RO m c (L1 m c))) q :=
  (congrFun (W10_arr m ρ c 10) _).trans ((RegStats4.final10 (V9 m ρ) c q).trans (congrArg (fun p => Cert.GnnSpec.colsum p q) (pre2 m ρ c)))
/-- After the statistics region its third output holds the column sums of squares of the clamped sum. -/
theorem W10_s2 (q : Fin 128) : W10 m ρ c (Proc.devRef .tc main_v137_2) (ix2 (0 : Fin 1) q) = Cert.GnnSpec.colsumsq (Cert.GnnSpec.pre 2 (PK m c) (L1 m c) (AG m c (L1 m c)) (RO m c (L1 m c))) q :=
  (congrFun (W10_arr m ρ c 11) _).trans ((RegStats4.final11 (V9 m ρ) c q).trans (congrArg (fun p => Cert.GnnSpec.colsumsq p q) (pre2 m ρ c)))

/-- After the normalise region its output holds the third layer's output. -/
theorem W12_out : W12 m ρ c (Proc.devRef .tc main_v150) = L2 m c := by
  have ep : (V11 m ρ) c main_v137_0 = Cert.GnnSpec.pre 2 (PK m c) (L1 m c) (AG m c (L1 m c)) (RO m c (L1 m c)) :=
    (keep5 (W10 m ρ c) main_v137_0 (by decide)).trans (W10_p m ρ c)
  have emu : ∀ q : Fin 128, (V11 m ρ) c main_v139 (ix2 (0 : Fin 1) q) = Ideal.div (Cert.GnnSpec.colsum ((V11 m ρ) c main_v137_0) q) Cert.GnnSpec.cN := fun q => by
    rw [ep]
    exact (after5_mean (W10 m ρ c) q).trans (congrArg (fun x => Ideal.div x Cert.GnnSpec.cN) (W10_s1 m ρ c q))
  have evar : ∀ q : Fin 128, (V11 m ρ) c main_v143 (ix2 (0 : Fin 1) q) = Ideal.div (Cert.GnnSpec.colsumsq ((V11 m ρ) c main_v137_0) q) Cert.GnnSpec.cN
      - Ideal.div (Cert.GnnSpec.colsum ((V11 m ρ) c main_v137_0) q) Cert.GnnSpec.cN * Ideal.div (Cert.GnnSpec.colsum ((V11 m ρ) c main_v137_0) q) Cert.GnnSpec.cN := fun q => by
    rw [ep]
    exact (after5_var (W10 m ρ c) q).trans (by rw [W10_s1 m ρ c q, W10_s2 m ρ c q])
  have eg : (V11 m ρ) c main_v146 = Cert.GnnSpec.row 2 (PK m c).gamma :=
    (after5_gamma (W10 m ρ c)).trans (congrArg (Cert.GnnSpec.row 2) (W10_arg9 m ρ c))
  have eb : (V11 m ρ) c main_v149 = Cert.GnnSpec.row 2 (PK m c).beta :=
    (after5_beta (W10 m ρ c)).trans (congrArg (Cert.GnnSpec.row 2) (W10_arg10 m ρ c))
  have hG : Cert.GnnSpec.normL ((V11 m ρ) c main_v137_0) ((V11 m ρ) c main_v139) ((V11 m ρ) c main_v143) ((V11 m ρ) c main_v146) ((V11 m ρ) c main_v149) = L2 m c :=
    normL_eq_layerM 2 (PK m c) (L1 m c) (AG m c (L1 m c)) (RO m c (L1 m c)) _ _ _ _ _ ep emu evar eg eb
  exact (W12_arr m ρ c 5).trans ((RegNorm5.final (V11 m ρ) c).trans hG)

end Cert.KernelIdeal.Chain

end
-- ==== Proof.Reg6.lean ====
/-
  The prediction head's region. The region runs ten points; point t loads rows 5000t … 5000t + 4999 of the
  feature array h [50000, 128], the whole weight matrix W [128, 64] and the one-row bias b [1, 64], and writes
  rows 5000t … 5000t + 4999 of the result: entry (r, q) of the block is the sum over k of h(5000t + r, k)·W(k, q),
  plus b(0, q). The ten row blocks tile the result array, so after the region the array is h·W + b, entry by entry.
-/
import proofs.«142960_j19688130085206_1_alg».proof.Proof.Gen.KernelIdeal.Frame
import proofs.«142960_j19688130085206_1_alg».proof.Proof.Spec
import proofs.«142960_j19688130085206_1_alg».proof.Proof.LibRealLift
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg6

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The contraction sum of the head's product at (p, q): row p of the left operand against column q of the right. -/
theorem dot_sum (l : (⟨2, ![5000, 128]⟩ : Shape).Idx → EReal) (r : (⟨2, ![128, 64]⟩ : Shape).Idx → EReal) (p : Fin 5000) (q : Fin 64) :
    (∑ k : dot_S5000x128_S128x64_S5000x64_1_0_0_1_n_n.contr.Idx,
        l (dot_S5000x128_S128x64_S5000x64_1_0_0_1_n_n.lhsIdx (ix2 p q) k) * r (dot_S5000x128_S128x64_S5000x64_1_0_0_1_n_n.rhsIdx (ix2 p q) k))
      = ∑ k : Fin 128, l (ix2 p k) * r (ix2 k q) :=
  Cert.LibRealLift.plain_sum 5000 128 64 l r p q

/-- The body's value at (r, q): row r of the feature block times column q of the weights, plus the bias at q. -/
theorem pay_apply (x0 : Vec Ideal S5000x128 .f32) (x1 : Vec Ideal S128x64 .f32) (x2 : Vec Ideal S1x64 .f32) (r : Fin 5000) (q : Fin 64) :
    k6_pay1 (F := Ideal) x0 x1 x2 (ix2 r q) = (∑ k : Fin 128, x0 (ix2 r k) * x1 (ix2 k q)) + x2 (ix2 (0 : Fin 1) q) := by
  unfold k6_pay1
  simp only [shapeCast_self, addf_apply, broadcastTo_1b_ab_apply, Ideal.matmul_constant_zero_apply]
  exact congrArg (· + x2 (ix2 (0 : Fin 1) q)) (dot_sum _ _ r q)

/-- The printed index maps over the grid: the feature and result blocks move down one block per point, the weights and
    the bias stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row r of point t's block is row 5000t + r of the array. -/
abbrev rowOf (t : Fin cfg6.N) (r : Fin 5000) : Fin 50000 :=
  ⟨5000 * t.val + r.val, by have h1 : t.val < 10 := lt_of_lt_of_eq t.isLt (show cfg6.N = 10 from N_6); have h2 := r.isLt; omega⟩

/-- The feature block at point t, read at (r, k). -/
theorem blk0_apply (c : Dev nD) (t : Fin cfg6.N) (r : Fin 5000) (k : Fin 128) :
    iblk6 V c 0 t (ix2 r k) = V c main_v150 (ix2 (rowOf t r) k) := by
  obtain ⟨e0, e1, -⟩ := idx_facts t
  unfold iblk6
  rw [View.read_apply]
  show V c main_v150 _ = V c main_v150 _
  congr 1
  funext a; apply Fin.ext
  match a with
  | ⟨0, _⟩ => show win6_0.index t (0 : Fin 2) * 5000 + 1 * r.val = 5000 * t.val + r.val; rw [e0]; omega
  | ⟨1, _⟩ => show win6_0.index t (1 : Fin 2) * 128 + 1 * k.val = k.val; rw [e1]; omega

/-- The weight block at any point is the whole matrix. -/
theorem blk1_apply (c : Dev nD) (t : Fin cfg6.N) (k : Fin 128) (q : Fin 64) :
    iblk6 V c 1 t (ix2 k q) = V c main_arg11 (ix2 k q) := by
  obtain ⟨-, -, e0, e1, -⟩ := idx_facts t
  unfold iblk6
  rw [View.read_apply]
  show V c main_arg11 _ = V c main_arg11 _
  congr 1
  funext a; apply Fin.ext
  match a with
  | ⟨0, _⟩ => show win6_1.index t (0 : Fin 2) * 128 + 1 * k.val = k.val; rw [e0]; omega
  | ⟨1, _⟩ => show win6_1.index t (1 : Fin 2) * 64 + 1 * q.val = q.val; rw [e1]; omega

/-- The bias block at any point is the whole row. -/
theorem blk2_apply (c : Dev nD) (t : Fin cfg6.N) (q : Fin 64) :
    iblk6 V c 2 t (ix2 (0 : Fin 1) q) = V c main_v151 (ix2 (0 : Fin 1) q) := by
  obtain ⟨-, -, -, -, e0, e1, -⟩ := idx_facts t
  unfold iblk6
  rw [View.read_apply]
  show V c main_v151 _ = V c main_v151 _
  congr 1
  funext a; apply Fin.ext
  match a with
  | ⟨0, _⟩ => show win6_2.index t (0 : Fin 2) * 1 + 1 * 0 = 0; rw [e0]
  | ⟨1, _⟩ => show win6_2.index t (1 : Fin 2) * 64 + 1 * q.val = q.val; rw [e1]; omega

/-- Where entry (r, q) of point t's result block sits in the result array. -/
theorem emb3 (t : Fin cfg6.N) (r : Fin 5000) (q : Fin 64) :
    ((cfg6.win 3).blk t).view.emb (ix2 r q) = ix2 (rowOf t r) q := by
  obtain ⟨-, -, -, -, -, -, e0, e1⟩ := idx_facts t
  funext a; apply Fin.ext
  match a with
  | ⟨0, _⟩ => show win6_3.index t (0 : Fin 2) * 5000 + 1 * r.val = 5000 * t.val + r.val; rw [e0]; omega
  | ⟨1, _⟩ => show win6_3.index t (1 : Fin 2) * 64 + 1 * q.val = q.val; rw [e1]; omega

/-- The result array after the region, as a function of the arrays the region finds. -/
abbrev aH (c : Dev nD) : S50000x128.Idx → EReal := V c main_v150
abbrev aW (c : Dev nD) : S128x64.Idx → EReal := V c main_arg11
abbrev aB (c : Dev nD) : S1x64.Idx → EReal := V c main_v151
abbrev G (c : Dev nD) : S50000x64.Idx → EReal :=
  Cert.GnnSpec.head (aH V c) (aW V c) (fun j => aB V c (ix2 (0 : Fin 1) (j 0)))

/-- What point t writes back is block t of G. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x64) hz, View.ld_unit_zero (S := S1x64) hz]
  funext j
  obtain ⟨r, q, rfl⟩ : ∃ (r : Fin 5000) (q : Fin 64), j = ix2 r q := ⟨j 0, j 1, eq_ix2 j⟩
  show k6_pay1 (F := Ideal) (iblk6 V c 0 t) (iblk6 V c 1 t) (iblk6 V c 2 t) (ix2 r q) = G V c (((cfg6.win 3).blk t).view.emb (ix2 r q))
  rw [emb3]
  refine (pay_apply (iblk6 V c 0 t) (iblk6 V c 1 t) (iblk6 V c 2 t) r q).trans ?_
  show _ = (∑ k : Fin 128, aH V c (ix2 (rowOf t r) k) * aW V c (ix2 k q)) + aB V c (ix2 (0 : Fin 1) q)
  rw [blk2_apply]
  refine congrArg (· + aB V c (ix2 (0 : Fin 1) q)) (Finset.sum_congr rfl fun k _ => ?_)
  rw [blk0_apply, blk1_apply]

/-- An index of the result array is in point t's block iff each coordinate is in the block's range. -/
theorem mem_blk (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v152).slice (win6_3.rect t)).set ↔ _
  rw [View.set_slice_whole, Rect.mem_set_unit]
  exact Iff.rfl

/-- The ten row blocks cover the result array: row i lies in the block of point i / 5000. -/
theorem cover (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  refine ⟨⟨(i 0).val / 5000, by rw [hN]; omega⟩, flush6_3 _, ?_⟩
  rw [mem_blk]
  obtain ⟨-, -, -, -, -, -, e0, e1⟩ := idx_facts ⟨(i 0).val / 5000, by rw [hN]; omega⟩
  intro a
  match a with
  | ⟨0, _⟩ => show win6_3.index _ (0 : Fin 2) * 5000 ≤ (i 0).val ∧ (i 0).val < win6_3.index _ (0 : Fin 2) * 5000 + 5000; rw [e0]; dsimp only; omega
  | ⟨1, _⟩ => show win6_3.index _ (1 : Fin 2) * 64 ≤ (i 1).val ∧ (i 1).val < win6_3.index _ (1 : Fin 2) * 64 + 64; rw [e1]; omega

/-- After the region the result array is the head of the arrays the region finds. -/
theorem final (c : Dev nD) : (dat6 V c).arrAt 3 cfg6.N = G V c :=
  (dat6 V c).arrAt_eq_of_cover 3 (G V c) (fun t _ => flushed_eq V c t) cover

end Cert.KernelIdeal.Reg6

end
-- ==== Proof.KRun.lean ====
/-
  The idealized kernel's run with its result named: every weakly fair execution of the program terminates,
  nothing faults, the thirteen argument arrays end as launched, and the result array ends at the contents the
  last of the fourteen segments (seven stretches of host operations, seven kernel regions) leaves in it.
-/
import proofs.«142960_j19688130085206_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result array at what the last region's write-backs leave, the arguments unchanged. -/
theorem run : θ_run defs (onTc (τ := τ) (main (F := F))) ⟨m, fun _ => 0, ρ⟩ (fun r => ∀ c : Dev nD,
      r.2.mem ((c.tc : Thread nD τ).loc main_v152) = W14 m ρ c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v152 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.KRun

end
-- ==== Proof.Chain.lean ====
/-
  The kernel's result as the specification's network. After the three layers the last host stretch turns the head's
  bias vector into a row and the last region leaves the head of the third layer's output; read back through the
  fourteen segments this is the network with the moment form of the variance, applied to the arguments the launch
  memory holds. The run of the program then ends with the result array at that value and the arguments unchanged.
-/
import proofs.«142960_j19688130085206_1_alg».proof.Proof.ChainDefs
import proofs.«142960_j19688130085206_1_alg».proof.Proof.Persist
import proofs.«142960_j19688130085206_1_alg».proof.Proof.Chain2
import proofs.«142960_j19688130085206_1_alg».proof.Proof.Reg6
import proofs.«142960_j19688130085206_1_alg».proof.Proof.KRun

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.StableHlo (after)
variable (m : (ℓ : Loc nD τ sig) → Buf (Elt Ideal) ℓ) (ρ : Dev nD → PrngReg) (c : Dev nD)

/-- After the last region the result array holds the head of the third layer's output. -/
theorem W14_out : W14 m ρ c (Proc.devRef .tc main_v152) = Cert.GnnSpec.head (L2 m c) (m ((c : Thread nD τ).loc main_arg11)) (m ((c : Thread nD τ).loc main_arg12)) := by
  have e1 : V13 m ρ c main_v150 = L2 m c := (keep6 (W12 m ρ c) main_v150 (by decide)).trans (W12_out m ρ c)
  have e2 : V13 m ρ c main_arg11 = (m ((c : Thread nD τ).loc main_arg11)) := W13_arg11 m ρ c
  have e3 : (fun j : S64.Idx => V13 m ρ c main_v151 (ix2 (0 : Fin 1) (j 0))) = (m ((c : Thread nD τ).loc main_arg12)) := by
    funext j
    exact ((after6_bias (W12 m ρ c) (j 0)).trans (congrFun (W12_arg12 m ρ c) _)).trans (congrArg _ (eq_ix1 j).symm)
  exact (W14_arr m ρ c 3).trans ((Reg6.final (V13 m ρ) c).trans (head_congr e1 e2 e3))

/-- The kernel's result array ends at the specification's network, with the moment form of the variance, of the
    arguments the launch memory holds. -/
theorem kernel_value : W14 m ρ c (Proc.devRef .tc main_v152)
    = Cert.GnnSpec.netM (aggK (m ((c : Thread nD τ).loc main_arg1))) (roK (m ((c : Thread nD τ).loc main_arg2)))
        ⟨(m ((c : Thread nD τ).loc main_arg3)), (m ((c : Thread nD τ).loc main_arg4)), (m ((c : Thread nD τ).loc main_arg5)), (m ((c : Thread nD τ).loc main_arg6)),
         (m ((c : Thread nD τ).loc main_arg7)), (m ((c : Thread nD τ).loc main_arg8)), (m ((c : Thread nD τ).loc main_arg9)), (m ((c : Thread nD τ).loc main_arg10))⟩
        (m ((c : Thread nD τ).loc main_arg0)) (m ((c : Thread nD τ).loc main_arg11)) (m ((c : Thread nD τ).loc main_arg12)) :=
  (W14_out m ρ c).trans (netM_eq m c _ _).symm

/-- Every weakly fair execution of the idealized kernel terminates, nothing faults, the result array ends at the
    specification's network of the launch memory's arguments, and the thirteen argument arrays end as launched. -/
theorem kernel_run : θ_run defs (onTc (τ := τ) (main (F := Ideal))) ⟨m, fun _ => 0, ρ⟩ (fun r => ∀ c : Dev nD,
      r.2.mem ((c.tc : Thread nD τ).loc main_v152)
        = Cert.GnnSpec.netM (aggK (m ((c.tc : Thread nD τ).loc main_arg1))) (roK (m ((c.tc : Thread nD τ).loc main_arg2)))
            ⟨m ((c.tc : Thread nD τ).loc main_arg3), m ((c.tc : Thread nD τ).loc main_arg4), m ((c.tc : Thread nD τ).loc main_arg5),
             m ((c.tc : Thread nD τ).loc main_arg6), m ((c.tc : Thread nD τ).loc main_arg7), m ((c.tc : Thread nD τ).loc main_arg8),
             m ((c.tc : Thread nD τ).loc main_arg9), m ((c.tc : Thread nD τ).loc main_arg10)⟩
            (m ((c.tc : Thread nD τ).loc main_arg0)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (kernel_value m ρ c), (h c).2⟩) (KRun.run m ρ)

end Cert.KernelIdeal.Chain

end
-- ==== Proof.RefDefs.lean ====
/-
  The reference network's index arrays and its two row-sum maps, named once.

  The reference program builds, from the edge list and the graph assignment, four index columns (the edge sources
  and targets, the graph of every node, the same with negative entries wrapped) and two arrays of zeros; every
  layer rebuilds them by the same operations. They are named here from the first layer's stages, and the neighbour
  sums and per-graph read-outs are stated as functions of the node features through them.
-/
import proofs.«142960_j19688130085206_1_alg».proof.Defs
import proofs.«142960_j19688130085206_1_alg».proof.Proof.ReadPatched
import proofs.«142960_j19688130085206_1_alg».proof.Proof.Spec

noncomputable section

namespace Cert.ReferenceIdeal.RefValue

open Cert.ReferenceIdeal Cert.ReferenceIdeal.Gen Idealize.ShloMosaic Idealize.ShloMosaic.ValueIdx Cert.GnnSpec

/-- The edge sources as a column of row numbers (negative entries wrapped by the number of rows). -/
abbrev srcR (x1 : (⟨S2x800000, .i32⟩ : BufTy).Contents (Elt Ideal)) : IVec ⟨2, ![800000, 1]⟩ 32 := Read.val_main_v9 (F := Ideal) x1
/-- The edge targets as a column of row numbers. -/
abbrev dstR (x1 : (⟨S2x800000, .i32⟩ : BufTy).Contents (Elt Ideal)) : IVec ⟨2, ![800000, 1]⟩ 32 := Read.val_main_v12 (F := Ideal) x1
/-- The zeros the neighbour sums are added into. -/
abbrev zAggR : A2 50000 128 := Read.val_main_v11 (F := Ideal)
/-- The graph of every node, as a column. -/
abbrev bR (x2 : (⟨S50000, .i32⟩ : BufTy).Contents (Elt Ideal)) : IVec ⟨2, ![50000, 1]⟩ 32 := Read.val_main_v15 (F := Ideal) x2
/-- The graph of every node with negative entries wrapped by the number of graphs, as a column. -/
abbrev bR' (x2 : (⟨S50000, .i32⟩ : BufTy).Contents (Elt Ideal)) : IVec ⟨2, ![50000, 1]⟩ 32 := Read.val_main_v22 (F := Ideal) x2
/-- The zeros the per-graph sums are added into. -/
abbrev zRoR : A2 64 128 := Read.val_main_v14 (F := Ideal)

/-- The neighbour sums of the node features h along the edge list x1. -/
abbrev aggR (x1 : (⟨S2x800000, .i32⟩ : BufTy).Contents (Elt Ideal)) : A2 50000 128 → A2 50000 128 :=
  aggOf gather_S50000x128_S800000x1_S800000x128_1_0_n_n_0_1_1128 scatter_S50000x128_S800000x1_S800000x128_1_0_0_1
    zAggR (srcR x1) (dstR x1)
/-- The per-graph sums of the node features h under the graph assignment x2, read back at every node. -/
abbrev roR (x2 : (⟨S50000, .i32⟩ : BufTy).Contents (Elt Ideal)) : A2 50000 128 → A2 50000 128 :=
  roOf gather_S64x128_S50000x1_S50000x128_1_0_n_n_0_1_1128 scatter_S64x128_S50000x1_S50000x128_1_0_0_1
    zRoR (bR x2) (bR' x2)

/-! ## Index equations shared by the three layers -/

/-- Row p, column k: where the left factor of the product at (p, q) is read for the summation index k. -/
theorem lidx_eq (p : Fin 50000) (q k : Fin 128) : Read.lidx_main_v26 (ix2 p q) k = ix2 p k :=
  funext fun a => by match a with | ⟨0, _⟩ => rfl | ⟨1, _⟩ => rfl
/-- Row k, column q: where the right factor is read. -/
theorem ridx_eq (p : Fin 50000) (q k : Fin 128) : Read.ridx_main_v26 (ix2 p q) k = ix2 k q :=
  funext fun a => by match a with | ⟨0, _⟩ => rfl | ⟨1, _⟩ => rfl
/-- A column sum at column q reads row k of that column. -/
theorem sum_idx_eq (q : Fin 128) (k : Fin 50000) : Read.idx_main_v51 (ix1 q) k = ix2 k q :=
  funext fun a => by match a with | ⟨0, _⟩ => rfl | ⟨1, _⟩ => rfl
/-- A row vector spread over all rows is read at the column of the entry. -/
theorem row_idx_eq (p : Fin 50000) (q : Fin 128) : Read.idx_main_v54 (Read.idx_main_v55 (ix2 p q)) = ix1 q :=
  funext fun a => by match a with | ⟨0, _⟩ => rfl

end Cert.ReferenceIdeal.RefValue

end
-- ==== Proof.RefLayer0.lean ====
/-
  The first layer of the reference network is the specification's layer 0.

  The reference computes the layer in some eighty elementwise, slicing, spreading, summing and matrix-product
  steps. Read at an entry (p, q) they collapse to: the three affine maps of row p of the features, of the neighbour
  sums and of the read-outs against column q of the layer's weights, added and clamped below at zero; the mean and
  the centred variance of column q over the 50000 rows; and the normalisation with the layer's scale and shift.
-/
import proofs.«142960_j19688130085206_1_alg».proof.Proof.RefDefs

noncomputable section

namespace Cert.ReferenceIdeal.RefValue.L0

open Cert.ReferenceIdeal Cert.ReferenceIdeal.Gen Cert.ReferenceIdeal.RefValue Idealize.ShloMosaic Idealize.ShloMosaic.ValueIdx Cert.GnnSpec

/-! ## Where the layer's slices of the stacked weights are read -/

/-- Entry (k, q) of the layer's weight matrix is entry (0, k, q) of the stack. -/
theorem w_idx (k q : Fin 128) : Read.idx_main_v24 (Read.idx_main_v25 (ix2 k q)) = ix3 (0 : Fin 3) k q := by
  funext a; apply Fin.ext
  match a with
  | ⟨0, _⟩ => rfl
  | ⟨1, _⟩ => show (k.val * 128 + q.val) / 128 % 128 = k.val; have := k.isLt; have := q.isLt; omega
  | ⟨2, _⟩ => show (k.val * 128 + q.val) % 128 = q.val; have := k.isLt; have := q.isLt; omega

/-- Column q of the layer's row of a stacked vector, spread over all rows, is entry (0, q) of the stack. -/
theorem b_idx (p : Fin 50000) (q : Fin 128) : Read.idx_main_v27 (Read.idx_main_v28 (Read.idx_main_v29 (Read.idx_main_v30 (ix2 p q)))) = ix2 (0 : Fin 3) q := by
  funext a; apply Fin.ext
  match a with
  | ⟨0, _⟩ => rfl
  | ⟨1, _⟩ => show q.val % 128 = q.val; exact Nat.mod_eq_of_lt q.isLt

theorem wV (x3 : (⟨S3x128x128, .f32⟩ : BufTy).Contents (Elt Ideal)) (k q : Fin 128) : Read.val_main_v25 (F := Ideal) x3 (ix2 k q) = x3 (ix3 (0 : Fin 3) k q) := by
  rw [Read.val_main_v25_apply, Read.val_main_v24_apply]; exact congrArg x3 (w_idx k q)
theorem wA (x5 : (⟨S3x128x128, .f32⟩ : BufTy).Contents (Elt Ideal)) (k q : Fin 128) : Read.val_main_v33 (F := Ideal) x5 (ix2 k q) = x5 (ix3 (0 : Fin 3) k q) := by
  rw [Read.val_main_v33_apply, Read.val_main_v32_apply]; exact congrArg x5 (w_idx k q)
theorem wR (x7 : (⟨S3x128x128, .f32⟩ : BufTy).Contents (Elt Ideal)) (k q : Fin 128) : Read.val_main_v42 (F := Ideal) x7 (ix2 k q) = x7 (ix3 (0 : Fin 3) k q) := by
  rw [Read.val_main_v42_apply, Read.val_main_v41_apply]; exact congrArg x7 (w_idx k q)

theorem bV (x4 : (⟨S3x128, .f32⟩ : BufTy).Contents (Elt Ideal)) (p : Fin 50000) (q : Fin 128) : Read.val_main_v30 (F := Ideal) x4 (ix2 p q) = x4 (ix2 (0 : Fin 3) q) := by
  rw [Read.val_main_v30_apply, Read.val_main_v29_apply, Read.val_main_v28_apply, Read.val_main_v27_apply]; exact congrArg x4 (b_idx p q)
theorem bA (x6 : (⟨S3x128, .f32⟩ : BufTy).Contents (Elt Ideal)) (p : Fin 50000) (q : Fin 128) : Read.val_main_v38 (F := Ideal) x6 (ix2 p q) = x6 (ix2 (0 : Fin 3) q) := by
  rw [Read.val_main_v38_apply, Read.val_main_v37_apply, Read.val_main_v36_apply, Read.val_main_v35_apply]; exact congrArg x6 (b_idx p q)
theorem bRo (x8 : (⟨S3x128, .f32⟩ : BufTy).Contents (Elt Ideal)) (p : Fin 50000) (q : Fin 128) : Read.val_main_v47 (F := Ideal) x8 (ix2 p q) = x8 (ix2 (0 : Fin 3) q) := by
  rw [Read.val_main_v47_apply, Read.val_main_v46_apply, Read.val_main_v45_apply, Read.val_main_v44_apply]; exact congrArg x8 (b_idx p q)
theorem gam (x9 : (⟨S3x128, .f32⟩ : BufTy).Contents (Elt Ideal)) (p : Fin 50000) (q : Fin 128) : Read.val_main_v73 (F := Ideal) x9 (ix2 p q) = x9 (ix2 (0 : Fin 3) q) := by
  rw [Read.val_main_v73_apply, Read.val_main_v72_apply, Read.val_main_v71_apply, Read.val_main_v70_apply]; exact congrArg x9 (b_idx p q)
theorem bet (x10 : (⟨S3x128, .f32⟩ : BufTy).Contents (Elt Ideal)) (p : Fin 50000) (q : Fin 128) : Read.val_main_v78 (F := Ideal) x10 (ix2 p q) = x10 (ix2 (0 : Fin 3) q) := by
  rw [Read.val_main_v78_apply, Read.val_main_v77_apply, Read.val_main_v76_apply, Read.val_main_v75_apply]; exact congrArg x10 (b_idx p q)

/-! ## The index maps of the three products, the two column sums and the three spread row vectors -/

theorem lidxV (p : Fin 50000) (q k : Fin 128) : Read.lidx_main_v26 (ix2 p q) k = ix2 p k := lidx_eq p q k
theorem ridxV (p : Fin 50000) (q k : Fin 128) : Read.ridx_main_v26 (ix2 p q) k = ix2 k q := ridx_eq p q k
theorem lidxA (p : Fin 50000) (q k : Fin 128) : Read.lidx_main_v34 (ix2 p q) k = ix2 p k := lidx_eq p q k
theorem ridxA (p : Fin 50000) (q k : Fin 128) : Read.ridx_main_v34 (ix2 p q) k = ix2 k q := ridx_eq p q k
theorem lidxR (p : Fin 50000) (q k : Fin 128) : Read.lidx_main_v43 (ix2 p q) k = ix2 p k := lidx_eq p q k
theorem ridxR (p : Fin 50000) (q k : Fin 128) : Read.ridx_main_v43 (ix2 p q) k = ix2 k q := ridx_eq p q k
theorem sum1 (q : Fin 128) (k : Fin 50000) : Read.idx_main_v51 (ix1 q) k = ix2 k q := sum_idx_eq q k
theorem sum2 (q : Fin 128) (k : Fin 50000) : Read.idx_main_v58 (ix1 q) k = ix2 k q := sum_idx_eq q k
theorem row1 (p : Fin 50000) (q : Fin 128) : Read.idx_main_v54 (Read.idx_main_v55 (ix2 p q)) = ix1 q := row_idx_eq p q
theorem row2 (p : Fin 50000) (q : Fin 128) : Read.idx_main_v61 (Read.idx_main_v62 (ix2 p q)) = ix1 q := row_idx_eq p q
theorem row3 (p : Fin 50000) (q : Fin 128) : Read.idx_main_v67 (Read.idx_main_v68 (ix2 p q)) = ix1 q := row_idx_eq p q

/-! ## The neighbour sums and the read-outs of this layer are those of the first -/

theorem agg_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) : Read.val_main_v13 (F := Ideal) x0 x1 = aggR x1 x0 := rfl
theorem ro_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) : Read.val_main_v23 (F := Ideal) x0 x2 = roR x2 x0 := rfl

/-! ## The three affine maps -/

theorem linV (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v31 (F := Ideal) x0 x3 x4 (ix2 p q) = lin 0 x0 x3 x4 p q := by
  rw [Read.val_main_v31_apply, Read.val_main_v26_apply, bV, Ideal.addf_def]
  unfold lin
  refine congrArg₂ (· + ·) (Finset.sum_congr rfl fun k _ => ?_) rfl
  rw [lidxV, ridxV, wV]

theorem linA (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v39 (F := Ideal) x0 x1 x5 x6 (ix2 p q) = lin 0 (aggR x1 x0) x5 x6 p q := by
  rw [Read.val_main_v39_apply, Read.val_main_v34_apply, bA, agg_eq x0 x1 x2 x3 x4 x5 x6 x7 x8 x9 x10, Ideal.addf_def]
  unfold lin
  refine congrArg₂ (· + ·) (Finset.sum_congr rfl fun k _ => ?_) rfl
  rw [lidxA, ridxA, wA]

theorem linR (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v48 (F := Ideal) x0 x2 x7 x8 (ix2 p q) = lin 0 (roR x2 x0) x7 x8 p q := by
  rw [Read.val_main_v48_apply, Read.val_main_v43_apply, bRo, ro_eq x0 x1 x2 x3 x4 x5 x6 x7 x8 x9 x10, Ideal.addf_def]
  unfold lin
  refine congrArg₂ (· + ·) (Finset.sum_congr rfl fun k _ => ?_) rfl
  rw [lidxR, ridxR, wR]

/-! ## The clamped sum, its column means and variances, and the normalised layer -/

theorem pre_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) :
    Read.val_main_v50 (F := Ideal) x0 x1 x2 x3 x4 x5 x6 x7 x8 = pre 0 ⟨x3, x4, x5, x6, x7, x8, x9, x10⟩ x0 (aggR x1 x0) (roR x2 x0) := by
  funext i
  obtain ⟨p, q, rfl⟩ : ∃ (p : Fin 50000) (q : Fin 128), i = ix2 p q := ⟨i 0, i 1, eq_ix2 i⟩
  rw [Read.val_main_v50_apply, Read.val_main_v49_apply, Read.val_main_v40_apply, linV x0 x1 x2 x3 x4 x5 x6 x7 x8 x9 x10, linA x0 x1 x2 x3 x4 x5 x6 x7 x8 x9 x10, linR x0 x1 x2 x3 x4 x5 x6 x7 x8 x9 x10,
    Read.val_main_call0_v0_apply, Read.val_main_call0_cst_apply]
  simp only [Ideal.addf_def, Ideal.maximumf_def, Ideal.ofBits_def, Ideal.ofBits_zero_f32]
  rfl

theorem mean_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (q : Fin 128) :
    Read.val_main_v53 (F := Ideal) x0 x1 x2 x3 x4 x5 x6 x7 x8 (ix1 q) = mean (Read.val_main_v50 (F := Ideal) x0 x1 x2 x3 x4 x5 x6 x7 x8) q := by
  rw [Read.val_main_v53_apply, Read.val_main_v51_apply, Read.val_main_v52_apply, Read.val_main_cst_4_apply, Read.val_main_cst_5_apply]
  simp only [Ideal.hostDivf_def, Ideal.ofBits_def, Ideal.ofBits_zero_f32, zero_add]
  unfold mean colsum
  refine congrArg₂ Ideal.div (Finset.sum_congr rfl fun k _ => ?_) rfl
  rw [sum1]

theorem var_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (q : Fin 128) :
    Read.val_main_v60 (F := Ideal) x0 x1 x2 x3 x4 x5 x6 x7 x8 (ix1 q) = varC (Read.val_main_v50 (F := Ideal) x0 x1 x2 x3 x4 x5 x6 x7 x8) q := by
  rw [Read.val_main_v60_apply, Read.val_main_v58_apply, Read.val_main_v59_apply, Read.val_main_cst_6_apply, Read.val_main_cst_7_apply]
  simp only [Ideal.hostDivf_def, Ideal.ofBits_def, Ideal.ofBits_zero_f32, zero_add]
  unfold varC
  refine congrArg₂ Ideal.div (Finset.sum_congr rfl fun k _ => ?_) rfl
  rw [sum2, Read.val_main_v57_apply, Read.val_main_v56_apply, Read.val_main_v55_apply, Read.val_main_v54_apply, row1, mean_eq x0 x1 x2 x3 x4 x5 x6 x7 x8 x9 x10]
  rfl

/-- The layer's output is the specification's layer 0 of the previous features, with the neighbour sums and the
    read-outs of those features. -/
theorem layer_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) :
    Read.val_main_v79 (F := Ideal) x0 x1 x2 x3 x4 x5 x6 x7 x8 x9 x10 = layerC 0 ⟨x3, x4, x5, x6, x7, x8, x9, x10⟩ x0 (aggR x1 x0) (roR x2 x0) := by
  funext i
  obtain ⟨p, q, rfl⟩ : ∃ (p : Fin 50000) (q : Fin 128), i = ix2 p q := ⟨i 0, i 1, eq_ix2 i⟩
  rw [Read.val_main_v79_apply, Read.val_main_v74_apply, Read.val_main_v69_apply, Read.val_main_v63_apply, Read.val_main_v62_apply, Read.val_main_v61_apply, row2, mean_eq x0 x1 x2 x3 x4 x5 x6 x7 x8 x9 x10,
    Read.val_main_v68_apply, Read.val_main_v67_apply, row3, Read.val_main_v66_apply, Read.val_main_v65_apply, var_eq x0 x1 x2 x3 x4 x5 x6 x7 x8 x9 x10, Read.val_main_v64_apply, Read.val_main_cst_8_apply, gam, bet,
    pre_eq x0 x1 x2 x3 x4 x5 x6 x7 x8 x9 x10]
  simp only [Ideal.addf_def, Ideal.mulf_def, Ideal.subf_def, Ideal.hostUnary_rsqrt_def, Ideal.ofBits_def]
  rfl

end Cert.ReferenceIdeal.RefValue.L0

end
-- ==== Proof.RefLayer1.lean ====
/-
  The second layer of the reference network is the specification's layer 1 of the first layer's features.

  The steps are those of the first layer with the next slice of every stacked weight; the index columns and the
  arrays of zeros the layer rebuilds are the first layer's, so the neighbour sums and the read-outs are the same two
  maps, now applied to the first layer's features.
-/
import proofs.«142960_j19688130085206_1_alg».proof.Proof.RefDefs

noncomputable section

namespace Cert.ReferenceIdeal.RefValue.L1

open Cert.ReferenceIdeal Cert.ReferenceIdeal.Gen Cert.ReferenceIdeal.RefValue Idealize.ShloMosaic Idealize.ShloMosaic.ValueIdx Cert.GnnSpec

/-! ## Where the layer's slices of the stacked weights are read -/

/-- Entry (k, q) of the layer's weight matrix is entry (1, k, q) of the stack. -/
theorem w_idx (k q : Fin 128) : Read.idx_main_v100 (Read.idx_main_v101 (ix2 k q)) = ix3 (1 : Fin 3) k q := by
  funext a; apply Fin.ext
  match a with
  | ⟨0, _⟩ => rfl
  | ⟨1, _⟩ => show (k.val * 128 + q.val) / 128 % 128 = k.val; have := k.isLt; have := q.isLt; omega
  | ⟨2, _⟩ => show (k.val * 128 + q.val) % 128 = q.val; have := k.isLt; have := q.isLt; omega

/-- Column q of the layer's row of a stacked vector, spread over all rows, is entry (1, q) of the stack. -/
theorem b_idx (p : Fin 50000) (q : Fin 128) : Read.idx_main_v103 (Read.idx_main_v104 (Read.idx_main_v105 (Read.idx_main_v106 (ix2 p q)))) = ix2 (1 : Fin 3) q := by
  funext a; apply Fin.ext
  match a with
  | ⟨0, _⟩ => rfl
  | ⟨1, _⟩ => show q.val % 128 = q.val; exact Nat.mod_eq_of_lt q.isLt

theorem wV (x3 : (⟨S3x128x128, .f32⟩ : BufTy).Contents (Elt Ideal)) (k q : Fin 128) : Read.val_main_v101 (F := Ideal) x3 (ix2 k q) = x3 (ix3 (1 : Fin 3) k q) := by
  rw [Read.val_main_v101_apply, Read.val_main_v100_apply]; exact congrArg x3 (w_idx k q)
theorem wA (x5 : (⟨S3x128x128, .f32⟩ : BufTy).Contents (Elt Ideal)) (k q : Fin 128) : Read.val_main_v109 (F := Ideal) x5 (ix2 k q) = x5 (ix3 (1 : Fin 3) k q) := by
  rw [Read.val_main_v109_apply, Read.val_main_v108_apply]; exact congrArg x5 (w_idx k q)
theorem wR (x7 : (⟨S3x128x128, .f32⟩ : BufTy).Contents (Elt Ideal)) (k q : Fin 128) : Read.val_main_v118 (F := Ideal) x7 (ix2 k q) = x7 (ix3 (1 : Fin 3) k q) := by
  rw [Read.val_main_v118_apply, Read.val_main_v117_apply]; exact congrArg x7 (w_idx k q)

theorem bV (x4 : (⟨S3x128, .f32⟩ : BufTy).Contents (Elt Ideal)) (p : Fin 50000) (q : Fin 128) : Read.val_main_v106 (F := Ideal) x4 (ix2 p q) = x4 (ix2 (1 : Fin 3) q) := by
  rw [Read.val_main_v106_apply, Read.val_main_v105_apply, Read.val_main_v104_apply, Read.val_main_v103_apply]; exact congrArg x4 (b_idx p q)
theorem bA (x6 : (⟨S3x128, .f32⟩ : BufTy).Contents (Elt Ideal)) (p : Fin 50000) (q : Fin 128) : Read.val_main_v114 (F := Ideal) x6 (ix2 p q) = x6 (ix2 (1 : Fin 3) q) := by
  rw [Read.val_main_v114_apply, Read.val_main_v113_apply, Read.val_main_v112_apply, Read.val_main_v111_apply]; exact congrArg x6 (b_idx p q)
theorem bRo (x8 : (⟨S3x128, .f32⟩ : BufTy).Contents (Elt Ideal)) (p : Fin 50000) (q : Fin 128) : Read.val_main_v123 (F := Ideal) x8 (ix2 p q) = x8 (ix2 (1 : Fin 3) q) := by
  rw [Read.val_main_v123_apply, Read.val_main_v122_apply, Read.val_main_v121_apply, Read.val_main_v120_apply]; exact congrArg x8 (b_idx p q)
theorem gam (x9 : (⟨S3x128, .f32⟩ : BufTy).Contents (Elt Ideal)) (p : Fin 50000) (q : Fin 128) : Read.val_main_v149 (F := Ideal) x9 (ix2 p q) = x9 (ix2 (1 : Fin 3) q) := by
  rw [Read.val_main_v149_apply, Read.val_main_v148_apply, Read.val_main_v147_apply, Read.val_main_v146_apply]; exact congrArg x9 (b_idx p q)
theorem bet (x10 : (⟨S3x128, .f32⟩ : BufTy).Contents (Elt Ideal)) (p : Fin 50000) (q : Fin 128) : Read.val_main_v154 (F := Ideal) x10 (ix2 p q) = x10 (ix2 (1 : Fin 3) q) := by
  rw [Read.val_main_v154_apply, Read.val_main_v153_apply, Read.val_main_v152_apply, Read.val_main_v151_apply]; exact congrArg x10 (b_idx p q)

/-! ## The index maps of the three products, the two column sums and the three spread row vectors -/

theorem lidxV (p : Fin 50000) (q k : Fin 128) : Read.lidx_main_v102 (ix2 p q) k = ix2 p k := lidx_eq p q k
theorem ridxV (p : Fin 50000) (q k : Fin 128) : Read.ridx_main_v102 (ix2 p q) k = ix2 k q := ridx_eq p q k
theorem lidxA (p : Fin 50000) (q k : Fin 128) : Read.lidx_main_v110 (ix2 p q) k = ix2 p k := lidx_eq p q k
theorem ridxA (p : Fin 50000) (q k : Fin 128) : Read.ridx_main_v110 (ix2 p q) k = ix2 k q := ridx_eq p q k
theorem lidxR (p : Fin 50000) (q k : Fin 128) : Read.lidx_main_v119 (ix2 p q) k = ix2 p k := lidx_eq p q k
theorem ridxR (p : Fin 50000) (q k : Fin 128) : Read.ridx_main_v119 (ix2 p q) k = ix2 k q := ridx_eq p q k
theorem sum1 (q : Fin 128) (k : Fin 50000) : Read.idx_main_v127 (ix1 q) k = ix2 k q := sum_idx_eq q k
theorem sum2 (q : Fin 128) (k : Fin 50000) : Read.idx_main_v134 (ix1 q) k = ix2 k q := sum_idx_eq q k
theorem row1 (p : Fin 50000) (q : Fin 128) : Read.idx_main_v130 (Read.idx_main_v131 (ix2 p q)) = ix1 q := row_idx_eq p q
theorem row2 (p : Fin 50000) (q : Fin 128) : Read.idx_main_v137 (Read.idx_main_v138 (ix2 p q)) = ix1 q := row_idx_eq p q
theorem row3 (p : Fin 50000) (q : Fin 128) : Read.idx_main_v143 (Read.idx_main_v144 (ix2 p q)) = ix1 q := row_idx_eq p q

/-! ## The neighbour sums and the read-outs of this layer are those of the first -/

theorem agg_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) : Read.val_main_v89 (F := Ideal) x0 x1 x2 x3 x4 x5 x6 x7 x8 x9 x10 = aggR x1 (Read.val_main_v79 (F := Ideal) x0 x1 x2 x3 x4 x5 x6 x7 x8 x9 x10) := rfl
theorem ro_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) : Read.val_main_v99 (F := Ideal) x0 x1 x2 x3 x4 x5 x6 x7 x8 x9 x10 = roR x2 (Read.val_main_v79 (F := Ideal) x0 x1 x2 x3 x4 x5 x6 x7 x8 x9 x10) := rfl

/-! ## The three affine maps -/

theorem linV (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v107 (F := Ideal) x0 x1 x2 x3 x4 x5 x6 x7 x8 x9 x10 (ix2 p q) = lin 1 (Read.val_main_v79 (F := Ideal) x0 x1 x2 x3 x4 x5 x6 x7 x8 x9 x10) x3 x4 p q := by
  rw [Read.val_main_v107_apply, Read.val_main_v102_apply, bV, Ideal.addf_def]
  unfold lin
  refine congrArg₂ (· + ·) (Finset.sum_congr rfl fun k _ => ?_) rfl
  rw [lidxV, ridxV, wV]

theorem linA (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v115 (F := Ideal) x0 x1 x2 x3 x4 x5 x6 x7 x8 x9 x10 (ix2 p q) = lin 1 (aggR x1 (Read.val_main_v79 (F := Ideal) x0 x1 x2 x3 x4 x5 x6 x7 x8 x9 x10)) x5 x6 p q := by
  rw [Read.val_main_v115_apply, Read.val_main_v110_apply, bA, agg_eq x0 x1 x2 x3 x4 x5 x6 x7 x8 x9 x10, Ideal.addf_def]
  unfold lin
  refine congrArg₂ (· + ·) (Finset.sum_congr rfl fun k _ => ?_) rfl
  rw [lidxA, ridxA, wA]

theorem linR (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v124 (F := Ideal) x0 x1 x2 x3 x4 x5 x6 x7 x8 x9 x10 (ix2 p q) = lin 1 (roR x2 (Read.val_main_v79 (F := Ideal) x0 x1 x2 x3 x4 x5 x6 x7 x8 x9 x10)) x7 x8 p q := by
  rw [Read.val_main_v124_apply, Read.val_main_v119_apply, bRo, ro_eq x0 x1 x2 x3 x4 x5 x6 x7 x8 x9 x10, Ideal.addf_def]
  unfold lin
  refine congrArg₂ (· + ·) (Finset.sum_congr rfl fun k _ => ?_) rfl
  rw [lidxR, ridxR, wR]

/-! ## The clamped sum, its column means and variances, and the normalised layer -/

theorem pre_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) :
    Read.val_main_v126 (F := Ideal) x0 x1 x2 x3 x4 x5 x6 x7 x8 x9 x10 = pre 1 ⟨x3, x4, x5, x6, x7, x8, x9, x10⟩ (Read.val_main_v79 (F := Ideal) x0 x1 x2 x3 x4 x5 x6 x7 x8 x9 x10) (aggR x1 (Read.val_main_v79 (F := Ideal) x0 x1 x2 x3 x4 x5 x6 x7 x8 x9 x10)) (roR x2 (Read.val_main_v79 (F := Ideal) x0 x1 x2 x3 x4 x5 x6 x7 x8 x9 x10)) := by
  funext i
  obtain ⟨p, q, rfl⟩ : ∃ (p : Fin 50000) (q : Fin 128), i = ix2 p q := ⟨i 0, i 1, eq_ix2 i⟩
  rw [Read.val_main_v126_apply, Read.val_main_v125_apply, Read.val_main_v116_apply, linV x0 x1 x2 x3 x4 x5 x6 x7 x8 x9 x10, linA x0 x1 x2 x3 x4 x5 x6 x7 x8 x9 x10, linR x0 x1 x2 x3 x4 x5 x6 x7 x8 x9 x10,
    Read.val_main_call1_v0_apply, Read.val_main_call1_cst_apply]
  simp only [Ideal.addf_def, Ideal.maximumf_def, Ideal.ofBits_def, Ideal.ofBits_zero_f32]
  rfl

theorem mean_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (q : Fin 128) :
    Read.val_main_v129 (F := Ideal) x0 x1 x2 x3 x4 x5 x6 x7 x8 x9 x10 (ix1 q) = mean (Read.val_main_v126 (F := Ideal) x0 x1 x2 x3 x4 x5 x6 x7 x8 x9 x10) q := by
  rw [Read.val_main_v129_apply, Read.val_main_v127_apply, Read.val_main_v128_apply, Read.val_main_cst_15_apply, Read.val_main_cst_16_apply]
  simp only [Ideal.hostDivf_def, Ideal.ofBits_def, Ideal.ofBits_zero_f32, zero_add]
  unfold mean colsum
  refine congrArg₂ Ideal.div (Finset.sum_congr rfl fun k _ => ?_) rfl
  rw [sum1]

theorem var_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (q : Fin 128) :
    Read.val_main_v136 (F := Ideal) x0 x1 x2 x3 x4 x5 x6 x7 x8 x9 x10 (ix1 q) = varC (Read.val_main_v126 (F := Ideal) x0 x1 x2 x3 x4 x5 x6 x7 x8 x9 x10) q := by
  rw [Read.val_main_v136_apply, Read.val_main_v134_apply, Read.val_main_v135_apply, Read.val_main_cst_17_apply, Read.val_main_cst_18_apply]
  simp only [Ideal.hostDivf_def, Ideal.ofBits_def, Ideal.ofBits_zero_f32, zero_add]
  unfold varC
  refine congrArg₂ Ideal.div (Finset.sum_congr rfl fun k _ => ?_) rfl
  rw [sum2, Read.val_main_v133_apply, Read.val_main_v132_apply, Read.val_main_v131_apply, Read.val_main_v130_apply, row1, mean_eq x0 x1 x2 x3 x4 x5 x6 x7 x8 x9 x10]
  rfl

/-- The layer's output is the specification's layer 1 of the previous features, with the neighbour sums and the
    read-outs of those features. -/
theorem layer_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) :
    Read.val_main_v155 (F := Ideal) x0 x1 x2 x3 x4 x5 x6 x7 x8 x9 x10 = layerC 1 ⟨x3, x4, x5, x6, x7, x8, x9, x10⟩ (Read.val_main_v79 (F := Ideal) x0 x1 x2 x3 x4 x5 x6 x7 x8 x9 x10) (aggR x1 (Read.val_main_v79 (F := Ideal) x0 x1 x2 x3 x4 x5 x6 x7 x8 x9 x10)) (roR x2 (Read.val_main_v79 (F := Ideal) x0 x1 x2 x3 x4 x5 x6 x7 x8 x9 x10)) := by
  funext i
  obtain ⟨p, q, rfl⟩ : ∃ (p : Fin 50000) (q : Fin 128), i = ix2 p q := ⟨i 0, i 1, eq_ix2 i⟩
  rw [Read.val_main_v155_apply, Read.val_main_v150_apply, Read.val_main_v145_apply, Read.val_main_v139_apply, Read.val_main_v138_apply, Read.val_main_v137_apply, row2, mean_eq x0 x1 x2 x3 x4 x5 x6 x7 x8 x9 x10,
    Read.val_main_v144_apply, Read.val_main_v143_apply, row3, Read.val_main_v142_apply, Read.val_main_v141_apply, var_eq x0 x1 x2 x3 x4 x5 x6 x7 x8 x9 x10, Read.val_main_v140_apply, Read.val_main_cst_19_apply, gam, bet,
    pre_eq x0 x1 x2 x3 x4 x5 x6 x7 x8 x9 x10]
  simp only [Ideal.addf_def, Ideal.mulf_def, Ideal.subf_def, Ideal.hostUnary_rsqrt_def, Ideal.ofBits_def]
  rfl

end Cert.ReferenceIdeal.RefValue.L1

end
-- ==== Proof.RefLayer2.lean ====
/-
  The third layer of the reference network is the specification's layer 2 of the second layer's features.

  The steps are those of the first layer with the next slice of every stacked weight; the index columns and the
  arrays of zeros the layer rebuilds are the first layer's, so the neighbour sums and the read-outs are the same two
  maps, now applied to the second layer's features.
-/
import proofs.«142960_j19688130085206_1_alg».proof.Proof.RefDefs

noncomputable section

namespace Cert.ReferenceIdeal.RefValue.L2

open Cert.ReferenceIdeal Cert.ReferenceIdeal.Gen Cert.ReferenceIdeal.RefValue Idealize.ShloMosaic Idealize.ShloMosaic.ValueIdx Cert.GnnSpec

/-! ## Where the layer's slices of the stacked weights are read -/

/-- Entry (k, q) of the layer's weight matrix is entry (2, k, q) of the stack. -/
theorem w_idx (k q : Fin 128) : Read.idx_main_v176 (Read.idx_main_v177 (ix2 k q)) = ix3 (2 : Fin 3) k q := by
  funext a; apply Fin.ext
  match a with
  | ⟨0, _⟩ => rfl
  | ⟨1, _⟩ => show (k.val * 128 + q.val) / 128 % 128 = k.val; have := k.isLt; have := q.isLt; omega
  | ⟨2, _⟩ => show (k.val * 128 + q.val) % 128 = q.val; have := k.isLt; have := q.isLt; omega

/-- Column q of the layer's row of a stacked vector, spread over all rows, is entry (2, q) of the stack. -/
theorem b_idx (p : Fin 50000) (q : Fin 128) : Read.idx_main_v179 (Read.idx_main_v180 (Read.idx_main_v181 (Read.idx_main_v182 (ix2 p q)))) = ix2 (2 : Fin 3) q := by
  funext a; apply Fin.ext
  match a with
  | ⟨0, _⟩ => rfl
  | ⟨1, _⟩ => show q.val % 128 = q.val; exact Nat.mod_eq_of_lt q.isLt

theorem wV (x3 : (⟨S3x128x128, .f32⟩ : BufTy).Contents (Elt Ideal)) (k q : Fin 128) : Read.val_main_v177 (F := Ideal) x3 (ix2 k q) = x3 (ix3 (2 : Fin 3) k q) := by
  rw [Read.val_main_v177_apply, Read.val_main_v176_apply]; exact congrArg x3 (w_idx k q)
theorem wA (x5 : (⟨S3x128x128, .f32⟩ : BufTy).Contents (Elt Ideal)) (k q : Fin 128) : Read.val_main_v185 (F := Ideal) x5 (ix2 k q) = x5 (ix3 (2 : Fin 3) k q) := by
  rw [Read.val_main_v185_apply, Read.val_main_v184_apply]; exact congrArg x5 (w_idx k q)
theorem wR (x7 : (⟨S3x128x128, .f32⟩ : BufTy).Contents (Elt Ideal)) (k q : Fin 128) : Read.val_main_v194 (F := Ideal) x7 (ix2 k q) = x7 (ix3 (2 : Fin 3) k q) := by
  rw [Read.val_main_v194_apply, Read.val_main_v193_apply]; exact congrArg x7 (w_idx k q)

theorem bV (x4 : (⟨S3x128, .f32⟩ : BufTy).Contents (Elt Ideal)) (p : Fin 50000) (q : Fin 128) : Read.val_main_v182 (F := Ideal) x4 (ix2 p q) = x4 (ix2 (2 : Fin 3) q) := by
  rw [Read.val_main_v182_apply, Read.val_main_v181_apply, Read.val_main_v180_apply, Read.val_main_v179_apply]; exact congrArg x4 (b_idx p q)
theorem bA (x6 : (⟨S3x128, .f32⟩ : BufTy).Contents (Elt Ideal)) (p : Fin 50000) (q : Fin 128) : Read.val_main_v190 (F := Ideal) x6 (ix2 p q) = x6 (ix2 (2 : Fin 3) q) := by
  rw [Read.val_main_v190_apply, Read.val_main_v189_apply, Read.val_main_v188_apply, Read.val_main_v187_apply]; exact congrArg x6 (b_idx p q)
theorem bRo (x8 : (⟨S3x128, .f32⟩ : BufTy).Contents (Elt Ideal)) (p : Fin 50000) (q : Fin 128) : Read.val_main_v199 (F := Ideal) x8 (ix2 p q) = x8 (ix2 (2 : Fin 3) q) := by
  rw [Read.val_main_v199_apply, Read.val_main_v198_apply, Read.val_main_v197_apply, Read.val_main_v196_apply]; exact congrArg x8 (b_idx p q)
theorem gam (x9 : (⟨S3x128, .f32⟩ : BufTy).Contents (Elt Ideal)) (p : Fin 50000) (q : Fin 128) : Read.val_main_v225 (F := Ideal) x9 (ix2 p q) = x9 (ix2 (2 : Fin 3) q) := by
  rw [Read.val_main_v225_apply, Read.val_main_v224_apply, Read.val_main_v223_apply, Read.val_main_v222_apply]; exact congrArg x9 (b_idx p q)
theorem bet (x10 : (⟨S3x128, .f32⟩ : BufTy).Contents (Elt Ideal)) (p : Fin 50000) (q : Fin 128) : Read.val_main_v230 (F := Ideal) x10 (ix2 p q) = x10 (ix2 (2 : Fin 3) q) := by
  rw [Read.val_main_v230_apply, Read.val_main_v229_apply, Read.val_main_v228_apply, Read.val_main_v227_apply]; exact congrArg x10 (b_idx p q)

/-! ## The index maps of the three products, the two column sums and the three spread row vectors -/

theorem lidxV (p : Fin 50000) (q k : Fin 128) : Read.lidx_main_v178 (ix2 p q) k = ix2 p k := lidx_eq p q k
theorem ridxV (p : Fin 50000) (q k : Fin 128) : Read.ridx_main_v178 (ix2 p q) k = ix2 k q := ridx_eq p q k
theorem lidxA (p : Fin 50000) (q k : Fin 128) : Read.lidx_main_v186 (ix2 p q) k = ix2 p k := lidx_eq p q k
theorem ridxA (p : Fin 50000) (q k : Fin 128) : Read.ridx_main_v186 (ix2 p q) k = ix2 k q := ridx_eq p q k
theorem lidxR (p : Fin 50000) (q k : Fin 128) : Read.lidx_main_v195 (ix2 p q) k = ix2 p k := lidx_eq p q k
theorem ridxR (p : Fin 50000) (q k : Fin 128) : Read.ridx_main_v195 (ix2 p q) k = ix2 k q := ridx_eq p q k
theorem sum1 (q : Fin 128) (k : Fin 50000) : Read.idx_main_v203 (ix1 q) k = ix2 k q := sum_idx_eq q k
theorem sum2 (q : Fin 128) (k : Fin 50000) : Read.idx_main_v210 (ix1 q) k = ix2 k q := sum_idx_eq q k
theorem row1 (p : Fin 50000) (q : Fin 128) : Read.idx_main_v206 (Read.idx_main_v207 (ix2 p q)) = ix1 q := row_idx_eq p q
theorem row2 (p : Fin 50000) (q : Fin 128) : Read.idx_main_v213 (Read.idx_main_v214 (ix2 p q)) = ix1 q := row_idx_eq p q
theorem row3 (p : Fin 50000) (q : Fin 128) : Read.idx_main_v219 (Read.idx_main_v220 (ix2 p q)) = ix1 q := row_idx_eq p q

/-! ## The neighbour sums and the read-outs of this layer are those of the first -/

theorem agg_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) : Read.val_main_v165 (F := Ideal) x0 x1 x2 x3 x4 x5 x6 x7 x8 x9 x10 = aggR x1 (Read.val_main_v155 (F := Ideal) x0 x1 x2 x3 x4 x5 x6 x7 x8 x9 x10) := rfl
theorem ro_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) : Read.val_main_v175 (F := Ideal) x0 x1 x2 x3 x4 x5 x6 x7 x8 x9 x10 = roR x2 (Read.val_main_v155 (F := Ideal) x0 x1 x2 x3 x4 x5 x6 x7 x8 x9 x10) := rfl

/-! ## The three affine maps -/

theorem linV (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v183 (F := Ideal) x0 x1 x2 x3 x4 x5 x6 x7 x8 x9 x10 (ix2 p q) = lin 2 (Read.val_main_v155 (F := Ideal) x0 x1 x2 x3 x4 x5 x6 x7 x8 x9 x10) x3 x4 p q := by
  rw [Read.val_main_v183_apply, Read.val_main_v178_apply, bV, Ideal.addf_def]
  unfold lin
  refine congrArg₂ (· + ·) (Finset.sum_congr rfl fun k _ => ?_) rfl
  rw [lidxV, ridxV, wV]

theorem linA (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v191 (F := Ideal) x0 x1 x2 x3 x4 x5 x6 x7 x8 x9 x10 (ix2 p q) = lin 2 (aggR x1 (Read.val_main_v155 (F := Ideal) x0 x1 x2 x3 x4 x5 x6 x7 x8 x9 x10)) x5 x6 p q := by
  rw [Read.val_main_v191_apply, Read.val_main_v186_apply, bA, agg_eq x0 x1 x2 x3 x4 x5 x6 x7 x8 x9 x10, Ideal.addf_def]
  unfold lin
  refine congrArg₂ (· + ·) (Finset.sum_congr rfl fun k _ => ?_) rfl
  rw [lidxA, ridxA, wA]

theorem linR (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (p : Fin 50000) (q : Fin 128) :
    Read.val_main_v200 (F := Ideal) x0 x1 x2 x3 x4 x5 x6 x7 x8 x9 x10 (ix2 p q) = lin 2 (roR x2 (Read.val_main_v155 (F := Ideal) x0 x1 x2 x3 x4 x5 x6 x7 x8 x9 x10)) x7 x8 p q := by
  rw [Read.val_main_v200_apply, Read.val_main_v195_apply, bRo, ro_eq x0 x1 x2 x3 x4 x5 x6 x7 x8 x9 x10, Ideal.addf_def]
  unfold lin
  refine congrArg₂ (· + ·) (Finset.sum_congr rfl fun k _ => ?_) rfl
  rw [lidxR, ridxR, wR]

/-! ## The clamped sum, its column means and variances, and the normalised layer -/

theorem pre_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) :
    Read.val_main_v202 (F := Ideal) x0 x1 x2 x3 x4 x5 x6 x7 x8 x9 x10 = pre 2 ⟨x3, x4, x5, x6, x7, x8, x9, x10⟩ (Read.val_main_v155 (F := Ideal) x0 x1 x2 x3 x4 x5 x6 x7 x8 x9 x10) (aggR x1 (Read.val_main_v155 (F := Ideal) x0 x1 x2 x3 x4 x5 x6 x7 x8 x9 x10)) (roR x2 (Read.val_main_v155 (F := Ideal) x0 x1 x2 x3 x4 x5 x6 x7 x8 x9 x10)) := by
  funext i
  obtain ⟨p, q, rfl⟩ : ∃ (p : Fin 50000) (q : Fin 128), i = ix2 p q := ⟨i 0, i 1, eq_ix2 i⟩
  rw [Read.val_main_v202_apply, Read.val_main_v201_apply, Read.val_main_v192_apply, linV x0 x1 x2 x3 x4 x5 x6 x7 x8 x9 x10, linA x0 x1 x2 x3 x4 x5 x6 x7 x8 x9 x10, linR x0 x1 x2 x3 x4 x5 x6 x7 x8 x9 x10,
    Read.val_main_call2_v0_apply, Read.val_main_call2_cst_apply]
  simp only [Ideal.addf_def, Ideal.maximumf_def, Ideal.ofBits_def, Ideal.ofBits_zero_f32]
  rfl

theorem mean_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (q : Fin 128) :
    Read.val_main_v205 (F := Ideal) x0 x1 x2 x3 x4 x5 x6 x7 x8 x9 x10 (ix1 q) = mean (Read.val_main_v202 (F := Ideal) x0 x1 x2 x3 x4 x5 x6 x7 x8 x9 x10) q := by
  rw [Read.val_main_v205_apply, Read.val_main_v203_apply, Read.val_main_v204_apply, Read.val_main_cst_26_apply, Read.val_main_cst_27_apply]
  simp only [Ideal.hostDivf_def, Ideal.ofBits_def, Ideal.ofBits_zero_f32, zero_add]
  unfold mean colsum
  refine congrArg₂ Ideal.div (Finset.sum_congr rfl fun k _ => ?_) rfl
  rw [sum1]

theorem var_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (q : Fin 128) :
    Read.val_main_v212 (F := Ideal) x0 x1 x2 x3 x4 x5 x6 x7 x8 x9 x10 (ix1 q) = varC (Read.val_main_v202 (F := Ideal) x0 x1 x2 x3 x4 x5 x6 x7 x8 x9 x10) q := by
  rw [Read.val_main_v212_apply, Read.val_main_v210_apply, Read.val_main_v211_apply, Read.val_main_cst_28_apply, Read.val_main_cst_29_apply]
  simp only [Ideal.hostDivf_def, Ideal.ofBits_def, Ideal.ofBits_zero_f32, zero_add]
  unfold varC
  refine congrArg₂ Ideal.div (Finset.sum_congr rfl fun k _ => ?_) rfl
  rw [sum2, Read.val_main_v209_apply, Read.val_main_v208_apply, Read.val_main_v207_apply, Read.val_main_v206_apply, row1, mean_eq x0 x1 x2 x3 x4 x5 x6 x7 x8 x9 x10]
  rfl

/-- The layer's output is the specification's layer 2 of the previous features, with the neighbour sums and the
    read-outs of those features. -/
theorem layer_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) :
    Read.val_main_v231 (F := Ideal) x0 x1 x2 x3 x4 x5 x6 x7 x8 x9 x10 = layerC 2 ⟨x3, x4, x5, x6, x7, x8, x9, x10⟩ (Read.val_main_v155 (F := Ideal) x0 x1 x2 x3 x4 x5 x6 x7 x8 x9 x10) (aggR x1 (Read.val_main_v155 (F := Ideal) x0 x1 x2 x3 x4 x5 x6 x7 x8 x9 x10)) (roR x2 (Read.val_main_v155 (F := Ideal) x0 x1 x2 x3 x4 x5 x6 x7 x8 x9 x10)) := by
  funext i
  obtain ⟨p, q, rfl⟩ : ∃ (p : Fin 50000) (q : Fin 128), i = ix2 p q := ⟨i 0, i 1, eq_ix2 i⟩
  rw [Read.val_main_v231_apply, Read.val_main_v226_apply, Read.val_main_v221_apply, Read.val_main_v215_apply, Read.val_main_v214_apply, Read.val_main_v213_apply, row2, mean_eq x0 x1 x2 x3 x4 x5 x6 x7 x8 x9 x10,
    Read.val_main_v220_apply, Read.val_main_v219_apply, row3, Read.val_main_v218_apply, Read.val_main_v217_apply, var_eq x0 x1 x2 x3 x4 x5 x6 x7 x8 x9 x10, Read.val_main_v216_apply, Read.val_main_cst_30_apply, gam, bet,
    pre_eq x0 x1 x2 x3 x4 x5 x6 x7 x8 x9 x10]
  simp only [Ideal.addf_def, Ideal.mulf_def, Ideal.subf_def, Ideal.hostUnary_rsqrt_def, Ideal.ofBits_def]
  rfl

end Cert.ReferenceIdeal.RefValue.L2

end
-- ==== Proof.RefValue.lean ====
/-
  The reference network, as a whole, is the specification's network in centred-variance form.

  The last four steps of the reference are one more affine map, into 64 columns: read at an entry (p, q) they are
  row p of the last layer's features against column q of the head's weights, plus the head's bias at q. With the
  three layers identified one by one, the value the reference returns is the specification's composition of the
  three layers and the head, each layer taking the neighbour sums and the read-outs of the features before it.
-/
import proofs.«142960_j19688130085206_1_alg».proof.Defs
import proofs.«142960_j19688130085206_1_alg».proof.Proof.ReadPatched
import proofs.«142960_j19688130085206_1_alg».proof.Proof.Spec
import proofs.«142960_j19688130085206_1_alg».proof.Proof.RefDefs
import proofs.«142960_j19688130085206_1_alg».proof.Proof.RefLayer0
import proofs.«142960_j19688130085206_1_alg».proof.Proof.RefLayer1
import proofs.«142960_j19688130085206_1_alg».proof.Proof.RefLayer2

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.GnnSpec

/-! ## The head -/

theorem hlidx (p : Fin 50000) (q : Fin 64) (k : Fin 128) : Read.lidx_main_v232 (ix2 p q) k = ix2 p k :=
  funext fun a => by match a with | ⟨0, _⟩ => rfl | ⟨1, _⟩ => rfl
theorem hridx (p : Fin 50000) (q : Fin 64) (k : Fin 128) : Read.ridx_main_v232 (ix2 p q) k = ix2 k q :=
  funext fun a => by match a with | ⟨0, _⟩ => rfl | ⟨1, _⟩ => rfl
theorem hbidx (p : Fin 50000) (q : Fin 64) : Read.idx_main_v233 (Read.idx_main_v234 (ix2 p q)) = ix1 q :=
  funext fun a => by match a with | ⟨0, _⟩ => rfl

/-- The reference's result is the head applied to its last layer's features. -/
theorem head_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (x11 : (⟨S128x64, .f32⟩ : BufTy).Contents (Elt Ideal)) (x12 : (⟨S64, .f32⟩ : BufTy).Contents (Elt Ideal)) :
    Read.val_main_v235 (F := Ideal) x0 x1 x2 x3 x4 x5 x6 x7 x8 x9 x10 x11 x12 = head (Read.val_main_v231 (F := Ideal) x0 x1 x2 x3 x4 x5 x6 x7 x8 x9 x10) x11 x12 := by
  funext i
  obtain ⟨p, q, rfl⟩ : ∃ (p : Fin 50000) (q : Fin 64), i = ix2 p q := ⟨i 0, i 1, eq_ix2 i⟩
  rw [Read.val_main_v235_apply, Read.val_main_v232_apply, Read.val_main_v234_apply, Read.val_main_v233_apply, hbidx,
    Ideal.addf_def]
  show _ = (∑ k : Fin 128, Read.val_main_v231 (F := Ideal) x0 x1 x2 x3 x4 x5 x6 x7 x8 x9 x10 (ix2 p k) * x11 (ix2 k q)) + x12 (ix1 q)
  refine congrArg₂ (· + ·) (Finset.sum_congr rfl fun k _ => ?_) rfl
  rw [hlidx, hridx]

/-! ## The whole network -/

/-- The value the reference returns, as a function of its thirteen arguments, is the specification's network. -/
theorem ref_value (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (x11 : (⟨S128x64, .f32⟩ : BufTy).Contents (Elt Ideal)) (x12 : (⟨S64, .f32⟩ : BufTy).Contents (Elt Ideal)) :
    Read.val_main_v235 (F := Ideal) x0 x1 x2 x3 x4 x5 x6 x7 x8 x9 x10 x11 x12
      = netC (aggR x1) (roR x2) ⟨x3, x4, x5, x6, x7, x8, x9, x10⟩ x0 x11 x12 := by
  rw [head_eq, L2.layer_eq, L1.layer_eq, L0.layer_eq]
  rfl

end Cert.ReferenceIdeal.RefValue

end
-- ==== Proof.RefRun.lean ====
/-
  The reference program's run, read off its operation list in four stretches.

  The run ends with every buffer at the operations' results folded, in order, over the launch contents. Written out
  as one term of the arguments that fold is very large, because every layer reads the previous layer's features three
  times. Read instead stretch by stretch — the first layer, the second, the third, the head — from an arbitrary state of
  the buffers at the stretch's start, each stretch's result is a small term of the few buffers it reads: the previous
  layer's features, the two edge columns, and arguments no operation writes. Chaining the four gives the result as the
  stages' value of the arguments, which is the specification's network.
-/
import proofs.«142960_j19688130085206_1_alg».proof.Defs
import proofs.«142960_j19688130085206_1_alg».proof.Proof.RunPatched
import proofs.«142960_j19688130085206_1_alg».proof.Proof.ReadPatched
import proofs.«142960_j19688130085206_1_alg».proof.Proof.Spec
import proofs.«142960_j19688130085206_1_alg».proof.Proof.RefValue

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.GnnSpec

/-- Folding two lists of operations one after the other is folding their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The first layer: the operations up to the one that writes its features (93 of them). -/
def ops0 : List (HloOp τ sig (Elt Ideal)) := (Value.ops (F := Ideal)).take 93
/-- The second layer (the next 89). -/
def ops1 : List (HloOp τ sig (Elt Ideal)) := ((Value.ops (F := Ideal)).drop 93).take 89
/-- The third layer (the next 89). -/
def ops2 : List (HloOp τ sig (Elt Ideal)) := (((Value.ops (F := Ideal)).drop 93).drop 89).take 89
/-- The head (the last 4). -/
def ops3 : List (HloOp τ sig (Elt Ideal)) := (((Value.ops (F := Ideal)).drop 93).drop 89).drop 89

theorem ops_split : Value.ops (F := Ideal) = ops0 ++ (ops1 ++ (ops2 ++ ops3)) := by
  unfold ops0 ops1 ops2 ops3
  rw [List.take_append_drop, List.take_append_drop, List.take_append_drop]

/-- Spells a stretch out as a list and folds it: what is left is an equation between the operations' term over the
    state at the stretch's start and the right-hand side. -/
local macro "eval_stretch" : tactic =>
  `(tactic| (simp only [ops0, ops1, ops2, ops3, Value.ops, List.drop_succ_cons, List.drop_zero, List.take_succ_cons, List.take_zero]
             after_results_simp))

/-! ## The first layer's stretch -/

set_option maxHeartbeats 4000000 in
theorem s0_v79 (W : Valuation τ sig (Elt Ideal)) :
    after ops0 W (Proc.devRef .tc main_v79) = Read.val_main_v79 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  eval_stretch
  rfl
theorem s0_v1 (W : Valuation τ sig (Elt Ideal)) : after ops0 W (Proc.devRef .tc main_v1) = Read.val_main_v1 (F := Ideal) (W (Proc.devRef .tc main_arg1)) := by
  eval_stretch
  rfl
theorem s0_v3 (W : Valuation τ sig (Elt Ideal)) : after ops0 W (Proc.devRef .tc main_v3) = Read.val_main_v3 (F := Ideal) (W (Proc.devRef .tc main_arg1)) := by
  eval_stretch
  rfl
theorem f0_2 (W : Valuation τ sig (Elt Ideal)) : after ops0 W (Proc.devRef .tc main_arg2) = W (Proc.devRef .tc main_arg2) := by eval_stretch
theorem f0_3 (W : Valuation τ sig (Elt Ideal)) : after ops0 W (Proc.devRef .tc main_arg3) = W (Proc.devRef .tc main_arg3) := by eval_stretch
theorem f0_4 (W : Valuation τ sig (Elt Ideal)) : after ops0 W (Proc.devRef .tc main_arg4) = W (Proc.devRef .tc main_arg4) := by eval_stretch
theorem f0_5 (W : Valuation τ sig (Elt Ideal)) : after ops0 W (Proc.devRef .tc main_arg5) = W (Proc.devRef .tc main_arg5) := by eval_stretch
theorem f0_6 (W : Valuation τ sig (Elt Ideal)) : after ops0 W (Proc.devRef .tc main_arg6) = W (Proc.devRef .tc main_arg6) := by eval_stretch
theorem f0_7 (W : Valuation τ sig (Elt Ideal)) : after ops0 W (Proc.devRef .tc main_arg7) = W (Proc.devRef .tc main_arg7) := by eval_stretch
theorem f0_8 (W : Valuation τ sig (Elt Ideal)) : after ops0 W (Proc.devRef .tc main_arg8) = W (Proc.devRef .tc main_arg8) := by eval_stretch
theorem f0_9 (W : Valuation τ sig (Elt Ideal)) : after ops0 W (Proc.devRef .tc main_arg9) = W (Proc.devRef .tc main_arg9) := by eval_stretch
theorem f0_10 (W : Valuation τ sig (Elt Ideal)) : after ops0 W (Proc.devRef .tc main_arg10) = W (Proc.devRef .tc main_arg10) := by eval_stretch
theorem f0_11 (W : Valuation τ sig (Elt Ideal)) : after ops0 W (Proc.devRef .tc main_arg11) = W (Proc.devRef .tc main_arg11) := by eval_stretch
theorem f0_12 (W : Valuation τ sig (Elt Ideal)) : after ops0 W (Proc.devRef .tc main_arg12) = W (Proc.devRef .tc main_arg12) := by eval_stretch

/-! ## The second layer's stretch -/

set_option maxHeartbeats 4000000 in
theorem s1_v155 (W : Valuation τ sig (Elt Ideal)) (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal))
    (h79 : W (Proc.devRef .tc main_v79) = Read.val_main_v79 (F := Ideal) x0 x1 x2 x3 x4 x5 x6 x7 x8 x9 x10)
    (h1 : W (Proc.devRef .tc main_v1) = Read.val_main_v1 (F := Ideal) x1) (h3 : W (Proc.devRef .tc main_v3) = Read.val_main_v3 (F := Ideal) x1)
    (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) :
    after ops1 W (Proc.devRef .tc main_v155) = Read.val_main_v155 (F := Ideal) x0 x1 x2 x3 x4 x5 x6 x7 x8 x9 x10 := by
  eval_stretch
  simp only [h79, h1, h3, a2, a3, a4, a5, a6, a7, a8, a9, a10]
  rfl
theorem f1_v1 (W : Valuation τ sig (Elt Ideal)) : after ops1 W (Proc.devRef .tc main_v1) = W (Proc.devRef .tc main_v1) := by eval_stretch
theorem f1_v3 (W : Valuation τ sig (Elt Ideal)) : after ops1 W (Proc.devRef .tc main_v3) = W (Proc.devRef .tc main_v3) := by eval_stretch
theorem f1_2 (W : Valuation τ sig (Elt Ideal)) : after ops1 W (Proc.devRef .tc main_arg2) = W (Proc.devRef .tc main_arg2) := by eval_stretch
theorem f1_3 (W : Valuation τ sig (Elt Ideal)) : after ops1 W (Proc.devRef .tc main_arg3) = W (Proc.devRef .tc main_arg3) := by eval_stretch
theorem f1_4 (W : Valuation τ sig (Elt Ideal)) : after ops1 W (Proc.devRef .tc main_arg4) = W (Proc.devRef .tc main_arg4) := by eval_stretch
theorem f1_5 (W : Valuation τ sig (Elt Ideal)) : after ops1 W (Proc.devRef .tc main_arg5) = W (Proc.devRef .tc main_arg5) := by eval_stretch
theorem f1_6 (W : Valuation τ sig (Elt Ideal)) : after ops1 W (Proc.devRef .tc main_arg6) = W (Proc.devRef .tc main_arg6) := by eval_stretch
theorem f1_7 (W : Valuation τ sig (Elt Ideal)) : after ops1 W (Proc.devRef .tc main_arg7) = W (Proc.devRef .tc main_arg7) := by eval_stretch
theorem f1_8 (W : Valuation τ sig (Elt Ideal)) : after ops1 W (Proc.devRef .tc main_arg8) = W (Proc.devRef .tc main_arg8) := by eval_stretch
theorem f1_9 (W : Valuation τ sig (Elt Ideal)) : after ops1 W (Proc.devRef .tc main_arg9) = W (Proc.devRef .tc main_arg9) := by eval_stretch
theorem f1_10 (W : Valuation τ sig (Elt Ideal)) : after ops1 W (Proc.devRef .tc main_arg10) = W (Proc.devRef .tc main_arg10) := by eval_stretch
theorem f1_11 (W : Valuation τ sig (Elt Ideal)) : after ops1 W (Proc.devRef .tc main_arg11) = W (Proc.devRef .tc main_arg11) := by eval_stretch
theorem f1_12 (W : Valuation τ sig (Elt Ideal)) : after ops1 W (Proc.devRef .tc main_arg12) = W (Proc.devRef .tc main_arg12) := by eval_stretch

/-! ## The third layer's stretch -/

set_option maxHeartbeats 4000000 in
theorem s2_v231 (W : Valuation τ sig (Elt Ideal)) (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal))
    (h155 : W (Proc.devRef .tc main_v155) = Read.val_main_v155 (F := Ideal) x0 x1 x2 x3 x4 x5 x6 x7 x8 x9 x10)
    (h1 : W (Proc.devRef .tc main_v1) = Read.val_main_v1 (F := Ideal) x1) (h3 : W (Proc.devRef .tc main_v3) = Read.val_main_v3 (F := Ideal) x1)
    (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) :
    after ops2 W (Proc.devRef .tc main_v231) = Read.val_main_v231 (F := Ideal) x0 x1 x2 x3 x4 x5 x6 x7 x8 x9 x10 := by
  eval_stretch
  simp only [h155, h1, h3, a2, a3, a4, a5, a6, a7, a8, a9, a10]
  rfl
theorem f2_11 (W : Valuation τ sig (Elt Ideal)) : after ops2 W (Proc.devRef .tc main_arg11) = W (Proc.devRef .tc main_arg11) := by eval_stretch
theorem f2_12 (W : Valuation τ sig (Elt Ideal)) : after ops2 W (Proc.devRef .tc main_arg12) = W (Proc.devRef .tc main_arg12) := by eval_stretch

/-! ## The head's stretch -/

theorem s3_v235 (W : Valuation τ sig (Elt Ideal)) (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S3x128, .f32⟩ : BufTy).Contents (Elt Ideal)) (x7 : (⟨S3x128x128, .f32⟩ : BufTy).Contents (Elt Ideal)) (x8 x9 x10 : (⟨S3x128, .f32⟩ : BufTy).Contents (Elt Ideal)) (x11 : (⟨S128x64, .f32⟩ : BufTy).Contents (Elt Ideal)) (x12 : (⟨S64, .f32⟩ : BufTy).Contents (Elt Ideal))
    (h231 : W (Proc.devRef .tc main_v231) = Read.val_main_v231 (F := Ideal) x0 x1 x2 x3 x4 x5 x6 x7 x8 x9 x10)
    (a11 : W (Proc.devRef .tc main_arg11) = x11) (a12 : W (Proc.devRef .tc main_arg12) = x12) :
    after ops3 W (Proc.devRef .tc main_v235) = Read.val_main_v235 (F := Ideal) x0 x1 x2 x3 x4 x5 x6 x7 x8 x9 x10 x11 x12 := by
  eval_stretch
  simp only [h231, a11, a12]
  rfl

/-! ## The whole list -/

/-- From any state of the buffers, the operations leave in the result buffer the stages' value of the arguments. -/
theorem eval_v235 (V : Valuation τ sig (Elt Ideal)) :
    after (Value.ops (F := Ideal)) V (Proc.devRef .tc main_v235) = Read.val_main_v235 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have e : after (Value.ops (F := Ideal)) V = after ops3 (after ops2 (after ops1 (after ops0 V))) := by
    conv_lhs => rw [ops_split]
    rw [after_append, after_append, after_append]
  rw [e]
  have b155 := s1_v155 (after ops0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (s0_v79 V) (s0_v1 V) (s0_v3 V)
    (f0_2 V) (f0_3 V) (f0_4 V) (f0_5 V) (f0_6 V) (f0_7 V) (f0_8 V) (f0_9 V) (f0_10 V)
  have c231 := s2_v231 (after ops1 (after ops0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) b155
    ((f1_v1 _).trans (s0_v1 V)) ((f1_v3 _).trans (s0_v3 V))
    ((f1_2 _).trans (f0_2 V)) ((f1_3 _).trans (f0_3 V)) ((f1_4 _).trans (f0_4 V)) ((f1_5 _).trans (f0_5 V)) ((f1_6 _).trans (f0_6 V)) ((f1_7 _).trans (f0_7 V)) ((f1_8 _).trans (f0_8 V)) ((f1_9 _).trans (f0_9 V)) ((f1_10 _).trans (f0_10 V))
  exact s3_v235 (after ops2 (after ops1 (after ops0 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) c231
    ((f2_11 _).trans ((f1_11 _).trans (f0_11 V))) ((f2_12 _).trans ((f1_12 _).trans (f0_12 V)))

/-! ## No operation writes an argument -/

local macro "eval_all" : tactic => `(tactic| (simp only [Value.ops]; after_results_simp))

set_option maxHeartbeats 4000000 in
theorem u_0 (V : Valuation τ sig (Elt Ideal)) : after (Value.ops (F := Ideal)) V (Proc.devRef .tc main_arg0) = V (Proc.devRef .tc main_arg0) := by eval_all
set_option maxHeartbeats 4000000 in
theorem u_1 (V : Valuation τ sig (Elt Ideal)) : after (Value.ops (F := Ideal)) V (Proc.devRef .tc main_arg1) = V (Proc.devRef .tc main_arg1) := by eval_all
set_option maxHeartbeats 4000000 in
theorem u_2 (V : Valuation τ sig (Elt Ideal)) : after (Value.ops (F := Ideal)) V (Proc.devRef .tc main_arg2) = V (Proc.devRef .tc main_arg2) := by eval_all
set_option maxHeartbeats 4000000 in
theorem u_3 (V : Valuation τ sig (Elt Ideal)) : after (Value.ops (F := Ideal)) V (Proc.devRef .tc main_arg3) = V (Proc.devRef .tc main_arg3) := by eval_all
set_option maxHeartbeats 4000000 in
theorem u_4 (V : Valuation τ sig (Elt Ideal)) : after (Value.ops (F := Ideal)) V (Proc.devRef .tc main_arg4) = V (Proc.devRef .tc main_arg4) := by eval_all
set_option maxHeartbeats 4000000 in
theorem u_5 (V : Valuation τ sig (Elt Ideal)) : after (Value.ops (F := Ideal)) V (Proc.devRef .tc main_arg5) = V (Proc.devRef .tc main_arg5) := by eval_all
set_option maxHeartbeats 4000000 in
theorem u_6 (V : Valuation τ sig (Elt Ideal)) : after (Value.ops (F := Ideal)) V (Proc.devRef .tc main_arg6) = V (Proc.devRef .tc main_arg6) := by eval_all
set_option maxHeartbeats 4000000 in
theorem u_7 (V : Valuation τ sig (Elt Ideal)) : after (Value.ops (F := Ideal)) V (Proc.devRef .tc main_arg7) = V (Proc.devRef .tc main_arg7) := by eval_all
set_option maxHeartbeats 4000000 in
theorem u_8 (V : Valuation τ sig (Elt Ideal)) : after (Value.ops (F := Ideal)) V (Proc.devRef .tc main_arg8) = V (Proc.devRef .tc main_arg8) := by eval_all
set_option maxHeartbeats 4000000 in
theorem u_9 (V : Valuation τ sig (Elt Ideal)) : after (Value.ops (F := Ideal)) V (Proc.devRef .tc main_arg9) = V (Proc.devRef .tc main_arg9) := by eval_all
set_option maxHeartbeats 4000000 in
theorem u_10 (V : Valuation τ sig (Elt Ideal)) : after (Value.ops (F := Ideal)) V (Proc.devRef .tc main_arg10) = V (Proc.devRef .tc main_arg10) := by eval_all
set_option maxHeartbeats 4000000 in
theorem u_11 (V : Valuation τ sig (Elt Ideal)) : after (Value.ops (F := Ideal)) V (Proc.devRef .tc main_arg11) = V (Proc.devRef .tc main_arg11) := by eval_all
set_option maxHeartbeats 4000000 in
theorem u_12 (V : Valuation τ sig (Elt Ideal)) : after (Value.ops (F := Ideal)) V (Proc.devRef .tc main_arg12) = V (Proc.devRef .tc main_arg12) := by eval_all

/-! ## The run -/

set_option maxRecDepth 8192 in
set_option maxHeartbeats 110000000 in
/-- Every weakly fair execution of the reference program terminates with each buffer at the operations' results
    folded over its launch contents. -/
theorem run_after (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = after (Value.ops (F := Ideal)) (launchContents m c) (Proc.devRef .tc b) :=
  run_seq Value.scopedRefs_eq Value.scopedSems_eq defs main (fun _ => Value.ops) Value.main_eq (fun _ => Value.ops_sub) m ρ

/-- The reference program's run ends with the specification's network of its arguments in its result buffer, and
    with its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v235)
        = netC (aggR (m ((c.tc : Thread nD τ).loc main_arg1))) (roR (m ((c.tc : Thread nD τ).loc main_arg2)))
            ⟨m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩
            (m ((c.tc : Thread nD τ).loc main_arg0)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨(h c main_v235).trans ((eval_v235 (launchContents m c)).trans (ref_value _ _ _ _ _ _ _ _ _ _ _ _ _)),
      (h c main_arg0).trans (u_0 _), (h c main_arg1).trans (u_1 _), (h c main_arg2).trans (u_2 _), (h c main_arg3).trans (u_3 _), (h c main_arg4).trans (u_4 _), (h c main_arg5).trans (u_5 _), (h c main_arg6).trans (u_6 _), (h c main_arg7).trans (u_7 _), (h c main_arg8).trans (u_8 _), (h c main_arg9).trans (u_9 _), (h c main_arg10).trans (u_10 _), (h c main_arg11).trans (u_11 _), (h c main_arg12).trans (u_12 _)⟩)
    (run_after m ρ)

end Cert.ReferenceIdeal.RefValue

end
-- ==== Proof.Recon.lean ====
/-
  The two programs build the same index columns and the same zero arrays from the edge list and the graph
  assignment, by the same operations, and name the same gather and scatter-add shapes; so their neighbour sums and
  their per-graph read-outs are the same functions of the node features.
-/
import proofs.«142960_j19688130085206_1_alg».proof.Proof.RefDefs
import proofs.«142960_j19688130085206_1_alg».proof.Proof.HostK

set_option maxRecDepth 16384

noncomputable section

namespace Cert.Recon

open Idealize.ShloMosaic Idealize.ShloMosaic.ValueIdx Cert.GnnSpec

theorem gd_agg_eq : Cert.ReferenceIdeal.gather_S50000x128_S800000x1_S800000x128_1_0_n_n_0_1_1128 = Cert.KernelIdeal.gather_S50000x128_S800000x1_S800000x128_1_0_n_n_0_1_1128 := rfl
theorem sd_agg_eq : Cert.ReferenceIdeal.scatter_S50000x128_S800000x1_S800000x128_1_0_0_1 = Cert.KernelIdeal.scatter_S50000x128_S800000x1_S800000x128_1_0_0_1 := rfl
theorem gd_ro_eq : Cert.ReferenceIdeal.gather_S64x128_S50000x1_S50000x128_1_0_n_n_0_1_1128 = Cert.KernelIdeal.gather_S64x128_S50000x1_S50000x128_1_0_n_n_0_1_1128 := rfl
theorem sd_ro_eq : Cert.ReferenceIdeal.scatter_S64x128_S50000x1_S50000x128_1_0_0_1 = Cert.KernelIdeal.scatter_S64x128_S50000x1_S50000x128_1_0_0_1 := rfl

theorem src_eq (x1 : IVec Cert.KernelIdeal.S2x800000 32) : Cert.ReferenceIdeal.RefValue.srcR x1 = Cert.KernelIdeal.Chain.srcK x1 := rfl
theorem dst_eq (x1 : IVec Cert.KernelIdeal.S2x800000 32) : Cert.ReferenceIdeal.RefValue.dstR x1 = Cert.KernelIdeal.Chain.dstK x1 := rfl
theorem zAgg_eq : Cert.ReferenceIdeal.RefValue.zAggR = Cert.KernelIdeal.Chain.zAggK := rfl
theorem b_eq (x2 : IVec Cert.KernelIdeal.S50000 32) : Cert.ReferenceIdeal.RefValue.bR x2 = Cert.KernelIdeal.Chain.bK x2 := rfl
theorem b'_eq (x2 : IVec Cert.KernelIdeal.S50000 32) : Cert.ReferenceIdeal.RefValue.bR' x2 = Cert.KernelIdeal.Chain.bK' x2 := rfl
theorem zRo_eq : Cert.ReferenceIdeal.RefValue.zRoR = Cert.KernelIdeal.Chain.zRoK := rfl

/-- The neighbour sums are the same function in both programs. -/
theorem agg_eq (x1 : IVec Cert.KernelIdeal.S2x800000 32) : Cert.ReferenceIdeal.RefValue.aggR x1 = Cert.KernelIdeal.Chain.aggK x1 := by
  funext h
  show aggOf _ _ _ _ _ h = aggOf _ _ _ _ _ h
  rw [gd_agg_eq, sd_agg_eq, src_eq, dst_eq, zAgg_eq]

/-- The per-graph read-outs are the same function in both programs. -/
theorem ro_eq (x2 : IVec Cert.KernelIdeal.S50000 32) : Cert.ReferenceIdeal.RefValue.roR x2 = Cert.KernelIdeal.Chain.roK x2 := by
  funext h
  show roOf _ _ _ _ _ h = roOf _ _ _ _ _ h
  rw [gd_ro_eq, sd_ro_eq, b_eq, b'_eq, zRo_eq]

end Cert.Recon

end
-- ==== Proof.FinIn.lean ====
/-
  From the precondition to real entries. The precondition says that for every float argument array x the test
  |x| < +∞ holds at every entry (a conjunction, over the arrays, of "and" taken over all entries). An extended real
  whose absolute value max x (−x) is below +∞ is neither +∞ nor −∞, hence a real number.
-/
import proofs.«142960_j19688130085206_1_alg».proof.Defs
import proofs.«142960_j19688130085206_1_alg».proof.Proof.Gen.Pre_finite_inputs
import proofs.«142960_j19688130085206_1_alg».proof.Proof.SpecLaws
import Idealize.ShloMosaic.Lib.ReduceAll
import Idealize.ShloMosaic.Lib.IdealHost

noncomputable section

namespace Cert.FinIn

open Idealize.ShloMosaic Idealize.ShloMosaic.ValueIdx Idealize.SL.Sem

/-- The result of a reduction over all axes has one index. -/
instance : Subsingleton Cert.Pre_finite_inputs.S_.Idx := ⟨fun a b => funext fun d => d.elim0⟩

/-- The pattern 0x7F800000 is +∞. -/
theorem ofBits_inf : Ideal.ofBits .f32 0x7F800000#32 = ⊤ := by simp [Ideal.ofBits, Ideal.ieee]

/-- An extended real whose absolute value max a (−a) is strictly below +∞ is a real number. -/
theorem real_of_abs_lt_top (a : EReal) (h : Ideal.cmp .olt (max a (-a)) (Ideal.ofBits .f32 0x7F800000#32) = 1#1) :
    ∃ r : ℝ, a = (r : EReal) := by
  rw [ofBits_inf] at h
  induction a using EReal.rec with
  | bot => exfalso; simp [Ideal.cmp] at h
  | coe r => exact ⟨r, rfl⟩
  | top => exfalso; simp [Ideal.cmp] at h

/-- If the test |x| < +∞, taken at every entry and combined by "and" over all entries, is true, then every entry of x
    is real. -/
theorem isReal_of_all {s : Shape} {axes : List (Fin s.rank)} (hb : Cert.Pre_finite_inputs.S_.BroadcastsInDim s ![])
    (hr : s.ReducesTo axes Cert.Pre_finite_inputs.S_) (hu : 0 < Cert.Pre_finite_inputs.S_.numel) (x : FVec Ideal s .f32)
    (e : Host.reduce IntOp.andi (cmpf .olt (Host.absf x) (broadcastInDim s ![] hb (constant (F := Ideal) Cert.Pre_finite_inputs.S_ .f32 0x7F800000#32)))
      (constantI Cert.Pre_finite_inputs.S_ 1 1#1) hr hu ix0 = 1#1) : Cert.GnnSpec.IsReal x := by
  intro i
  have hi := Host.reduce_andi_all _ _ hr hu ix0 e i
  rw [cmpf_apply, broadcastInDim_scalar_apply] at hi
  exact real_of_abs_lt_top (x i) hi

/-- Under the precondition every float argument array of the network has real entries: the input features and the
    eight weight arrays of the three layers. -/
theorem isReal_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.GnnSpec.IsReal (m ((c.tc : Thread Cert.KernelIdeal.nD Cert.KernelIdeal.τ).loc Cert.KernelIdeal.main_arg0))
    ∧ Cert.GnnSpec.IsReal (m ((c.tc : Thread Cert.KernelIdeal.nD Cert.KernelIdeal.τ).loc Cert.KernelIdeal.main_arg3))
    ∧ Cert.GnnSpec.IsReal (m ((c.tc : Thread Cert.KernelIdeal.nD Cert.KernelIdeal.τ).loc Cert.KernelIdeal.main_arg4))
    ∧ Cert.GnnSpec.IsReal (m ((c.tc : Thread Cert.KernelIdeal.nD Cert.KernelIdeal.τ).loc Cert.KernelIdeal.main_arg5))
    ∧ Cert.GnnSpec.IsReal (m ((c.tc : Thread Cert.KernelIdeal.nD Cert.KernelIdeal.τ).loc Cert.KernelIdeal.main_arg6))
    ∧ Cert.GnnSpec.IsReal (m ((c.tc : Thread Cert.KernelIdeal.nD Cert.KernelIdeal.τ).loc Cert.KernelIdeal.main_arg7))
    ∧ Cert.GnnSpec.IsReal (m ((c.tc : Thread Cert.KernelIdeal.nD Cert.KernelIdeal.τ).loc Cert.KernelIdeal.main_arg8))
    ∧ Cert.GnnSpec.IsReal (m ((c.tc : Thread Cert.KernelIdeal.nD Cert.KernelIdeal.τ).loc Cert.KernelIdeal.main_arg9))
    ∧ Cert.GnnSpec.IsReal (m ((c.tc : Thread Cert.KernelIdeal.nD Cert.KernelIdeal.τ).loc Cert.KernelIdeal.main_arg10)) := by
  have e := congrFun (h c) ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h3⟩, h4⟩, h5⟩, h6⟩, h7⟩, h8⟩, h9⟩, h10⟩, -⟩, -⟩ := e
  exact ⟨isReal_of_all _ _ _ _ h0, isReal_of_all _ _ _ _ h3, isReal_of_all _ _ _ _ h4, isReal_of_all _ _ _ _ h5,
    isReal_of_all _ _ _ _ h6, isReal_of_all _ _ _ _ h7, isReal_of_all _ _ _ _ h8, isReal_of_all _ _ _ _ h9,
    isReal_of_all _ _ _ _ h10⟩

end Cert.FinIn

end
-- ==== Proof.lean ====
/-
  The certificate of a three-layer graph network with batch normalisation: the kernel program (seven kernel
  regions among stretches of host operations: per layer a combine-and-statistics region and a normalisation region,
  then the prediction head) against its reference.

  At the ideal values both programs compute, per layer, pre = max(h·V + v + (agg·A + a) + (ro·R + r), 0) with agg
  the neighbour sums and ro the per-graph read-outs of h, then normalise every column of pre over the 50000 rows and
  scale and shift it; the head is one more affine map. The reference takes the column variance as the mean of the
  squared deviations from the column mean; the kernel sums pre and pre² block by block over ten blocks of 5000 rows
  and takes the mean of the squares less the square of the mean. On real entries these are one number, and real
  entries stay real through every step (a finite sum of products of reals; a clamp; the reciprocal root of a
  non-negative real plus a positive ε; sums of gathered rows), so under the precondition that every float input is
  finite the two results are equal entry by entry. The kernel's idealization rewrote nothing.
-/
import proofs.«142960_j19688130085206_1_alg».proof.Defs
import proofs.«142960_j19688130085206_1_alg».proof.Proof.Gen.Kernel
import proofs.«142960_j19688130085206_1_alg».proof.Proof.Gen.Kernel.Skeleton
import proofs.«142960_j19688130085206_1_alg».proof.Proof.Gen.Kernel.Launch
import proofs.«142960_j19688130085206_1_alg».proof.Proof.Gen.Kernel.Points
import proofs.«142960_j19688130085206_1_alg».proof.Proof.Gen.Kernel.Frame
import proofs.«142960_j19688130085206_1_alg».proof.Proof.Gen.KernelIdeal
import proofs.«142960_j19688130085206_1_alg».proof.Proof.Gen.KernelIdeal.Skeleton
import proofs.«142960_j19688130085206_1_alg».proof.Proof.Gen.KernelIdeal.Launch
import proofs.«142960_j19688130085206_1_alg».proof.Proof.Gen.KernelIdeal.Points
import proofs.«142960_j19688130085206_1_alg».proof.Proof.Gen.KernelIdeal.Frame
import proofs.«142960_j19688130085206_1_alg».proof.Proof.Gen.ReferenceIdeal
import proofs.«142960_j19688130085206_1_alg».proof.Proof.Gen.Pre_finite_inputs
import proofs.«142960_j19688130085206_1_alg».proof.Proof.Chain
import proofs.«142960_j19688130085206_1_alg».proof.Proof.RefRun
import proofs.«142960_j19688130085206_1_alg».proof.Proof.Recon
import proofs.«142960_j19688130085206_1_alg».proof.Proof.FinIn
import proofs.«142960_j19688130085206_1_alg».proof.Proof.SpecLaws
import Idealize.ShloMosaic.Lib.IdealHost
import Idealize.ShloMosaic.Adequacy
import Idealize.ShloMosaic.Init

noncomputable section

namespace Cert.Proof

open Idealize.ShloMosaic Idealize.SL.Sem Idealize.ShloMosaic.ValueIdx Cert.GnnSpec

/-- The array of zeros the neighbour sums are added into has real entries. -/
theorem isReal_zAgg : IsReal Cert.KernelIdeal.Chain.zAggK := fun i =>
  ⟨0, (broadcastInDim_scalar_apply _ _ i).trans (Ideal.ofBits_zero_f32.trans EReal.coe_zero.symm)⟩

/-- The array of zeros the per-graph sums are added into has real entries. -/
theorem isReal_zRo : IsReal Cert.KernelIdeal.Chain.zRoK := fun i =>
  ⟨0, (broadcastInDim_scalar_apply _ _ i).trans (Ideal.ofBits_zero_f32.trans EReal.coe_zero.symm)⟩

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_run m ρ)

/-- From memories agreeing on the arguments, under finite float inputs, the two programs end with equal results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.Chain.kernel_run m ρ, ?_⟩
  refine (θ_run Cert.ReferenceIdeal.defs _ _).mono (fun _ h c => ⟨(h c).1.trans ?_, (h c).2⟩) (Cert.ReferenceIdeal.RefValue.ref_run m' ρ')
  obtain ⟨a0, a1, a2, a3, a4, a5, a6, a7, a8, a9, a10, a11, a12⟩ := hagree c
  obtain ⟨r0, r3, r4, r5, r6, r7, r8, r9, r10⟩ := Cert.FinIn.isReal_of_pre m hpre c
  rw [a0, a1, a2, a3, a4, a5, a6, a7, a8, a9, a10, a11, a12, Cert.Recon.agg_eq, Cert.Recon.ro_eq]
  exact (netM_eq_netC _ _
    (fun h hh => isReal_aggOf _ _ _ _ _ isReal_zAgg h hh)
    (fun h hh => isReal_roOf _ _ _ _ _ isReal_zRo h hh)
    ⟨m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10)⟩
    ⟨r3, r4, r5, r6, r7, r8, r9, r10⟩ _ r0 _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
